-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S8192x30 : Shape := ⟨2, ![8192, 30]⟩
abbrev S2048 : Shape := ⟨1, ![2048]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel

variable [Facts]

def fn {F : FTy → Type} [FloatOps F] (main_arg0 : FVec F S2048x32 .f32) (main_arg1 : IVec S8192x30 32) (main_arg2 : IVec S2048 32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  main_v3
-- ==== Kernel.lean ====
abbrev S2048x32 : Shape := ⟨2, ![2048, 32]⟩
abbrev S8192x30 : Shape := ⟨2, ![8192, 30]⟩
abbrev S2048 : Shape := ⟨1, ![2048]⟩
abbrev S_ : Shape := ⟨0, ![]⟩
abbrev S2048x1 : Shape := ⟨2, ![2048, 1]⟩
abbrev S2048x30 : Shape := ⟨2, ![2048, 30]⟩
abbrev S1x2048 : Shape := ⟨2, ![1, 2048]⟩
abbrev S256x32 : Shape := ⟨2, ![256, 32]⟩
abbrev S256x30 : Shape := ⟨2, ![256, 30]⟩
abbrev S256x1 : Shape := ⟨2, ![256, 1]⟩
abbrev S256x2048 : Shape := ⟨2, ![256, 2048]⟩
abbrev S256 : Shape := ⟨1, ![256]⟩

abbrev nBuf : Space → Nat
  | .hbm => 29
  | .vmem => 11
  | .smem => 0
  | _ => 0

abbrev bufTy : (tb : Table) → Fin (tcTables nBuf tb) → BufTy
  | .hbm, ⟨0, _⟩ => ⟨S2048x32, .f32⟩
  | .hbm, ⟨1, _⟩ => ⟨S8192x30, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048x30, .i32⟩
  | .hbm, ⟨12, _⟩ => ⟨S1x2048, .i32⟩
  | .hbm, ⟨13, _⟩ => ⟨S2048x32, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S1x2048, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S256x32, .f32⟩
  | .local _ .vmem, ⟨1, _⟩ => ⟨S256x32, .f32⟩
  | .local _ .vmem, ⟨2, _⟩ => ⟨S2048x32, .f32⟩
  | .local _ .vmem, ⟨3, _⟩ => ⟨S1x2048, .f32⟩
  | .local _ .vmem, ⟨4, _⟩ => ⟨S256x30, .i32⟩
  | .local _ .vmem, ⟨5, _⟩ => ⟨S256x30, .i32⟩
  | .local _ .vmem, ⟨6, _⟩ => ⟨S1x2048, .i32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x30 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S1x2048 : S2048.ShapeCasts S1x2048
  reducesTo_S2048x32_S2048_d1 : S2048x32.ReducesTo [1] S2048
  h_S_ : 0 < S_.numel
  shapeCasts_S2048x1_S1x2048 : S2048x1.ShapeCasts S1x2048
  iota_S256x2048_d0_w32 : S256x2048.Iotas .tc 32 [0]
  iota_S256x2048_d1_w32 : S256x2048.Iotas .tc 32 [1]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x30_S256x30_0_0 : ∀ a, (![0, 0] : Fin 2 → Nat) a + S256x30.size a ≤ S256x30.size a
  h_S256x30 : 0 < S256x30.numel
  shapeCasts_S256x30_S256x30 : S256x30.ShapeCasts S256x30
  slices_S256x30_o0_0_S256x1 : S256x30.Slices ![0, 0] S256x1
  broadcasts_S256x1_S256x2048 : S256x1.Broadcasts S256x2048
  slices_S256x30_o0_1_S256x1 : S256x30.Slices ![0, 1] S256x1
  slices_S256x30_o0_2_S256x1 : S256x30.Slices ![0, 2] S256x1
  slices_S256x30_o0_3_S256x1 : S256x30.Slices ![0, 3] S256x1
  slices_S256x30_o0_4_S256x1 : S256x30.Slices ![0, 4] S256x1
  slices_S256x30_o0_5_S256x1 : S256x30.Slices ![0, 5] S256x1
  slices_S256x30_o0_6_S256x1 : S256x30.Slices ![0, 6] S256x1
  slices_S256x30_o0_7_S256x1 : S256x30.Slices ![0, 7] S256x1
  slices_S256x30_o0_8_S256x1 : S256x30.Slices ![0, 8] S256x1
  slices_S256x30_o0_9_S256x1 : S256x30.Slices ![0, 9] S256x1
  slices_S256x30_o0_10_S256x1 : S256x30.Slices ![0, 10] S256x1
  slices_S256x30_o0_11_S256x1 : S256x30.Slices ![0, 11] S256x1
  slices_S256x30_o0_12_S256x1 : S256x30.Slices ![0, 12] S256x1
  slices_S256x30_o0_13_S256x1 : S256x30.Slices ![0, 13] S256x1
  slices_S256x30_o0_14_S256x1 : S256x30.Slices ![0, 14] S256x1
  slices_S256x30_o0_15_S256x1 : S256x30.Slices ![0, 15] S256x1
  slices_S256x30_o0_16_S256x1 : S256x30.Slices ![0, 16] S256x1
  slices_S256x30_o0_17_S256x1 : S256x30.Slices ![0, 17] S256x1
  slices_S256x30_o0_18_S256x1 : S256x30.Slices ![0, 18] S256x1
  slices_S256x30_o0_19_S256x1 : S256x30.Slices ![0, 19] S256x1
  slices_S256x30_o0_20_S256x1 : S256x30.Slices ![0, 20] S256x1
  slices_S256x30_o0_21_S256x1 : S256x30.Slices ![0, 21] S256x1
  slices_S256x30_o0_22_S256x1 : S256x30.Slices ![0, 22] S256x1
  slices_S256x30_o0_23_S256x1 : S256x30.Slices ![0, 23] S256x1
  slices_S256x30_o0_24_S256x1 : S256x30.Slices ![0, 24] S256x1
  slices_S256x30_o0_25_S256x1 : S256x30.Slices ![0, 25] S256x1
  slices_S256x30_o0_26_S256x1 : S256x30.Slices ![0, 26] S256x1
  slices_S256x30_o0_27_S256x1 : S256x30.Slices ![0, 27] S256x1
  slices_S256x30_o0_28_S256x1 : S256x30.Slices ![0, 28] S256x1
  slices_S256x30_o0_29_S256x1 : S256x30.Slices ![0, 29] S256x1
  natLt_1_32 : 1 < 32
  reduces_S256x2048_S256 : S256x2048.Reduces [1] S256
  shapeCasts_S256_S256x1 : S256.ShapeCasts S256x1
  inb_S256x32_S256x32_0_0 : ∀ a, (![0, 0] : Fin 2 → Nat) a + S256x32.size a ≤ S256x32.size a
  h_S256x32 : 0 < S256x32.numel
  inb_S2048x32_S2048x32_0_0 : ∀ a, (![0, 0] : Fin 2 → Nat) a + S2048x32.size a ≤ S2048x32.size a
  h_S2048x32 : 0 < S2048x32.numel
  bitsLt_bf16_f32 : FTy.bits .bf16 < FTy.bits .f32
  reduces_S256x32_S256 : S256x32.Reduces [1] S256
  inb_S256x1_S256x1_0_0 : ∀ a, (![0, 0] : Fin 2 → Nat) a + S256x1.size a ≤ S256x1.size a
  h_S256x1 : 0 < S256x1.numel
  reducesTo_S2048x1_S_d0_1 : S2048x1.ReducesTo [0, 1] S_
  gather_S8192x30_S2048x1_S2048x30_1_0_n_n_0_1_130_wf : GatherDims.WF S8192x30 S2048x1 S2048x30 [1] [0] [] [0] [] 1 ![1, 30]
  dot_S256x32_S2048x32_S256x2048_1_1_0_0_n_n_wf : DotDims.WF S256x32 S2048x32 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S2048x32.size a
  hwx0_0 : ∀ i : grid0.Coords, EltTy.bits .f32 = 32 ∨ (Rect.block (s := S2048x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S2048x32.size a
  hwx0_1 : ∀ i : grid0.Coords, EltTy.bits .f32 = 32 ∨ (Rect.block (s := S2048x32) S2048x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x30.size a ≤ S2048x30.size a
  hwx0_3 : ∀ i : grid0.Coords, EltTy.bits .i32 = 32 ∨ (Rect.block (s := S2048x30) S256x30.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .i32 = 32 ∨ (Rect.block (s := S1x2048) S1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)

variable [Facts₀]

def gather_S8192x30_S2048x1_S2048x30_1_0_n_n_0_1_130 : GatherDims S8192x30 S2048x1 S2048x30 where
  offsetDims := [1]
  collapsedSliceDims := [0]
  operandBatchingDims := []
  startIndicesBatchingDims := []
  startIndexMap := [0]
  indexVectorDim := 1
  sliceSizes := ![1, 30]
  wf := gather_S8192x30_S2048x1_S2048x30_1_0_n_n_0_1_130_wf
def dot_S256x32_S2048x32_S256x2048_1_1_0_0_n_n : DotDims S256x32 S2048x32 S256x2048 where
  lhsContracting := [1]
  rhsContracting := [1]
  lhsNonContracting := [0]
  rhsNonContracting := [0]
  lhsBatch := []
  rhsBatch := []
  wf := dot_S256x32_S2048x32_S256x2048_1_1_0_0_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x30.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x32 : Shape := ⟨2, ![2048, 32]⟩
abbrev S8192x30 : Shape := ⟨2, ![8192, 30]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩
abbrev S32x2048 : Shape := ⟨2, ![32, 2048]⟩
abbrev S2048x30 : Shape := ⟨2, ![2048, 30]⟩
abbrev S2048x30x1 : Shape := ⟨3, ![2048, 30, 1]⟩
abbrev S1x1x2048 : Shape := ⟨3, ![1, 1, 2048]⟩
abbrev S2048x30x2048 : Shape := ⟨3, ![2048, 30, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S8192x30, .i32⟩
  | .hbm, ⟨2, _⟩ => ⟨S2048, .i32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x32, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S1x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S32x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x2048, .f32⟩
  | .hbm, ⟨52, _⟩ => ⟨S2048x2048, .f32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S2048x1, .i32⟩
  | .hbm, ⟨61, _⟩ => ⟨S2048x30, .i32⟩
  | .hbm, ⟨62, _⟩ => ⟨S2048x30x1, .i32⟩
  | .hbm, ⟨63, _⟩ => ⟨S1x1x2048, .i32⟩
  | .hbm, ⟨64, _⟩ => ⟨S2048x30x2048, .i32⟩
  | .hbm, ⟨65, _⟩ => ⟨S2048x30x2048, .i32⟩
  | .hbm, ⟨66, _⟩ => ⟨S2048x30x2048, .i1⟩
  | .hbm, ⟨67, _⟩ => ⟨S_, .i1⟩
  | .hbm, ⟨68, _⟩ => ⟨S2048x2048, .i1⟩
  | .hbm, ⟨69, _⟩ => ⟨S2048x2048, .i1⟩
  | .hbm, ⟨70, _⟩ => ⟨S2048x2048, .i1⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S_, .i1⟩
  | .hbm, ⟨76, _⟩ => ⟨S2048, .i1⟩
  | .hbm, ⟨77, _⟩ => ⟨S2048, .i32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S2048, .f32⟩
  | .hbm, ⟨85, _⟩ => ⟨S_, .f32⟩
  | .hbm, ⟨86, _⟩ => ⟨S_, .f32⟩
  | .hbm, ⟨87, _⟩ => ⟨S2048, .f32⟩
  | .hbm, ⟨88, _⟩ => ⟨S2048, .f32⟩
  | .hbm, ⟨89, _⟩ => ⟨S_, .f32⟩
  | .hbm, ⟨90, _⟩ => ⟨S_, .f32⟩
  | .hbm, ⟨91, _⟩ => ⟨S_, .i32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_call2_v0 : Ref sig .tc := ⟨.hbm, 86, rfl⟩
abbrev main_call2_v1 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_c_17 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  reducesTo_S2048x32_S2048_d1 : S2048x32.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x32_S32x2048_1_0 : S2048x32.Transposes [1, 0] S32x2048
  reducesTo_S2048x2048_S2048_d1 : S2048x2048.ReducesTo [1] S2048
  bcast_S_S2048 : S_.BroadcastsInDim S2048 (![] : Fin 0 → Fin S2048.rank)
  bcast_S2048x30_S2048x30x1_0_1 : S2048x30.BroadcastsInDim S2048x30x1 (![0, 1] : Fin 2 → Fin S2048x30x1.rank)
  bcast_S2048_S1x1x2048_2 : S2048.BroadcastsInDim S1x1x2048 (![2] : Fin 1 → Fin S1x1x2048.rank)
  bcast_S2048x30x1_S2048x30x2048_0_1_2 : S2048x30x1.BroadcastsInDim S2048x30x2048 (![0, 1, 2] : Fin 3 → Fin S2048x30x2048.rank)
  bcast_S1x1x2048_S2048x30x2048_0_1_2 : S1x1x2048.BroadcastsInDim S2048x30x2048 (![0, 1, 2] : Fin 3 → Fin S2048x30x2048.rank)
  reducesTo_S2048x30x2048_S2048x2048_d1 : S2048x30x2048.ReducesTo [1] S2048x2048
  natLt_1_32 : 1 < 32
  reducesTo_S2048_S_d0 : S2048.ReducesTo [0] S_
  dot_S2048x32_S32x2048_S2048x2048_1_0_0_1_n_n_wf : DotDims.WF S2048x32 S32x2048 S2048x2048 [1] [0] [0] [1] [] []
  gather_S8192x30_S2048x1_S2048x30_1_0_n_n_0_1_130_wf : GatherDims.WF S8192x30 S2048x1 S2048x30 [1] [0] [] [0] [] 1 ![1, 30]

variable [Facts₀]

def dot_S2048x32_S32x2048_S2048x2048_1_0_0_1_n_n : DotDims S2048x32 S32x2048 S2048x2048 where
  lhsContracting := [1]
  rhsContracting := [0]
  lhsNonContracting := [0]
  rhsNonContracting := [1]
  lhsBatch := []
  rhsBatch := []
  wf := dot_S2048x32_S32x2048_S2048x2048_1_0_0_1_n_n_wf
def gather_S8192x30_S2048x1_S2048x30_1_0_n_n_0_1_130 : GatherDims S8192x30 S2048x1 S2048x30 where
  offsetDims := [1]
  collapsedSliceDims := [0]
  operandBatchingDims := []
  startIndicesBatchingDims := []
  startIndexMap := [0]
  indexVectorDim := 1
  sliceSizes := ![1, 30]
  wf := gather_S8192x30_S2048x1_S2048x30_1_0_n_n_0_1_130_wf

class Facts : Prop extends Facts₀ where

variable [Facts]
-- ==== Proof.BodyB.lean ====
/-
  The kernel region's body, at any float instance: what each of the two result blocks holds after the body
  at a grid point, as a function of the five input blocks there (the row block of the points, all the points,
  the row of squared norms, the row block of neighbour lists, the row of sample ids), and the proof data of
  the pipeline built on it.

  The body loads each input block whole, computes, and stores each result block whole: a 256 x 1 column of
  per-row losses and a 256 x 1 column of per-row validity flags. Nothing is carried from one grid point to
  the next.
-/
import proofs.«172015_j17892833755270_2_alg».proof.Proof.Gen.Kernel.Launch
import proofs.«172015_j17892833755270_2_alg».proof.Proof.Gen.Kernel.Skeleton
import proofs.«172015_j17892833755270_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The body's accesses: every block whole -/

abbrev rZi : Rect S256x32 := Rect.unit (s := S256x32) ![0, 0] S256x32.size inb_S256x32_S256x32_0_0
abbrev rZ : Rect S2048x32 := Rect.unit (s := S2048x32) ![0, 0] S2048x32.size inb_S2048x32_S2048x32_0_0
abbrev rRow : Rect S1x2048 := Rect.unit (s := S1x2048) ![0, 0] S1x2048.size inb_S1x2048_S1x2048_0_0
abbrev rKnn : Rect S256x30 := Rect.unit (s := S256x30) ![0, 0] S256x30.size inb_S256x30_S256x30_0_0
abbrev rCol : Rect S256x1 := Rect.unit (s := S256x1) ![0, 0] S256x1.size inb_S256x1_S256x1_0_0

/-! ## What the body leaves in each result block -/

/-- The sample ids spread over the rows, the neighbour lists, and the membership flags of the 30 list positions joined. -/
abbrev ids (x4 : Vec F S1x2048 .i32) : IVec S256x2048 32 := k0_pay4 (View.ld x4 rRow)
abbrev nbrs (x3 : Vec F S256x30 .i32) : IVec S256x30 32 := k0_pay5 (View.ld x3 rKnn)
abbrev inSet (x3 : Vec F S256x30 .i32) (x4 : Vec F S1x2048 .i32) : IVec S256x2048 1 :=
  k0_pay7 (ids x4) (nbrs x3) (k0_pay6 (View.ld x4 rRow) (View.ld x3 rKnn))
/-- The neighbour mask as a float, and the per-row validity flag. -/
abbrev maskF (i : grid0.Coords) (x3 : Vec F S256x30 .i32) (x4 : Vec F S1x2048 .i32) : FVec F S256x2048 .f32 :=
  k0_pay9 (k0_pay3 i) (ids x4) (nbrs x3) (inSet x3 x4)
abbrev validB (i : grid0.Coords) (x3 : Vec F S256x30 .i32) (x4 : Vec F S1x2048 .i32) : IVec S256x1 1 :=
  k0_pay10 (F := F) (k0_pay3 i) (ids x4) (nbrs x3) (inSet x3 x4)

/-- The loss column after the body, from the input blocks. -/
def outLoss (i : grid0.Coords) (x0 : Vec F S256x32 .f32) (x1 : Vec F S2048x32 .f32) (x2 : Vec F S1x2048 .f32) (x3 : Vec F S256x30 .i32) (x4 : Vec F S1x2048 .i32) : Vec F S256x1 .f32 :=
  View.canon [⟨rCol, k0_pay1 (k0_pay3 i) (maskF i x3 x4) (validB i x3 x4) (k0_pay11 (View.ld x0 rZi) (View.ld x2 rRow)) (k0_pay12 (View.ld x0 rZi) (View.ld x1 rZ))⟩]

/-- The validity column after the body. -/
def outValid (i : grid0.Coords) (x3 : Vec F S256x30 .i32) (x4 : Vec F S1x2048 .i32) : Vec F S256x1 .f32 :=
  View.canon [⟨rCol, k0_pay2 (F := F) (validB i x3 x4)⟩]

/-- One whole-block store covers the block. -/
theorem coverCol (p0 : Vec F S256x1 .f32) (y : S256x1.Idx) :
    ∃ pc ∈ ([⟨rCol, p0⟩] : List (View.Piece (Elt F) S256x1 .f32)), y ∈ pc.1.set :=
  View.cover_of_tiled [⟨rCol, p0⟩] S256x1.size (by rfl) y

/-! ## The body's triple -/

set_option maxHeartbeats 4000000 in
/-- The body on whole staging memrefs, the inputs' at read contents and the results' at anything, runs to the
    continuation holding the inputs' as they were and each result's at its column. -/
theorem sound_kernel (c : Dev nD) (E : Set ℕ) (i : grid0.Coords)
    (arg1 : Memref sig .tc .vmem S256x32 .f32) (harg1 : arg1.IsWhole) (arg2 : Memref sig .tc .vmem S2048x32 .f32) (harg2 : arg2.IsWhole)
    (arg3 : Memref sig .tc .vmem S1x2048 .f32) (harg3 : arg3.IsWhole) (arg4 : Memref sig .tc .vmem S256x30 .i32) (harg4 : arg4.IsWhole)
    (arg5 : Memref sig .tc .vmem S1x2048 .i32) (harg5 : arg5.IsWhole) (arg6 : Memref sig .tc .vmem S256x1 .f32) (harg6 : arg6.IsWhole)
    (arg7 : Memref sig .tc .vmem S256x1 .f32) (harg7 : arg7.IsWhole)
    (x0 : Vec F S256x32 .f32) (x1 : Vec F S2048x32 .f32) (x2 : Vec F S1x2048 .f32) (x3 : Vec F S256x30 .i32) (x4 : Vec F S1x2048 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outLoss i x0 x1 x2 x3 x4) ∗ owns (c : Thread nD τ) arg7 fullShare (outValid i x3 x4)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverCol _)
  iexists _; isplitr
  swap; · iexact H6
  ipureintro
  exact View.read_writes_eq_canon _ _ _ (coverCol _)

/-! ## The pipeline's proof data -/

/-- The proof data on core `c`: the arrays as the region finds them; after the body at point `t` each input's
    buffer at its block and each result's at its column of the input blocks; the invariant the scoped rest (no
    scratch); nothing owed. The array of points is read by two windows (the row block and the whole array): each
    holds half of it. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => outLoss (grid0.coords t) (iblk m ρ c 0 t) (iblk m ρ c 1 t) (iblk m ρ c 2 t) (iblk m ρ c 3 t) (iblk m ρ c 4 t)
    | ⟨6, _⟩ => outValid (grid0.coords t) (iblk m ρ c 3 t) (iblk m ρ c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t
    = outLoss (grid0.coords t) (iblk m ρ c 0 t) (iblk m ρ c 1 t) (iblk m ρ c 2 t) (iblk m ρ c 3 t) (iblk m ρ c 4 t) := by dsimp only [dats]
theorem after6 (c : Dev nD) (t : Fin cfg0.N) : (dats m ρ 0 c).after 6 t = outValid (grid0.coords t) (iblk m ρ c 3 t) (iblk m ρ c 4 t) := by dsimp only [dats]

/-- Each input's current staging buffer holds its block at every point, fetched there or not: where it is not
    fetched, the block index has not moved and the body left the block in place. -/
theorem before0 (c : Dev nD) (t : Fin cfg0.N) (d) : (dats m ρ 0 c).before 0 t d = iblk m ρ c 0 t :=
  ((dats m ρ 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m ρ 0 c).before 4 t d = iblk m ρ c 4 t :=
  ((dats m ρ 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

/-- The body at any point: the inputs' memrefs hold their blocks, so the body's triple applies; the invariant and
    what the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m ρ c 0 t) (iblk m ρ c 1 t) (iblk m ρ c 2 t) (iblk m ρ c 3 t) (iblk m ρ c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.RunB.lean ====
/-
  The run of the whole program at any float instance: the host operations before the region, the region, and the
  host operations after it, composed in order.

  Before the region the host gathers each point's neighbour list, reshapes the sample ids to a row, and computes the
  row of squared norms. The region reads five arrays through seven windows; the array of points is read through two
  of them (a row block per grid point, and whole), so each of those windows holds half of it while the region runs and
  the halves are rejoined at its exit. After the region the host sums the two result columns and divides.

  The conclusion names every buffer's final contents: the valuation after the last host operation.
-/
import proofs.«172015_j17892833755270_2_alg».proof.Proof.BodyB
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of core `c` held whole at a share. -/
abbrev pt (c : Dev nD) (b : Ref sig .tc) (q : PosShare TreeShare) (f : Buf (Elt F) ((c : Thread nD τ).loc b)) : sProp 𝕄 :=
  ((c : Thread nD τ).loc b) ↦{q} f

/-! ## The windows' arrays, one by one -/

theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl
theorem share3 (c : Dev nD) : (dats m ρ 0 c).share 3 = fullShare := rfl
theorem share4 (c : Dev nD) : (dats m ρ 0 c).share 4 = fullShare := rfl
theorem share5 (c : Dev nD) : (dats m ρ 0 c).share 5 = fullShare := rfl
theorem share6 (c : Dev nD) : (dats m ρ 0 c).share 6 = fullShare := rfl

/-- The pipeline's arrays at contents `Fw`: the array of points twice, at the two halves, and the other five whole. -/
theorem arrays_chain (c : Dev nD) (Fw : (w : Fin cfg0.W) → Buf (Elt F) ((cfg0.win w).arr.view.loc (c.tc : Thread nD τ))) :
    (dats m ρ 0 c).arrays Fw = iprop(pt c main_arg0 fullShare.left (Fw 0) ∗ pt c main_arg0 fullShare.right (Fw 1) ∗ pt c main_v11 fullShare (Fw 2)
      ∗ pt c main_v6 fullShare (Fw 3) ∗ pt c main_v7 fullShare (Fw 4) ∗ pt c main_v12_0 fullShare (Fw 5) ∗ pt c main_v12_1 fullShare (Fw 6)) := by
  unfold Dat.arrays
  rw [bigSep_W0]
  simp only [View.set_whole, share0, share1, share2, share3, share4, share5, share6]

/-- The six distinct buffers behind the seven windows, listed. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(pt c main_arg0 fullShare (W main_arg0) ∗ pt c main_v11 fullShare (W main_v11) ∗ pt c main_v6 fullShare (W main_v6)
        ∗ pt c main_v7 fullShare (W main_v7) ∗ pt c main_v12_0 fullShare (W main_v12_0) ∗ pt c main_v12_1 fullShare (W main_v12_1)) := by
  unfold Pipeline.arrBufs
  rw [bigSep_eq_bigSepL_of_eq [main_arg0, main_v11, main_v6, main_v7, main_v12_0, main_v12_1] (by decide) (by decide)]
  rfl

/-! ## The valuations between the segments -/

/-- The result columns as the region leaves them. -/
abbrev lossArr (c : Dev nD) : Buf (Elt F) ((c : Thread nD τ).loc main_v12_0) := (dats m ρ 0 c).arrAt 5 cfg0.N
abbrev validArr (c : Dev nD) : Buf (Elt F) ((c : Thread nD τ).loc main_v12_1) := (dats m ρ 0 c).arrAt 6 cfg0.N

/-- The buffers when the region is left: the two results at what the region wrote, every other as it was entered. -/
def V₁ (c : Dev nD) : Valuation τ sig (Elt F) :=
  Function.update (Function.update (StableHlo.after hostOps0 (V₀ m ρ c)) (Proc.devRef .tc main_v12_0) (lossArr m ρ c))
    (Proc.devRef .tc main_v12_1) (validArr m ρ c)

/-- and at the end. -/
abbrev V₂ (c : Dev nD) : Valuation τ sig (Elt F) := StableHlo.after hostOps1_1 (StableHlo.after hostOps1 (V₁ m ρ c))

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

/-- The host operations before the region. -/
def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The host operations after the region, -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m ρ) R

/-- and the final selection. -/
def seg2 : Pipeline.HostSeg (Name := ℕ) (U := UR sig nD τ) (pcfgs (F := F)) defs₀ Variants.none L lv :=
  Pipeline.HostSeg.ofOps _ _ _ _ _ (Pipeline.ucRefs τ sig) hostOps1_1 (fun op h => Pipeline.sub_ucRefs op ((List.forall_iff_forall_mem.mp hostOps1_1_sub) op h))
    (by intro _ h; (repeat (cases h with | head => rfl | tail _ h => ?_)); exact nomatch h) (fun c => StableHlo.after hostOps1 (V₁ m ρ c)) R

/-- What bypasses the region: the unscoped buffers that are no window's array, as the region finds them. -/
abbrev Zc (c : Dev nD) : sProp 𝕄 :=
  Pipeline.unscopedRest (Ix := Unit) (Name := ℕ) (U := UR sig nD τ) (Lvl := ℕ) spec0 c (V m ρ c)

/-- An input window's array is never written: it ends as it was entered. -/
theorem arrAt0 (c : Dev nD) : (dats m ρ 0 c).arrAt 0 cfg0.N = V m ρ c main_arg0 := (dats m ρ 0 c).arrAt_in 0 rfl _
theorem arrAt1 (c : Dev nD) : (dats m ρ 0 c).arrAt 1 cfg0.N = V m ρ c main_arg0 := (dats m ρ 0 c).arrAt_in 1 rfl _
theorem arrAt2 (c : Dev nD) : (dats m ρ 0 c).arrAt 2 cfg0.N = V m ρ c main_v11 := (dats m ρ 0 c).arrAt_in 2 rfl _
theorem arrAt3 (c : Dev nD) : (dats m ρ 0 c).arrAt 3 cfg0.N = V m ρ c main_v6 := (dats m ρ 0 c).arrAt_in 3 rfl _
theorem arrAt4 (c : Dev nD) : (dats m ρ 0 c).arrAt 4 cfg0.N = V m ρ c main_v7 := (dats m ρ 0 c).arrAt_in 4 rfl _

/-- The buffers at the region's exit, read at a window's array or off the arrays. -/
theorem V₁_loss (c : Dev nD) : V₁ m ρ c (Proc.devRef .tc main_v12_0) = lossArr m ρ c := by
  unfold V₁; rw [Function.update_of_ne (by decide), Function.update_self]
theorem V₁_valid (c : Dev nD) : V₁ m ρ c (Proc.devRef .tc main_v12_1) = validArr m ρ c := by
  unfold V₁; rw [Function.update_self]
theorem V₁_other (c : Dev nD) (b : Ref sig .tc) (h0 : b ≠ main_v12_0) (h1 : b ≠ main_v12_1) :
    V₁ m ρ c (Proc.devRef .tc b) = V m ρ c b := by
  unfold V₁
  rw [Function.update_of_ne (fun h => h1 (Proc.devRef_injective _ h)), Function.update_of_ne (fun h => h0 (Proc.devRef_injective _ h))]

/-- What bypassed the region is, read at the exit valuation, the same: the region wrote none of those buffers. -/
theorem Zc_eq (c : Dev nD) :
    (Zc m ρ c : sProp 𝕄) = Pipeline.unscopedRest spec0 c (fun b => V₁ m ρ c (Proc.devRef .tc b)) := by
  unfold Pipeline.unscopedRest
  refine bigSep_congr fun b hb => ?_
  dsimp only
  rw [V₁_other m ρ c b (fun h => (Finset.mem_sdiff.mp hb).2 (h ▸ Finset.mem_image.mpr ⟨5, Finset.mem_univ _, rfl⟩))
    (fun h => (Finset.mem_sdiff.mp hb).2 (h ▸ Finset.mem_image.mpr ⟨6, Finset.mem_univ _, rfl⟩))]

set_option backward.isDefEq.respectTransparency.types false in
/-- THE REGION: entered from what the host operations left — the six buffers behind the windows into the pipeline,
    the array of points dealt in two halves, everything else bypassing —, left with the two results at what the
    pipeline wrote back and every other buffer as it was. -/
def reg0 : Pipeline.RegionSeg (pcfgs (F := F)) adm (dats m ρ) () defs₀ Variants.none L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Zc m ρ c
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_chain, arrays_chain]
    iintro ⟨⟨⟨⟨H0, H11, H6, H7, H120, H121⟩, Hrest⟩, HO⟩, -, -⟩
    ihave H0' := (pointsTo_share (PosShare.mem_left_op_right fullShare)).1 $$ H0
    icases H0' with ⟨H0l, H0r⟩
    imodintro
    isplitl [H0l H0r H11 H6 H7 H120 H121]
    · isplitl [H0l]; · iexact H0l
      isplitl [H0r]; · iexact H0r
      isplitl [H11]; · iexact H11
      isplitl [H6]; · iexact H6
      isplitl [H7]; · iexact H7
      isplitl [H120]; · iexact H120
      iexact H121
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [show (dats m ρ 0 c).Φ (Fin.last cfg0.N) = Pipeline.scopedRest spec0 c from rfl, Pipeline.ownSems0_none]
    iintro Hr
    isplitr; · iempintro
    isplitr; · iempintro
    iexact Hr
  hexit c := by
    have hZ := Zc_eq m ρ c
    rw [arrays_chain, arrAt0, arrAt1, arrAt2, arrAt3, arrAt4]
    iintro ⟨⟨H0l, H0r, H11, H6, H7, H120, H121⟩, HO, -, Hrest⟩
    ihave H0 := (pointsTo_share (PosShare.mem_left_op_right fullShare)).2 $$ [H0l H0r]
    · isplitl [H0l]; · iexact H0l
      iexact H0r
    imodintro
    isplitr [HO]
    · rw [← Pipeline.unscopedBufs_held c (V₁ m ρ c), Pipeline.unscopedBufs_split₀ cfgs 0 winFacts₀0.arr_unscoped c, arrBufs_chain]
      isplitr [Hrest]
      · rw [V₁_other m ρ c main_arg0 (by decide) (by decide), V₁_other m ρ c main_v11 (by decide) (by decide),
          V₁_other m ρ c main_v6 (by decide) (by decide), V₁_other m ρ c main_v7 (by decide) (by decide), V₁_loss, V₁_valid]
        isplitl [H0]; · iexact H0
        isplitl [H11]; · iexact H11
        isplitl [H6]; · iexact H6
        isplitl [H7]; · iexact H7
        isplitl [H120]; · iexact H120
        iexact H121
      · rw [← hZ]
        iexact Hrest
    · unfold Pipeline.Dat.owesAt Pipeline.owesWithin
      icases HO with ⟨%W, -, HO⟩; iexists W; iexact HO

/-! ## The run -/

/-- @main as the list of the four. -/
abbrev segs : List (Pipeline.Seg (pcfgs (F := F)) adm (dats m ρ) () defs₀ Variants.none L lv) :=
  [.host (seg0 m ρ), .region (reg0 m ρ), .host (seg1 m ρ), .host (seg2 m ρ)]

/-- The launch element: the pipeline's staging cells and transfers. -/
def u₀ : UR sig nD τ := initOf (Pipeline.cells cfgs cellOf_inj) (Pipeline.launchToks cfgs cellOf_inj)

/-- The post: every unscoped buffer of every core at the last valuation. -/
def QC : PUnit × MemSt nD τ sig (Elt F) → Prop := fun r =>
  ∀ c : Dev nD, ∀ b ∈ Pipeline.ucRefs τ sig, r.2.mem ((c.tc : Thread nD τ).1, b) = V₂ m ρ c b

set_option backward.isDefEq.respectTransparency.types false in
/-- From any memory with zero counters, every weakly fair execution of @main terminates, nothing faulting, and every
    final state has every unscoped buffer at the valuation the three stretches of host operations and the region
    compose to. -/
theorem run_main : θ_run defs (onTc (τ := τ) (main (F := F))) (s₀ m ρ) (QC m ρ) :=
  Pipeline.θ_run_regions_kit (pcfgs (F := F)) adm (dats m ρ) () cellOf_inj EP defs₀ Variants.none L lv m ρ main (segs m ρ)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (V₂ m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c.tc : Thread nD τ).1, b) = V₂ m ρ c b)
    (hfin := fun c s' => by
      unfold StableHlo.held
      iintro ⟨Hh, HSI⟩
      ihave Hr := (pointsTo_read_all (Pipeline.ucRefs τ sig) (fun b => ((c.tc : Thread nD τ).1, b)) (fun b => V₂ m ρ c b) s') $$ [Hh HSI]
      · isplitl [Hh]; · iexact Hh
        iexact HSI
      icases Hr with ⟨%ha, HSI⟩
      imodintro
      isplitr; · ipureintro; exact ha
      iexact HSI)
    (hQ := fun _ h => h)

end Cert.Kernel.Hand

end
-- ==== Proof.ValB.lean ====
/-
  What the run leaves, read: the three argument arrays as launched, and the result — the host operations after the
  region, one function of the two columns the region wrote.
-/
import proofs.«172015_j17892833755270_2_alg».proof.Proof.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.StableHlo

variable {F : FTy → Type} [FloatOps F]

variable (m : (ℓ : Loc nD τ sig) → Buf (Elt F) ℓ) (ρ : Dev nD → PrngReg)

/-! ## The arguments: no host operation writes them, and the region only reads the array of points -/

theorem V_arg0 (c : Dev nD) : V m ρ c main_arg0 = m ((c : Thread nD τ).loc main_arg0) := by
  show StableHlo.after hostOps0 (V₀ m ρ c) (Proc.devRef .tc main_arg0) = _
  after_results
theorem V_arg1 (c : Dev nD) : V m ρ c main_arg1 = m ((c : Thread nD τ).loc main_arg1) := by
  show StableHlo.after hostOps0 (V₀ m ρ c) (Proc.devRef .tc main_arg1) = _
  after_results
theorem V_arg2 (c : Dev nD) : V m ρ c main_arg2 = m ((c : Thread nD τ).loc main_arg2) := by
  show StableHlo.after hostOps0 (V₀ m ρ c) (Proc.devRef .tc main_arg2) = _
  after_results

theorem V₂_arg0 (c : Dev nD) : V₂ m ρ c (Proc.devRef .tc main_arg0) = m ((c : Thread nD τ).loc main_arg0) := by
  show StableHlo.after hostOps1_1 (StableHlo.after hostOps1 (V₁ m ρ c)) (Proc.devRef .tc main_arg0) = _
  after_results
  rw [V₁_other m ρ c main_arg0 (by decide) (by decide)]
  exact V_arg0 m ρ c
theorem V₂_arg1 (c : Dev nD) : V₂ m ρ c (Proc.devRef .tc main_arg1) = m ((c : Thread nD τ).loc main_arg1) := by
  show StableHlo.after hostOps1_1 (StableHlo.after hostOps1 (V₁ m ρ c)) (Proc.devRef .tc main_arg1) = _
  after_results
  rw [V₁_other m ρ c main_arg1 (by decide) (by decide)]
  exact V_arg1 m ρ c
theorem V₂_arg2 (c : Dev nD) : V₂ m ρ c (Proc.devRef .tc main_arg2) = m ((c : Thread nD τ).loc main_arg2) := by
  show StableHlo.after hostOps1_1 (StableHlo.after hostOps1 (V₁ m ρ c)) (Proc.devRef .tc main_arg2) = _
  after_results
  rw [V₁_other m ρ c main_arg2 (by decide) (by decide)]
  exact V_arg2 m ρ c

/-! ## The result -/

/-- The host operations after the region: the sum of the losses over the sum of the validity flags where that is
    positive, zero otherwise. -/
def tail (l v : FVec F S2048x1 .f32) : FVec F S_ .f32 :=
  select (cmpf .ogt (Host.reduceAdd v (constant S_ .f32 0x00000000#32) reducesTo_S2048x1_S_d0_1 h_S_) (constant S_ .f32 0x00000000#32))
    (Host.divf (Host.reduceAdd l (constant S_ .f32 0x00000000#32) reducesTo_S2048x1_S_d0_1 h_S_)
      (Host.reduceAdd v (constant S_ .f32 0x00000000#32) reducesTo_S2048x1_S_d0_1 h_S_))
    (constant S_ .f32 0x00000000#32)

theorem V₂_result (c : Dev nD) : V₂ m ρ c (Proc.devRef .tc main_v17) = tail (lossArr m ρ c) (validArr m ρ c) := by
  show StableHlo.after hostOps1_1 (StableHlo.after hostOps1 (V₁ m ρ c)) (Proc.devRef .tc main_v17) = _
  after_results
  rw [V₁_loss, V₁_valid]
  rfl

/-! ## The run, read -/

theorem mem_arg0 : (Proc.devRef .tc main_arg0 : DevRef τ sig) ∈ Pipeline.ucRefs τ sig := by decide
theorem mem_arg1 : (Proc.devRef .tc main_arg1 : DevRef τ sig) ∈ Pipeline.ucRefs τ sig := by decide
theorem mem_arg2 : (Proc.devRef .tc main_arg2 : DevRef τ sig) ∈ Pipeline.ucRefs τ sig := by decide
theorem mem_v17 : (Proc.devRef .tc main_v17 : DevRef τ sig) ∈ Pipeline.ucRefs τ sig := by decide

/-- Every execution terminates, nothing faulting, with the result at the tail of the two columns and the arguments
    as launched. -/
theorem run_val : θ_run defs (onTc (τ := τ) (main (F := F))) ⟨m, fun _ => 0, ρ⟩ (fun r => ∀ c : Dev nD,
      r.2.mem ((c.tc : Thread nD τ).loc main_v17) = tail (lossArr m ρ c) (validArr m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ mem_v17).trans (V₂_result m ρ c), (h c _ mem_arg0).trans (V₂_arg0 m ρ c),
    (h c _ mem_arg1).trans (V₂_arg1 m ρ c), (h c _ mem_arg2).trans (V₂_arg2 m ρ c)⟩) (run_main m ρ)

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_val m ρ)

end Cert.Kernel.Hand

end
-- ==== Proof.BodyI.lean ====
/-
  The kernel region's body, at any float instance: what each of the two result blocks holds after the body
  at a grid point, as a function of the five input blocks there (the row block of the points, all the points,
  the row of squared norms, the row block of neighbour lists, the row of sample ids), and the proof data of
  the pipeline built on it.

  The body loads each input block whole, computes, and stores each result block whole: a 256 x 1 column of
  per-row losses and a 256 x 1 column of per-row validity flags. Nothing is carried from one grid point to
  the next.
-/
import proofs.«172015_j17892833755270_2_alg».proof.Proof.Gen.KernelIdeal.Launch
import proofs.«172015_j17892833755270_2_alg».proof.Proof.Gen.KernelIdeal.Skeleton
import proofs.«172015_j17892833755270_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The body's accesses: every block whole -/

abbrev rZi : Rect S256x32 := Rect.unit (s := S256x32) ![0, 0] S256x32.size inb_S256x32_S256x32_0_0
abbrev rZ : Rect S2048x32 := Rect.unit (s := S2048x32) ![0, 0] S2048x32.size inb_S2048x32_S2048x32_0_0
abbrev rRow : Rect S1x2048 := Rect.unit (s := S1x2048) ![0, 0] S1x2048.size inb_S1x2048_S1x2048_0_0
abbrev rKnn : Rect S256x30 := Rect.unit (s := S256x30) ![0, 0] S256x30.size inb_S256x30_S256x30_0_0
abbrev rCol : Rect S256x1 := Rect.unit (s := S256x1) ![0, 0] S256x1.size inb_S256x1_S256x1_0_0

/-! ## What the body leaves in each result block -/

/-- The sample ids spread over the rows, the neighbour lists, and the membership flags of the 30 list positions joined. -/
abbrev ids (x4 : Vec F S1x2048 .i32) : IVec S256x2048 32 := k0_pay4 (View.ld x4 rRow)
abbrev nbrs (x3 : Vec F S256x30 .i32) : IVec S256x30 32 := k0_pay5 (View.ld x3 rKnn)
abbrev inSet (x3 : Vec F S256x30 .i32) (x4 : Vec F S1x2048 .i32) : IVec S256x2048 1 :=
  k0_pay7 (ids x4) (nbrs x3) (k0_pay6 (View.ld x4 rRow) (View.ld x3 rKnn))
/-- The neighbour mask as a float, and the per-row validity flag. -/
abbrev maskF (i : grid0.Coords) (x3 : Vec F S256x30 .i32) (x4 : Vec F S1x2048 .i32) : FVec F S256x2048 .f32 :=
  k0_pay9 (k0_pay3 i) (ids x4) (nbrs x3) (inSet x3 x4)
abbrev validB (i : grid0.Coords) (x3 : Vec F S256x30 .i32) (x4 : Vec F S1x2048 .i32) : IVec S256x1 1 :=
  k0_pay10 (F := F) (k0_pay3 i) (ids x4) (nbrs x3) (inSet x3 x4)

/-- The loss column after the body, from the input blocks. -/
def outLoss (i : grid0.Coords) (x0 : Vec F S256x32 .f32) (x1 : Vec F S2048x32 .f32) (x2 : Vec F S1x2048 .f32) (x3 : Vec F S256x30 .i32) (x4 : Vec F S1x2048 .i32) : Vec F S256x1 .f32 :=
  View.canon [⟨rCol, k0_pay1 (k0_pay3 i) (maskF i x3 x4) (validB i x3 x4) (k0_pay11 (View.ld x0 rZi) (View.ld x2 rRow)) (k0_pay12 (View.ld x0 rZi) (View.ld x1 rZ))⟩]

/-- The validity column after the body. -/
def outValid (i : grid0.Coords) (x3 : Vec F S256x30 .i32) (x4 : Vec F S1x2048 .i32) : Vec F S256x1 .f32 :=
  View.canon [⟨rCol, k0_pay2 (F := F) (validB i x3 x4)⟩]

/-- One whole-block store covers the block. -/
theorem coverCol (p0 : Vec F S256x1 .f32) (y : S256x1.Idx) :
    ∃ pc ∈ ([⟨rCol, p0⟩] : List (View.Piece (Elt F) S256x1 .f32)), y ∈ pc.1.set :=
  View.cover_of_tiled [⟨rCol, p0⟩] S256x1.size (by rfl) y

/-! ## The body's triple -/

set_option maxHeartbeats 4000000 in
/-- The body on whole staging memrefs, the inputs' at read contents and the results' at anything, runs to the
    continuation holding the inputs' as they were and each result's at its column. -/
theorem sound_kernel (c : Dev nD) (E : Set ℕ) (i : grid0.Coords)
    (arg1 : Memref sig .tc .vmem S256x32 .f32) (harg1 : arg1.IsWhole) (arg2 : Memref sig .tc .vmem S2048x32 .f32) (harg2 : arg2.IsWhole)
    (arg3 : Memref sig .tc .vmem S1x2048 .f32) (harg3 : arg3.IsWhole) (arg4 : Memref sig .tc .vmem S256x30 .i32) (harg4 : arg4.IsWhole)
    (arg5 : Memref sig .tc .vmem S1x2048 .i32) (harg5 : arg5.IsWhole) (arg6 : Memref sig .tc .vmem S256x1 .f32) (harg6 : arg6.IsWhole)
    (arg7 : Memref sig .tc .vmem S256x1 .f32) (harg7 : arg7.IsWhole)
    (x0 : Vec F S256x32 .f32) (x1 : Vec F S2048x32 .f32) (x2 : Vec F S1x2048 .f32) (x3 : Vec F S256x30 .i32) (x4 : Vec F S1x2048 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outLoss i x0 x1 x2 x3 x4) ∗ owns (c : Thread nD τ) arg7 fullShare (outValid i x3 x4)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverCol _)
  iexists _; isplitr
  swap; · iexact H6
  ipureintro
  exact View.read_writes_eq_canon _ _ _ (coverCol _)

/-! ## The pipeline's proof data -/

/-- The proof data on core `c`: the arrays as the region finds them; after the body at point `t` each input's
    buffer at its block and each result's at its column of the input blocks; the invariant the scoped rest (no
    scratch); nothing owed. The array of points is read by two windows (the row block and the whole array): each
    holds half of it. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => outLoss (grid0.coords t) (iblk m ρ c 0 t) (iblk m ρ c 1 t) (iblk m ρ c 2 t) (iblk m ρ c 3 t) (iblk m ρ c 4 t)
    | ⟨6, _⟩ => outValid (grid0.coords t) (iblk m ρ c 3 t) (iblk m ρ c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t
    = outLoss (grid0.coords t) (iblk m ρ c 0 t) (iblk m ρ c 1 t) (iblk m ρ c 2 t) (iblk m ρ c 3 t) (iblk m ρ c 4 t) := by dsimp only [dats]
theorem after6 (c : Dev nD) (t : Fin cfg0.N) : (dats m ρ 0 c).after 6 t = outValid (grid0.coords t) (iblk m ρ c 3 t) (iblk m ρ c 4 t) := by dsimp only [dats]

/-- Each input's current staging buffer holds its block at every point, fetched there or not: where it is not
    fetched, the block index has not moved and the body left the block in place. -/
theorem before0 (c : Dev nD) (t : Fin cfg0.N) (d) : (dats m ρ 0 c).before 0 t d = iblk m ρ c 0 t :=
  ((dats m ρ 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m ρ 0 c).before 4 t d = iblk m ρ c 4 t :=
  ((dats m ρ 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

/-- The body at any point: the inputs' memrefs hold their blocks, so the body's triple applies; the invariant and
    what the core owes pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m ρ c 0 t) (iblk m ρ c 1 t) (iblk m ρ c 2 t) (iblk m ρ c 3 t) (iblk m ρ c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.RunI.lean ====
/-
  The run of the whole program at any float instance: the host operations before the region, the region, and the
  host operations after it, composed in order.

  Before the region the host gathers each point's neighbour list, reshapes the sample ids to a row, and computes the
  row of squared norms. The region reads five arrays through seven windows; the array of points is read through two
  of them (a row block per grid point, and whole), so each of those windows holds half of it while the region runs and
  the halves are rejoined at its exit. After the region the host sums the two result columns and divides.

  The conclusion names every buffer's final contents: the valuation after the last host operation.
-/
import proofs.«172015_j17892833755270_2_alg».proof.Proof.BodyI
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of core `c` held whole at a share. -/
abbrev pt (c : Dev nD) (b : Ref sig .tc) (q : PosShare TreeShare) (f : Buf (Elt F) ((c : Thread nD τ).loc b)) : sProp 𝕄 :=
  ((c : Thread nD τ).loc b) ↦{q} f

/-! ## The windows' arrays, one by one -/

theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl
theorem share3 (c : Dev nD) : (dats m ρ 0 c).share 3 = fullShare := rfl
theorem share4 (c : Dev nD) : (dats m ρ 0 c).share 4 = fullShare := rfl
theorem share5 (c : Dev nD) : (dats m ρ 0 c).share 5 = fullShare := rfl
theorem share6 (c : Dev nD) : (dats m ρ 0 c).share 6 = fullShare := rfl

/-- The pipeline's arrays at contents `Fw`: the array of points twice, at the two halves, and the other five whole. -/
theorem arrays_chain (c : Dev nD) (Fw : (w : Fin cfg0.W) → Buf (Elt F) ((cfg0.win w).arr.view.loc (c.tc : Thread nD τ))) :
    (dats m ρ 0 c).arrays Fw = iprop(pt c main_arg0 fullShare.left (Fw 0) ∗ pt c main_arg0 fullShare.right (Fw 1) ∗ pt c main_v11 fullShare (Fw 2)
      ∗ pt c main_v6 fullShare (Fw 3) ∗ pt c main_v7 fullShare (Fw 4) ∗ pt c main_v12_0 fullShare (Fw 5) ∗ pt c main_v12_1 fullShare (Fw 6)) := by
  unfold Dat.arrays
  rw [bigSep_W0]
  simp only [View.set_whole, share0, share1, share2, share3, share4, share5, share6]

/-- The six distinct buffers behind the seven windows, listed. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(pt c main_arg0 fullShare (W main_arg0) ∗ pt c main_v11 fullShare (W main_v11) ∗ pt c main_v6 fullShare (W main_v6)
        ∗ pt c main_v7 fullShare (W main_v7) ∗ pt c main_v12_0 fullShare (W main_v12_0) ∗ pt c main_v12_1 fullShare (W main_v12_1)) := by
  unfold Pipeline.arrBufs
  rw [bigSep_eq_bigSepL_of_eq [main_arg0, main_v11, main_v6, main_v7, main_v12_0, main_v12_1] (by decide) (by decide)]
  rfl

/-! ## The valuations between the segments -/

/-- The result columns as the region leaves them. -/
abbrev lossArr (c : Dev nD) : Buf (Elt F) ((c : Thread nD τ).loc main_v12_0) := (dats m ρ 0 c).arrAt 5 cfg0.N
abbrev validArr (c : Dev nD) : Buf (Elt F) ((c : Thread nD τ).loc main_v12_1) := (dats m ρ 0 c).arrAt 6 cfg0.N

/-- The buffers when the region is left: the two results at what the region wrote, every other as it was entered. -/
def V₁ (c : Dev nD) : Valuation τ sig (Elt F) :=
  Function.update (Function.update (StableHlo.after hostOps0 (V₀ m ρ c)) (Proc.devRef .tc main_v12_0) (lossArr m ρ c))
    (Proc.devRef .tc main_v12_1) (validArr m ρ c)

/-- and at the end. -/
abbrev V₂ (c : Dev nD) : Valuation τ sig (Elt F) := StableHlo.after hostOps1_1 (StableHlo.after hostOps1 (V₁ m ρ c))

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

/-- The host operations before the region. -/
def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The host operations after the region, -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m ρ) R

/-- and the final selection. -/
def seg2 : Pipeline.HostSeg (Name := ℕ) (U := UR sig nD τ) (pcfgs (F := F)) defs₀ Variants.none L lv :=
  Pipeline.HostSeg.ofOps _ _ _ _ _ (Pipeline.ucRefs τ sig) hostOps1_1 (fun op h => Pipeline.sub_ucRefs op ((List.forall_iff_forall_mem.mp hostOps1_1_sub) op h))
    (by intro _ h; (repeat (cases h with | head => rfl | tail _ h => ?_)); exact nomatch h) (fun c => StableHlo.after hostOps1 (V₁ m ρ c)) R

/-- What bypasses the region: the unscoped buffers that are no window's array, as the region finds them. -/
abbrev Zc (c : Dev nD) : sProp 𝕄 :=
  Pipeline.unscopedRest (Ix := Unit) (Name := ℕ) (U := UR sig nD τ) (Lvl := ℕ) spec0 c (V m ρ c)

/-- An input window's array is never written: it ends as it was entered. -/
theorem arrAt0 (c : Dev nD) : (dats m ρ 0 c).arrAt 0 cfg0.N = V m ρ c main_arg0 := (dats m ρ 0 c).arrAt_in 0 rfl _
theorem arrAt1 (c : Dev nD) : (dats m ρ 0 c).arrAt 1 cfg0.N = V m ρ c main_arg0 := (dats m ρ 0 c).arrAt_in 1 rfl _
theorem arrAt2 (c : Dev nD) : (dats m ρ 0 c).arrAt 2 cfg0.N = V m ρ c main_v11 := (dats m ρ 0 c).arrAt_in 2 rfl _
theorem arrAt3 (c : Dev nD) : (dats m ρ 0 c).arrAt 3 cfg0.N = V m ρ c main_v6 := (dats m ρ 0 c).arrAt_in 3 rfl _
theorem arrAt4 (c : Dev nD) : (dats m ρ 0 c).arrAt 4 cfg0.N = V m ρ c main_v7 := (dats m ρ 0 c).arrAt_in 4 rfl _

/-- The buffers at the region's exit, read at a window's array or off the arrays. -/
theorem V₁_loss (c : Dev nD) : V₁ m ρ c (Proc.devRef .tc main_v12_0) = lossArr m ρ c := by
  unfold V₁; rw [Function.update_of_ne (by decide), Function.update_self]
theorem V₁_valid (c : Dev nD) : V₁ m ρ c (Proc.devRef .tc main_v12_1) = validArr m ρ c := by
  unfold V₁; rw [Function.update_self]
theorem V₁_other (c : Dev nD) (b : Ref sig .tc) (h0 : b ≠ main_v12_0) (h1 : b ≠ main_v12_1) :
    V₁ m ρ c (Proc.devRef .tc b) = V m ρ c b := by
  unfold V₁
  rw [Function.update_of_ne (fun h => h1 (Proc.devRef_injective _ h)), Function.update_of_ne (fun h => h0 (Proc.devRef_injective _ h))]

/-- What bypassed the region is, read at the exit valuation, the same: the region wrote none of those buffers. -/
theorem Zc_eq (c : Dev nD) :
    (Zc m ρ c : sProp 𝕄) = Pipeline.unscopedRest spec0 c (fun b => V₁ m ρ c (Proc.devRef .tc b)) := by
  unfold Pipeline.unscopedRest
  refine bigSep_congr fun b hb => ?_
  dsimp only
  rw [V₁_other m ρ c b (fun h => (Finset.mem_sdiff.mp hb).2 (h ▸ Finset.mem_image.mpr ⟨5, Finset.mem_univ _, rfl⟩))
    (fun h => (Finset.mem_sdiff.mp hb).2 (h ▸ Finset.mem_image.mpr ⟨6, Finset.mem_univ _, rfl⟩))]

set_option backward.isDefEq.respectTransparency.types false in
/-- THE REGION: entered from what the host operations left — the six buffers behind the windows into the pipeline,
    the array of points dealt in two halves, everything else bypassing —, left with the two results at what the
    pipeline wrote back and every other buffer as it was. -/
def reg0 : Pipeline.RegionSeg (pcfgs (F := F)) adm (dats m ρ) () defs₀ Variants.none L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Zc m ρ c
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_chain, arrays_chain]
    iintro ⟨⟨⟨⟨H0, H11, H6, H7, H120, H121⟩, Hrest⟩, HO⟩, -, -⟩
    ihave H0' := (pointsTo_share (PosShare.mem_left_op_right fullShare)).1 $$ H0
    icases H0' with ⟨H0l, H0r⟩
    imodintro
    isplitl [H0l H0r H11 H6 H7 H120 H121]
    · isplitl [H0l]; · iexact H0l
      isplitl [H0r]; · iexact H0r
      isplitl [H11]; · iexact H11
      isplitl [H6]; · iexact H6
      isplitl [H7]; · iexact H7
      isplitl [H120]; · iexact H120
      iexact H121
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [show (dats m ρ 0 c).Φ (Fin.last cfg0.N) = Pipeline.scopedRest spec0 c from rfl, Pipeline.ownSems0_none]
    iintro Hr
    isplitr; · iempintro
    isplitr; · iempintro
    iexact Hr
  hexit c := by
    have hZ := Zc_eq m ρ c
    rw [arrays_chain, arrAt0, arrAt1, arrAt2, arrAt3, arrAt4]
    iintro ⟨⟨H0l, H0r, H11, H6, H7, H120, H121⟩, HO, -, Hrest⟩
    ihave H0 := (pointsTo_share (PosShare.mem_left_op_right fullShare)).2 $$ [H0l H0r]
    · isplitl [H0l]; · iexact H0l
      iexact H0r
    imodintro
    isplitr [HO]
    · rw [← Pipeline.unscopedBufs_held c (V₁ m ρ c), Pipeline.unscopedBufs_split₀ cfgs 0 winFacts₀0.arr_unscoped c, arrBufs_chain]
      isplitr [Hrest]
      · rw [V₁_other m ρ c main_arg0 (by decide) (by decide), V₁_other m ρ c main_v11 (by decide) (by decide),
          V₁_other m ρ c main_v6 (by decide) (by decide), V₁_other m ρ c main_v7 (by decide) (by decide), V₁_loss, V₁_valid]
        isplitl [H0]; · iexact H0
        isplitl [H11]; · iexact H11
        isplitl [H6]; · iexact H6
        isplitl [H7]; · iexact H7
        isplitl [H120]; · iexact H120
        iexact H121
      · rw [← hZ]
        iexact Hrest
    · unfold Pipeline.Dat.owesAt Pipeline.owesWithin
      icases HO with ⟨%W, -, HO⟩; iexists W; iexact HO

/-! ## The run -/

/-- @main as the list of the four. -/
abbrev segs : List (Pipeline.Seg (pcfgs (F := F)) adm (dats m ρ) () defs₀ Variants.none L lv) :=
  [.host (seg0 m ρ), .region (reg0 m ρ), .host (seg1 m ρ), .host (seg2 m ρ)]

/-- The launch element: the pipeline's staging cells and transfers. -/
def u₀ : UR sig nD τ := initOf (Pipeline.cells cfgs cellOf_inj) (Pipeline.launchToks cfgs cellOf_inj)

/-- The post: every unscoped buffer of every core at the last valuation. -/
def QC : PUnit × MemSt nD τ sig (Elt F) → Prop := fun r =>
  ∀ c : Dev nD, ∀ b ∈ Pipeline.ucRefs τ sig, r.2.mem ((c.tc : Thread nD τ).1, b) = V₂ m ρ c b

set_option backward.isDefEq.respectTransparency.types false in
/-- From any memory with zero counters, every weakly fair execution of @main terminates, nothing faulting, and every
    final state has every unscoped buffer at the valuation the three stretches of host operations and the region
    compose to. -/
theorem run_main : θ_run defs (onTc (τ := τ) (main (F := F))) (s₀ m ρ) (QC m ρ) :=
  Pipeline.θ_run_regions_kit (pcfgs (F := F)) adm (dats m ρ) () cellOf_inj EP defs₀ Variants.none L lv m ρ main (segs m ρ)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (V₂ m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c.tc : Thread nD τ).1, b) = V₂ m ρ c b)
    (hfin := fun c s' => by
      unfold StableHlo.held
      iintro ⟨Hh, HSI⟩
      ihave Hr := (pointsTo_read_all (Pipeline.ucRefs τ sig) (fun b => ((c.tc : Thread nD τ).1, b)) (fun b => V₂ m ρ c b) s') $$ [Hh HSI]
      · isplitl [Hh]; · iexact Hh
        iexact HSI
      icases Hr with ⟨%ha, HSI⟩
      imodintro
      isplitr; · ipureintro; exact ha
      iexact HSI)
    (hQ := fun _ h => h)

end Cert.KernelIdeal.Hand

end
-- ==== Proof.ValI.lean ====
/-
  What the run leaves, read: the three argument arrays as launched, and the result — the host operations after the
  region, one function of the two columns the region wrote.
-/
import proofs.«172015_j17892833755270_2_alg».proof.Proof.RunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo

variable {F : FTy → Type} [FloatOps F]

variable (m : (ℓ : Loc nD τ sig) → Buf (Elt F) ℓ) (ρ : Dev nD → PrngReg)

/-! ## The arguments: no host operation writes them, and the region only reads the array of points -/

theorem V_arg0 (c : Dev nD) : V m ρ c main_arg0 = m ((c : Thread nD τ).loc main_arg0) := by
  show StableHlo.after hostOps0 (V₀ m ρ c) (Proc.devRef .tc main_arg0) = _
  after_results
theorem V_arg1 (c : Dev nD) : V m ρ c main_arg1 = m ((c : Thread nD τ).loc main_arg1) := by
  show StableHlo.after hostOps0 (V₀ m ρ c) (Proc.devRef .tc main_arg1) = _
  after_results
theorem V_arg2 (c : Dev nD) : V m ρ c main_arg2 = m ((c : Thread nD τ).loc main_arg2) := by
  show StableHlo.after hostOps0 (V₀ m ρ c) (Proc.devRef .tc main_arg2) = _
  after_results

theorem V₂_arg0 (c : Dev nD) : V₂ m ρ c (Proc.devRef .tc main_arg0) = m ((c : Thread nD τ).loc main_arg0) := by
  show StableHlo.after hostOps1_1 (StableHlo.after hostOps1 (V₁ m ρ c)) (Proc.devRef .tc main_arg0) = _
  after_results
  rw [V₁_other m ρ c main_arg0 (by decide) (by decide)]
  exact V_arg0 m ρ c
theorem V₂_arg1 (c : Dev nD) : V₂ m ρ c (Proc.devRef .tc main_arg1) = m ((c : Thread nD τ).loc main_arg1) := by
  show StableHlo.after hostOps1_1 (StableHlo.after hostOps1 (V₁ m ρ c)) (Proc.devRef .tc main_arg1) = _
  after_results
  rw [V₁_other m ρ c main_arg1 (by decide) (by decide)]
  exact V_arg1 m ρ c
theorem V₂_arg2 (c : Dev nD) : V₂ m ρ c (Proc.devRef .tc main_arg2) = m ((c : Thread nD τ).loc main_arg2) := by
  show StableHlo.after hostOps1_1 (StableHlo.after hostOps1 (V₁ m ρ c)) (Proc.devRef .tc main_arg2) = _
  after_results
  rw [V₁_other m ρ c main_arg2 (by decide) (by decide)]
  exact V_arg2 m ρ c

/-! ## The result -/

/-- The host operations after the region: the sum of the losses over the sum of the validity flags where that is
    positive, zero otherwise. -/
def tail (l v : FVec F S2048x1 .f32) : FVec F S_ .f32 :=
  select (cmpf .ogt (Host.reduceAdd v (constant S_ .f32 0x00000000#32) reducesTo_S2048x1_S_d0_1 h_S_) (constant S_ .f32 0x00000000#32))
    (Host.divf (Host.reduceAdd l (constant S_ .f32 0x00000000#32) reducesTo_S2048x1_S_d0_1 h_S_)
      (Host.reduceAdd v (constant S_ .f32 0x00000000#32) reducesTo_S2048x1_S_d0_1 h_S_))
    (constant S_ .f32 0x00000000#32)

theorem V₂_result (c : Dev nD) : V₂ m ρ c (Proc.devRef .tc main_v17) = tail (lossArr m ρ c) (validArr m ρ c) := by
  show StableHlo.after hostOps1_1 (StableHlo.after hostOps1 (V₁ m ρ c)) (Proc.devRef .tc main_v17) = _
  after_results
  rw [V₁_loss, V₁_valid]
  rfl

/-! ## The run, read -/

theorem mem_arg0 : (Proc.devRef .tc main_arg0 : DevRef τ sig) ∈ Pipeline.ucRefs τ sig := by decide
theorem mem_arg1 : (Proc.devRef .tc main_arg1 : DevRef τ sig) ∈ Pipeline.ucRefs τ sig := by decide
theorem mem_arg2 : (Proc.devRef .tc main_arg2 : DevRef τ sig) ∈ Pipeline.ucRefs τ sig := by decide
theorem mem_v17 : (Proc.devRef .tc main_v17 : DevRef τ sig) ∈ Pipeline.ucRefs τ sig := by decide

/-- Every execution terminates, nothing faulting, with the result at the tail of the two columns and the arguments
    as launched. -/
theorem run_val : θ_run defs (onTc (τ := τ) (main (F := F))) ⟨m, fun _ => 0, ρ⟩ (fun r => ∀ c : Dev nD,
      r.2.mem ((c.tc : Thread nD τ).loc main_v17) = tail (lossArr m ρ c) (validArr m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ mem_v17).trans (V₂_result m ρ c), (h c _ mem_arg0).trans (V₂_arg0 m ρ c),
    (h c _ mem_arg1).trans (V₂_arg1 m ρ c), (h c _ mem_arg2).trans (V₂_arg2 m ρ c)⟩) (run_main m ρ)

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_val m ρ)

end Cert.KernelIdeal.Hand

end
-- ==== Proof.ArrI.lean ====
/-
  The two result arrays after the run, each as ONE function of the arrays the region finds: row `r` of the loss
  column is the body's loss column at grid point `r / 256`, local row `r % 256`, of the blocks that point reads.
  The eight row blocks tile the column, so nothing of the entry contents is left.
-/
import proofs.«172015_j17892833755270_2_alg».proof.Proof.ValI
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F]

variable (m : (ℓ : Loc nD τ sig) → Buf (Elt F) ℓ) (ρ : Dev nD → PrngReg)

theorem hz2 : (![0, 0] : Fin 2 → Nat) = fun _ => 0 := funext fun a => by fin_cases a <;> rfl

/-- The printed index maps of the two result windows, decided over the grid: block `t` is rows `256 t … 256 t + 255`. -/
theorem idx_out : ∀ t : Fin cfg0.N, win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The grid point whose block holds row `y 0`, and the row inside the block. -/
def ptOf (y : S2048x1.Idx) : Fin cfg0.N := ⟨(y 0).val / 256, by have := (y 0).isLt; show (y 0).val / 256 < 8; change (y 0).val < 2048 at this; omega⟩
def rowIn (y : S2048x1.Idx) : S256x1.Idx := ix2 (⟨(y 0).val % 256, Nat.mod_lt _ (by decide)⟩ : Fin 256) (0 : Fin 1)

/-- The loss column as one function of the arrays the region finds. -/
def lossAll (c : Dev nD) : Buf (Elt F) ((c : Thread nD τ).loc main_v12_0) := fun y =>
  outLoss (grid0.coords (ptOf y)) (iblk m ρ c 0 (ptOf y)) (iblk m ρ c 1 (ptOf y)) (iblk m ρ c 2 (ptOf y)) (iblk m ρ c 3 (ptOf y)) (iblk m ρ c 4 (ptOf y)) (rowIn y)

/-- The validity column likewise. -/
def validAll (c : Dev nD) : Buf (Elt F) ((c : Thread nD τ).loc main_v12_1) := fun y =>
  outValid (grid0.coords (ptOf y)) (iblk m ρ c 3 (ptOf y)) (iblk m ρ c 4 (ptOf y)) (rowIn y)

/-- At a row of point `t`'s block the column is that point's. -/
theorem rowIn_eq (y : S2048x1.Idx) (p : Fin 256) (q : Fin 1) (t : Nat) (hy : (y 0).val = t * 256 + p.val) : rowIn y = ix2 p q := by
  have hp : p.val < 256 := p.isLt
  have e0 : (⟨(y 0).val % 256, Nat.mod_lt _ (by decide)⟩ : Fin 256) = p := Fin.ext (by show (y 0).val % 256 = p.val; omega)
  have e1 : (0 : Fin 1) = q := Subsingleton.elim _ _
  unfold rowIn
  rw [e0, e1]

theorem lossAll_at (c : Dev nD) (t : Fin cfg0.N) (j : S256x1.Idx) (y : S2048x1.Idx) (hy : (y 0).val = t.val * 256 + (j 0).val) :
    lossAll m ρ c y = outLoss (grid0.coords t) (iblk m ρ c 0 t) (iblk m ρ c 1 t) (iblk m ρ c 2 t) (iblk m ρ c 3 t) (iblk m ρ c 4 t) j := by
  obtain ⟨p, q, rfl⟩ : ∃ (p : Fin 256) (q : Fin 1), j = ix2 p q := ⟨j 0, j 1, eq_ix2 j⟩
  have hp : p.val < 256 := p.isLt
  have hy' : (y 0).val = t.val * 256 + p.val := hy
  have ht : ptOf y = t := Fin.ext (by show (y 0).val / 256 = t.val; omega)
  unfold lossAll
  rw [rowIn_eq y p q t.val hy']
  generalize ptOf y = t' at ht
  subst ht
  rfl

theorem validAll_at (c : Dev nD) (t : Fin cfg0.N) (j : S256x1.Idx) (y : S2048x1.Idx) (hy : (y 0).val = t.val * 256 + (j 0).val) :
    validAll m ρ c y = outValid (grid0.coords t) (iblk m ρ c 3 t) (iblk m ρ c 4 t) j := by
  obtain ⟨p, q, rfl⟩ : ∃ (p : Fin 256) (q : Fin 1), j = ix2 p q := ⟨j 0, j 1, eq_ix2 j⟩
  have hp : p.val < 256 := p.isLt
  have hy' : (y 0).val = t.val * 256 + p.val := hy
  have ht : ptOf y = t := Fin.ext (by show (y 0).val / 256 = t.val; omega)
  unfold validAll
  rw [rowIn_eq y p q t.val hy']
  generalize ptOf y = t' at ht
  subst ht
  rfl

/-- WHAT POINT `t` WRITES BACK is block `t` of the column. -/
theorem flushed5_eq (c : Dev nD) (t : Fin cfg0.N) :
    (dats m ρ 0 c).flushed 5 t = ((cfg0.win 5).blk t).view.read (Elt F) (lossAll m ρ c) := by
  show (cfg0.win 5).cut (grid0.coords t) ((dats m ρ 0 c).after 5 t) = _
  rw [after5]
  obtain ⟨e0, e1, -, -⟩ := idx_out t
  funext j
  refine (lossAll_at m ρ c t j _ ?_).symm
  show win0_5.index t (0 : Fin 2) * 256 + 1 * (j 0).val = _
  omega

theorem flushed6_eq (c : Dev nD) (t : Fin cfg0.N) :
    (dats m ρ 0 c).flushed 6 t = ((cfg0.win 6).blk t).view.read (Elt F) (validAll m ρ c) := by
  show (cfg0.win 6).cut (grid0.coords t) ((dats m ρ 0 c).after 6 t) = _
  rw [after6]
  obtain ⟨-, -, e0, e1⟩ := idx_out t
  funext j
  refine (validAll_at m ρ c t j _ ?_).symm
  show win0_6.index t (0 : Fin 2) * 256 + 1 * (j 0).val = _
  omega

/-- An index of the column is in point `t`'s block iff its row is in the block's range. -/
theorem mem_blk5 (t : Fin cfg0.N) (i : S2048x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v12_0).slice (win0_5.rect t)).set ↔ _
  rw [View.set_slice_whole, Rect.mem_set_unit]
  exact Iff.rfl
theorem mem_blk6 (t : Fin cfg0.N) (i : S2048x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v12_1).slice (win0_6.rect t)).set ↔ _
  rw [View.set_slice_whole, Rect.mem_set_unit]
  exact Iff.rfl

/-- Every row is in some point's block. -/
theorem cover5 (i : S2048x1.Idx) : ∃ t : Fin cfg0.N, (cfg0.win 5).flush t = true ∧ i ∈ ((cfg0.win 5).blk t).view.set := by
  refine ⟨ptOf i, flush0_5 _, ?_⟩
  rw [mem_blk5]
  obtain ⟨e0, e1, -, -⟩ := idx_out (ptOf i)
  have h1 : (i 1).val < 1 := (i 1).isLt
  have hp : (ptOf i).val = (i 0).val / 256 := rfl
  intro a
  match a with
  | ⟨0, _⟩ => show win0_5.index (ptOf i) (0 : Fin 2) * 256 ≤ (i 0).val ∧ (i 0).val < win0_5.index (ptOf i) (0 : Fin 2) * 256 + 256; omega
  | ⟨1, _⟩ => show win0_5.index (ptOf i) (1 : Fin 2) * 1 ≤ (i 1).val ∧ (i 1).val < win0_5.index (ptOf i) (1 : Fin 2) * 1 + 1; omega
theorem cover6 (i : S2048x1.Idx) : ∃ t : Fin cfg0.N, (cfg0.win 6).flush t = true ∧ i ∈ ((cfg0.win 6).blk t).view.set := by
  refine ⟨ptOf i, flush0_6 _, ?_⟩
  rw [mem_blk6]
  obtain ⟨-, -, e0, e1⟩ := idx_out (ptOf i)
  have h1 : (i 1).val < 1 := (i 1).isLt
  have hp : (ptOf i).val = (i 0).val / 256 := rfl
  intro a
  match a with
  | ⟨0, _⟩ => show win0_6.index (ptOf i) (0 : Fin 2) * 256 ≤ (i 0).val ∧ (i 0).val < win0_6.index (ptOf i) (0 : Fin 2) * 256 + 256; omega
  | ⟨1, _⟩ => show win0_6.index (ptOf i) (1 : Fin 2) * 1 ≤ (i 1).val ∧ (i 1).val < win0_6.index (ptOf i) (1 : Fin 2) * 1 + 1; omega

/-- THE TWO ARRAYS after the run. -/
theorem lossArr_eq (c : Dev nD) : lossArr m ρ c = lossAll m ρ c :=
  (dats m ρ 0 c).arrAt_eq_of_cover 5 (lossAll m ρ c) (fun t _ => flushed5_eq m ρ c t) cover5
theorem validArr_eq (c : Dev nD) : validArr m ρ c = validAll m ρ c :=
  (dats m ρ 0 c).arrAt_eq_of_cover 6 (validAll m ρ c) (fun t _ => flushed6_eq m ρ c t) cover6

end Cert.KernelIdeal.Hand

end
-- ==== Proof.SpecK.lean ====
/-
  The kernel's per-row loss and validity flag at one grid point, as plain functions of the five input blocks
  there, written index by index over the extended reals.

  The blocks: `x0` the 256 rows of points handled at the grid point (32 features each), `x1` all 2048 points,
  `x2` the row of the 2048 squared norms, `x3` the 256 neighbour lists (30 sample ids each), `x4` the row of the
  2048 sample ids. Grid point `t` handles the global rows `256·t + p`, `p < 256`. Column `j` is a neighbour of
  row `p` when some entry of `p`'s list equals the sample id of `j`, and `j` is not the row itself. The similarity
  of row `p` to column `j` is minus the distance between the two points (minus infinity on the diagonal); a row's
  loss is minus the logarithm of the share its neighbours take in the softmax of its similarities, and zero for a
  row with no neighbour.
-/
import Idealize.ShloMosaic.PureOps.Ideal
import Idealize.ShloMosaic.PureOps.Ideal.Laws
import Idealize.ShloMosaic.Lib.ValueIdx
import Idealize.ShloMosaic.Lib.Pipeline.Value

noncomputable section

namespace Cert.SpecK

open Idealize.ShloMosaic Idealize.ShloMosaic.ValueIdx
open scoped BigOperators

variable (t : Fin 8)
  (x0 : (⟨2, ![256, 32]⟩ : Shape).Idx → EReal)
  (x1 : (⟨2, ![2048, 32]⟩ : Shape).Idx → EReal)
  (x2 : (⟨2, ![1, 2048]⟩ : Shape).Idx → EReal)
  (x3 : (⟨2, ![256, 30]⟩ : Shape).Idx → BitVec 32)
  (x4 : (⟨2, ![1, 2048]⟩ : Shape).Idx → BitVec 32)

/-- The diagonal flag: the global row `256·t + p`, as a 32-bit word, is the column number `j`. -/
def eye (p : Fin 256) (j : Fin 2048) : BitVec 1 :=
  IntOp.cmpi .eq (IntOp.addi (IntOp.muli (BitVec.ofNat 32 t.val) 256#32) (BitVec.ofNat 32 p.val)) (BitVec.ofNat 32 j.val)

/-- Entry `k` of row `p`'s neighbour list is the sample id of column `j`. -/
def hit (p : Fin 256) (j : Fin 2048) (k : Fin 30) : BitVec 1 :=
  IntOp.cmpi .eq (x3 (ix2 p k)) (x4 (ix2 (0 : Fin 1) j))

/-- Column `j`'s sample id is in row `p`'s neighbour list: the disjunction of the thirty entry tests, taken from
    the false bit in the order of the list. -/
def inSet (p : Fin 256) (j : Fin 2048) : BitVec 1 :=
  IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori ((0#1 : BitVec 1)) (hit x3 x4 p j 0)) (hit x3 x4 p j 1)) (hit x3 x4 p j 2)) (hit x3 x4 p j 3)) (hit x3 x4 p j 4)
    ) (hit x3 x4 p j 5)) (hit x3 x4 p j 6)) (hit x3 x4 p j 7)) (hit x3 x4 p j 8)) (hit x3 x4 p j 9)
    ) (hit x3 x4 p j 10)) (hit x3 x4 p j 11)) (hit x3 x4 p j 12)) (hit x3 x4 p j 13)) (hit x3 x4 p j 14)
    ) (hit x3 x4 p j 15)) (hit x3 x4 p j 16)) (hit x3 x4 p j 17)) (hit x3 x4 p j 18)) (hit x3 x4 p j 19)
    ) (hit x3 x4 p j 20)) (hit x3 x4 p j 21)) (hit x3 x4 p j 22)) (hit x3 x4 p j 23)) (hit x3 x4 p j 24)
    ) (hit x3 x4 p j 25)) (hit x3 x4 p j 26)) (hit x3 x4 p j 27)) (hit x3 x4 p j 28)) (hit x3 x4 p j 29)

/-- Column `j` is a neighbour of row `p`: in the list and off the diagonal. -/
def mask (p : Fin 256) (j : Fin 2048) : BitVec 1 :=
  IntOp.andi (inSet x3 x4 p j) (IntOp.xori (eye t p j) 1#1)

/-- The neighbour flag as a number, 0 or 1: the bit widened to a word and read as a signed integer. -/
def maskF (p : Fin 256) (j : Fin 2048) : EReal :=
  ((((mask t x3 x4 p j).setWidth 32).toInt : ℝ) : EReal)

/-- Row `p` has a neighbour: the maximum over the columns of the flag (one where set, zero elsewhere, from minus
    infinity) is above zero. -/
def valid (p : Fin 256) : BitVec 1 :=
  Ideal.cmp .ogt
    ((Finset.univ : Finset (Fin 2048)).fold max (Ideal.ofBits .f32 0xFF800000#32)
      (fun j => Scalar.select (mask t x3 x4 p j) (Ideal.ofBits .f32 0x3F800000#32) (Ideal.ofBits .f32 0x00000000#32)))
    (Ideal.ofBits .f32 0x00000000#32)

/-- The validity flag as a number, 0 or 1. -/
def validF (p : Fin 256) : EReal :=
  ((((valid t x3 x4 p).setWidth 32).toInt : ℝ) : EReal)

/-- The squared norm of row `p`'s point. -/
def sq (p : Fin 256) : EReal := ∑ d : Fin 32, x0 (ix2 p d) * x0 (ix2 p d)

/-- The inner product of row `p`'s point with point `j`. -/
def dot (p : Fin 256) (j : Fin 2048) : EReal := ∑ d : Fin 32, x0 (ix2 p d) * x1 (ix2 j d)

/-- The squared distance from row `p`'s point to point `j`, cut off below at zero: the two squared norms (the
    column's read from the row of norms) minus twice the inner product. -/
def d2 (p : Fin 256) (j : Fin 2048) : EReal :=
  max (sq x0 p + x2 (ix2 (0 : Fin 1) j) - Ideal.ofBits .f32 0x40000000#32 * dot x0 x1 p j) (Ideal.ofBits .f32 0x00000000#32)

/-- The similarity of row `p` to column `j`: minus infinity on the diagonal, else zero minus the distance (the
    square root taken of one on the diagonal), over one. -/
def sim (p : Fin 256) (j : Fin 2048) : EReal :=
  Scalar.select (eye t p j) (Ideal.ofBits .f32 0xFF800000#32)
    (Ideal.div
      (Ideal.ofBits .f32 0x00000000#32
        - Ideal.sqrt (Scalar.select (eye t p j) (Ideal.ofBits .f32 0x3F800000#32) (d2 x0 x1 x2 p j)))
      (Ideal.ofBits .f32 0x3F800000#32))

/-- The largest similarity in row `p`, from minus infinity. -/
def mx (p : Fin 256) : EReal :=
  (Finset.univ : Finset (Fin 2048)).fold max (Ideal.ofBits .f32 0xFF800000#32) (fun j => sim t x0 x1 x2 p j)

/-- The softmax weight of column `j` in row `p`, not yet normalised. -/
def pexp (p : Fin 256) (j : Fin 2048) : EReal := Ideal.exp (sim t x0 x1 x2 p j - mx t x0 x1 x2 p)

/-- The sum of row `p`'s weights. -/
def den (p : Fin 256) : EReal := ∑ j : Fin 2048, pexp t x0 x1 x2 p j

/-- The sum of row `p`'s weights over its neighbours. -/
def num (p : Fin 256) : EReal := ∑ j : Fin 2048, pexp t x0 x1 x2 p j * maskF t x3 x4 p j

/-- The share of row `p`'s neighbours: the neighbours' sum over the whole sum, one division. -/
def s (p : Fin 256) : EReal := Ideal.div (num t x0 x1 x2 x3 x4 p) (den t x0 x1 x2 p)

/-- Row `p`'s loss: zero minus the logarithm of the share plus a small constant where the row has a neighbour,
    zero where it has none. -/
def loss (p : Fin 256) : EReal :=
  Scalar.select (valid t x3 x4 p)
    (Ideal.ofBits .f32 0x00000000#32 - Ideal.log (s t x0 x1 x2 x3 x4 p + Ideal.ofBits .f32 0x322BCC77#32))
    (Ideal.ofBits .f32 0x00000000#32)

end Cert.SpecK

end
-- ==== Proof.RowK.lean ====
/-
  The kernel body's two result columns read at a row.

  At a grid point the body leaves, in each of its two result blocks, one whole-block store of a computed value.
  Here that value is read at local row `p`: first each layout operation of the body at an index (a column cast,
  a column or a row spread over the block, a lane reduction), then the body's named values one at a time — the
  diagonal flag, the thirty membership tests and their disjunction, the neighbour flag, the row's validity, the
  squared distance, the similarity, its row maximum, the softmax weights and their two sums — and last the two
  stored columns, which are the specification's loss and validity flag of the input blocks.
-/
import proofs.«172015_j17892833755270_2_alg».proof.Proof.BodyI
import proofs.«172015_j17892833755270_2_alg».proof.Proof.SpecK
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RowValue

open Cert.KernelIdeal Cert.KernelIdeal.Gen Cert.KernelIdeal.Hand
open Idealize.ShloMosaic Idealize.ShloMosaic.ValueIdx
open scoped BigOperators

/-! ## Layout operations at an index -/

section Layout
variable {α : Type}

/-- A vector of `a` entries cast to a column `[a, 1]` reads, at `(i, u)`, the entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the columns of a `[a, b]` block visits at row `p`, coordinate `k`, is `(p, k)`. -/
theorem lift_cols {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

end Layout

/-! ## Pointwise operations at an index -/

section Pointwise
variable {s : Shape}

theorem cmpi_apply {w : ℕ} (q : CmpIPredicate) (x y : IVec s w) (i : s.Idx) : cmpi q x y i = IntOp.cmpi q (x i) (y i) := rfl
theorem ori_apply {w : ℕ} (x y : IVec s w) (i : s.Idx) : ori x y i = IntOp.ori (x i) (y i) := rfl
theorem andi_apply {w : ℕ} (x y : IVec s w) (i : s.Idx) : andi x y i = IntOp.andi (x i) (y i) := rfl
theorem xori_apply {w : ℕ} (x y : IVec s w) (i : s.Idx) : xori x y i = IntOp.xori (x i) (y i) := rfl
theorem addi_apply {w : ℕ} (x y : IVec s w) (i : s.Idx) : addi x y i = IntOp.addi (x i) (y i) := rfl
theorem sqrt_apply {φ : FTy} (x : FVec Ideal s φ) (i : s.Idx) : sqrt x i = Ideal.sqrt (x i) := rfl
theorem exp_apply {φ : FTy} (x : FVec Ideal s φ) (i : s.Idx) : exp x i = Ideal.exp (x i) := rfl
theorem log_apply {φ : FTy} (x : FVec Ideal s φ) (i : s.Idx) : log x i = Ideal.log (x i) := rfl

end Pointwise

/-! ## The flags -/

/-- The diagonal flag at `(p, j)`: at grid point `t` the global row is `256·t + p`. -/
theorem eye_apply (i : grid0.Coords) (t : Fin 8) (ht : (i 0).val = t.val) (p : Fin 256) (j : Fin 2048) :
    k0_pay3 i (ix2 p j) = Cert.SpecK.eye t p j := by
  unfold k0_pay3
  simp only [cmpi_apply, addi_apply, broadcast_apply, ht]
  rw [iota_single_apply .tc S256x2048 32 0, iota_single_apply .tc S256x2048 32 1]
  rfl

/-- The sample ids spread over the rows: at `(p, j)` the id of column `j`. -/
theorem ids_apply (v6 : Vec Ideal S1x2048 .i32) (p : Fin 256) (j : Fin 2048) :
    k0_pay4 (F := Ideal) v6 (ix2 p j) = v6 (ix2 (0 : Fin 1) j) := by
  unfold k0_pay4
  simp only [shapeCast_self]
  exact broadcastTo_1b_ab_apply _ _ p j

/-- The neighbour lists are read as they are. -/
theorem nbrs_eq (v10 : Vec Ideal S256x30 .i32) : k0_pay5 (F := Ideal) v10 = v10 := by
  unfold k0_pay5
  exact shapeCast_self _ _

/-- One membership test at `(p, j)`: entry `o` of row `p`'s list against the id spread at `(p, j)`. -/
theorem test_apply (o : ℕ) (v11 : IVec S256x30 32) (v9 : IVec S256x2048 32)
    (hs : S256x30.Slices ![0, o] S256x1) (hb : S256x1.Broadcasts S256x2048) (p : Fin 256) (j : Fin 2048) :
    cmpi .eq (broadcastTo S256x2048 (extractStridedSlice S256x1 ![0, o] v11 hs) hb) v9 (ix2 p j)
      = IntOp.cmpi .eq (v11 (ix2 p ⟨o + (0 : Fin 1).val, Nat.lt_of_lt_of_le (Nat.add_lt_add_left (0 : Fin 1).isLt o) (hs.2 1)⟩)) (v9 (ix2 p j)) := by
  rw [cmpi_apply, broadcastTo_a1_ab_apply, slice2_axis1_eq]

/-- The first ten membership tests joined, at `(p, j)`. -/
theorem tests0_apply (v6 : Vec Ideal S1x2048 .i32) (v10 : Vec Ideal S256x30 .i32) (p : Fin 256) (j : Fin 2048) :
    k0_pay6 (F := Ideal) v6 v10 (ix2 p j)
      = IntOp.ori (IntOp.ori (IntOp.ori (IntOp.ori (IntOp.ori (IntOp.ori (IntOp.ori (IntOp.ori (IntOp.ori (IntOp.ori ((0#1 : BitVec 1)) (IntOp.cmpi .eq (v10 (ix2 p (0 : Fin 30))) (v6 (ix2 (0 : Fin 1) j)))) (IntOp.cmpi .eq (v10 (ix2 p (1 : Fin 30))) (v6 (ix2 (0 : Fin 1) j)))) (IntOp.cmpi .eq (v10 (ix2 p (2 : Fin 30))) (v6 (ix2 (0 : Fin 1) j)))) (IntOp.cmpi .eq (v10 (ix2 p (3 : Fin 30))) (v6 (ix2 (0 : Fin 1) j)))) (IntOp.cmpi .eq (v10 (ix2 p (4 : Fin 30))) (v6 (ix2 (0 : Fin 1) j)))) (IntOp.cmpi .eq (v10 (ix2 p (5 : Fin 30))) (v6 (ix2 (0 : Fin 1) j)))) (IntOp.cmpi .eq (v10 (ix2 p (6 : Fin 30))) (v6 (ix2 (0 : Fin 1) j)))) (IntOp.cmpi .eq (v10 (ix2 p (7 : Fin 30))) (v6 (ix2 (0 : Fin 1) j)))) (IntOp.cmpi .eq (v10 (ix2 p (8 : Fin 30))) (v6 (ix2 (0 : Fin 1) j)))) (IntOp.cmpi .eq (v10 (ix2 p (9 : Fin 30))) (v6 (ix2 (0 : Fin 1) j))) := by
  unfold k0_pay6
  simp only [ori_apply, test_apply, ids_apply, nbrs_eq, broadcast_apply]
  rfl

/-- The next fifteen joined to what came before, at `(p, j)`. -/
theorem tests1_apply (v9 : IVec S256x2048 32) (v11 : IVec S256x30 32) (v52 : IVec S256x2048 1) (p : Fin 256) (j : Fin 2048) :
    k0_pay7 v9 v11 v52 (ix2 p j)
      = IntOp.ori (IntOp.ori (IntOp.ori (IntOp.ori (IntOp.ori (IntOp.ori (IntOp.ori (IntOp.ori (IntOp.ori (IntOp.ori (IntOp.ori (IntOp.ori (IntOp.ori (IntOp.ori (IntOp.ori (v52 (ix2 p j)) (IntOp.cmpi .eq (v11 (ix2 p (10 : Fin 30))) (v9 (ix2 p j)))) (IntOp.cmpi .eq (v11 (ix2 p (11 : Fin 30))) (v9 (ix2 p j)))) (IntOp.cmpi .eq (v11 (ix2 p (12 : Fin 30))) (v9 (ix2 p j)))) (IntOp.cmpi .eq (v11 (ix2 p (13 : Fin 30))) (v9 (ix2 p j)))) (IntOp.cmpi .eq (v11 (ix2 p (14 : Fin 30))) (v9 (ix2 p j)))) (IntOp.cmpi .eq (v11 (ix2 p (15 : Fin 30))) (v9 (ix2 p j)))) (IntOp.cmpi .eq (v11 (ix2 p (16 : Fin 30))) (v9 (ix2 p j)))) (IntOp.cmpi .eq (v11 (ix2 p (17 : Fin 30))) (v9 (ix2 p j)))) (IntOp.cmpi .eq (v11 (ix2 p (18 : Fin 30))) (v9 (ix2 p j)))) (IntOp.cmpi .eq (v11 (ix2 p (19 : Fin 30))) (v9 (ix2 p j)))) (IntOp.cmpi .eq (v11 (ix2 p (20 : Fin 30))) (v9 (ix2 p j)))) (IntOp.cmpi .eq (v11 (ix2 p (21 : Fin 30))) (v9 (ix2 p j)))) (IntOp.cmpi .eq (v11 (ix2 p (22 : Fin 30))) (v9 (ix2 p j)))) (IntOp.cmpi .eq (v11 (ix2 p (23 : Fin 30))) (v9 (ix2 p j)))) (IntOp.cmpi .eq (v11 (ix2 p (24 : Fin 30))) (v9 (ix2 p j))) := by
  unfold k0_pay7
  simp only [ori_apply, test_apply]
  rfl

/-- The last five joined, and the diagonal taken out, at `(p, j)`. -/
theorem tests2_apply (v5 : IVec S256x2048 1) (v9 : IVec S256x2048 32) (v11 : IVec S256x30 32) (v112 : IVec S256x2048 1) (p : Fin 256) (j : Fin 2048) :
    k0_pay8 v5 v9 v11 v112 (ix2 p j)
      = IntOp.andi (IntOp.ori (IntOp.ori (IntOp.ori (IntOp.ori (IntOp.ori (v112 (ix2 p j)) (IntOp.cmpi .eq (v11 (ix2 p (25 : Fin 30))) (v9 (ix2 p j)))) (IntOp.cmpi .eq (v11 (ix2 p (26 : Fin 30))) (v9 (ix2 p j)))) (IntOp.cmpi .eq (v11 (ix2 p (27 : Fin 30))) (v9 (ix2 p j)))) (IntOp.cmpi .eq (v11 (ix2 p (28 : Fin 30))) (v9 (ix2 p j)))) (IntOp.cmpi .eq (v11 (ix2 p (29 : Fin 30))) (v9 (ix2 p j)))) (IntOp.xori (v5 (ix2 p j)) 1#1) := by
  unfold k0_pay8
  simp only [andi_apply, xori_apply, ori_apply, test_apply, constantI_apply]
  rfl

/-- The whole-block rectangles start at zero. -/
theorem zero_offsets : (![0, 0] : Fin 2 → Nat) = fun _ => 0 := funext fun a => by fin_cases a <;> rfl

/-- A whole-block load reads the block. -/
theorem ld_knn (x3 : Vec Ideal S256x30 .i32) : View.ld x3 rKnn = x3 := View.ld_unit_zero zero_offsets _ x3
theorem ld_ids (x4 : Vec Ideal S1x2048 .i32) : View.ld x4 rRow = x4 := View.ld_unit_zero zero_offsets _ x4
theorem ld_norms (x2 : Vec Ideal S1x2048 .f32) : View.ld x2 rRow = x2 := View.ld_unit_zero zero_offsets _ x2
theorem ld_rows (x0 : Vec Ideal S256x32 .f32) : View.ld x0 rZi = x0 := View.ld_unit_zero zero_offsets _ x0
theorem ld_points (x1 : Vec Ideal S2048x32 .f32) : View.ld x1 rZ = x1 := View.ld_unit_zero zero_offsets _ x1

/-- The neighbour flag at `(p, j)`, of the blocks of neighbour lists and sample ids. -/
theorem mask_apply (i : grid0.Coords) (t : Fin 8) (ht : (i 0).val = t.val)
    (x3 : Vec Ideal S256x30 .i32) (x4 : Vec Ideal S1x2048 .i32) (p : Fin 256) (j : Fin 2048) :
    k0_pay8 (k0_pay3 i) (ids (F := Ideal) x4) (nbrs (F := Ideal) x3) (inSet (F := Ideal) x3 x4) (ix2 p j)
      = Cert.SpecK.mask t x3 x4 p j := by
  unfold Cert.SpecK.mask Cert.SpecK.inSet Cert.SpecK.hit Hand.inSet Hand.ids Hand.nbrs
  rw [tests2_apply, tests1_apply, tests0_apply, eye_apply i t ht]
  simp only [ids_apply, nbrs_eq]
  rw [ld_knn, ld_ids]

/-- A flag as a number, over any flags: the bit widened to a word and read as a signed integer. -/
theorem maskF_of (v5 : IVec S256x2048 1) (v9 : IVec S256x2048 32) (v11 : IVec S256x30 32) (v112 : IVec S256x2048 1) (y : S256x2048.Idx) :
    k0_pay9 (F := Ideal) v5 v9 v11 v112 y = ((((k0_pay8 v5 v9 v11 v112 y).setWidth 32).toInt : ℝ) : EReal) := rfl

/-- The neighbour flag as a number, at `(p, j)`. -/
theorem maskF_apply (i : grid0.Coords) (t : Fin 8) (ht : (i 0).val = t.val)
    (x3 : Vec Ideal S256x30 .i32) (x4 : Vec Ideal S1x2048 .i32) (p : Fin 256) (j : Fin 2048) :
    maskF (F := Ideal) i x3 x4 (ix2 p j) = Cert.SpecK.maskF t x3 x4 p j := by
  unfold Cert.SpecK.maskF Hand.maskF
  rw [maskF_of, mask_apply i t ht]

/-! ## Lane reductions at a row -/

/-- A maximum along the columns, from minus infinity, at row `p`: the fold of `max` over the row's entries. -/
theorem rowMax_apply (src : FVec Ideal S256x2048 .f32) (h : S256x2048.Reduces [1] S256) (hφ : FKind.Formats .f32)
    (hacc : (0xFF800000#32 : BitVec 32) = FKind.maximumf.neutral .f32 hφ) (p : Fin 256) :
    multiReduction .maximumf [1] S256 src 0xFF800000#32 h hφ hacc (ix1 p)
      = (Finset.univ : Finset (Fin 2048)).fold max (Ideal.ofBits .f32 0xFF800000#32) (fun j => src (ix2 p j)) := by
  refine (Ideal.multiReduction_maximumf_single src _ h hφ hacc (ix1 p)).trans ?_
  show (Finset.univ : Finset (Fin 2048)).fold max (Ideal.ofBits .f32 0xFF800000#32) (src ∘ h.lift (ix1 p)) = _
  congr 1
  funext k
  exact congrArg src (lift_cols h p k)

/-- A sum along the columns at row `p`: the sum of the row's entries. -/
theorem rowSum_apply (src : FVec Ideal S256x2048 .f32) (h : S256x2048.Reduces [1] S256) (hφ : FKind.Formats .f32)
    (hacc : (0x00000000#32 : BitVec 32) = FKind.add.neutral .f32 hφ) (p : Fin 256) :
    multiReduction .add [1] S256 src 0x00000000#32 h hφ hacc (ix1 p) = ∑ j : Fin 2048, src (ix2 p j) := by
  refine (Ideal.multiReduction_add_single src _ h hφ hacc (ix1 p)).trans ?_
  show ∑ k : Fin 2048, src (h.lift (ix1 p) k) = _
  exact Finset.sum_congr rfl fun k _ => congrArg src (lift_cols h p k)

/-- The same over the 32 features of a block of points. -/
theorem featSum_apply (src : FVec Ideal S256x32 .f32) (h : S256x32.Reduces [1] S256) (hφ : FKind.Formats .f32)
    (hacc : (0x00000000#32 : BitVec 32) = FKind.add.neutral .f32 hφ) (p : Fin 256) :
    multiReduction .add [1] S256 src 0x00000000#32 h hφ hacc (ix1 p) = ∑ d : Fin 32, src (ix2 p d) := by
  refine (Ideal.multiReduction_add_single src _ h hφ hacc (ix1 p)).trans ?_
  show ∑ k : Fin 32, src (h.lift (ix1 p) k) = _
  exact Finset.sum_congr rfl fun k _ => congrArg src (lift_cols h p k)

/-! ## The validity flag

The body's test, over any flags, with each intermediate vector named. -/

/-- One where the flag is set, zero elsewhere. -/
def onesV (c : IVec S256x2048 1) : FVec Ideal S256x2048 .f32 :=
  select c (broadcast S256x2048 (Scalar.ofBits .f32 0x3F800000#32)) (broadcast S256x2048 (Scalar.ofBits .f32 0x00000000#32))

/-- Each row's maximum of those, from minus infinity. -/
def anyV (c : IVec S256x2048 1) : FVec Ideal S256 .f32 :=
  multiReduction .maximumf [1] S256 (onesV c) 0xFF800000#32 reduces_S256x2048_S256 (.inl rfl) rfl

/-- The column of tests: that maximum is above zero. -/
def validV (c : IVec S256x2048 1) : IVec S256x1 1 :=
  shapeCast S256x1 (cmpf .ogt (anyV c) (broadcast S256 (Scalar.ofBits .f32 0x00000000#32))) shapeCasts_S256_S256x1

/-- The body's validity column is that column of the neighbour flags. -/
theorem pay10_eq (v5 : IVec S256x2048 1) (v9 : IVec S256x2048 32) (v11 : IVec S256x30 32) (v112 : IVec S256x2048 1) :
    k0_pay10 (F := Ideal) v5 v9 v11 v112 = validV (k0_pay8 v5 v9 v11 v112) := rfl

theorem onesV_apply (c : IVec S256x2048 1) (p : Fin 256) (j : Fin 2048) :
    onesV c (ix2 p j) = Scalar.select (c (ix2 p j)) (Ideal.ofBits .f32 0x3F800000#32) (Ideal.ofBits .f32 0x00000000#32) := rfl

theorem anyV_apply (c : IVec S256x2048 1) (p : Fin 256) :
    anyV c (ix1 p) = (Finset.univ : Finset (Fin 2048)).fold max (Ideal.ofBits .f32 0xFF800000#32) (fun j => onesV c (ix2 p j)) :=
  rowMax_apply _ _ _ _ p

theorem validV_apply (c : IVec S256x2048 1) (p : Fin 256) (u : Fin 1) :
    validV c (ix2 p u) = Ideal.cmp .ogt (anyV c (ix1 p)) (Ideal.ofBits .f32 0x00000000#32) := by
  unfold validV
  rw [shapeCast_a_a1_apply, cmpf_apply, broadcast_apply, Ideal.cmpf_def, Ideal.ofBits_def]

/-- Row `p`'s validity bit, of the blocks. -/
theorem validB_apply (i : grid0.Coords) (t : Fin 8) (ht : (i 0).val = t.val)
    (x3 : Vec Ideal S256x30 .i32) (x4 : Vec Ideal S1x2048 .i32) (p : Fin 256) (u : Fin 1) :
    validB (F := Ideal) i x3 x4 (ix2 p u) = Cert.SpecK.valid t x3 x4 p := by
  unfold Cert.SpecK.valid Hand.validB
  rw [pay10_eq, validV_apply, anyV_apply]
  simp only [onesV_apply, mask_apply i t ht]

/-- A validity bit as a number, over any column of bits. -/
theorem flagF_of (v143 : IVec S256x1 1) (y : S256x1.Idx) :
    k0_pay2 (F := Ideal) v143 y = ((((v143 y).setWidth 32).toInt : ℝ) : EReal) := rfl

/-- THE VALIDITY COLUMN at row `p`. -/
theorem outValid_apply (i : grid0.Coords) (t : Fin 8) (ht : (i 0).val = t.val)
    (x3 : Vec Ideal S256x30 .i32) (x4 : Vec Ideal S1x2048 .i32) (p : Fin 256) :
    outValid (F := Ideal) i x3 x4 (ix2 p (0 : Fin 1)) = Cert.SpecK.validF t x3 x4 p := by
  unfold outValid Cert.SpecK.validF
  rw [View.canon_unit_zero zero_offsets, flagF_of, validB_apply i t ht]

/-! ## The squared distance -/

/-- The two squared norms added, at `(p, j)`: the row's computed from its point, the column's read from the row of norms. -/
theorem norms_apply (v144 : FVec Ideal S256x32 .f32) (v152 : FVec Ideal S1x2048 .f32) (p : Fin 256) (j : Fin 2048) :
    k0_pay11 (F := Ideal) v144 v152 (ix2 p j)
      = (∑ d : Fin 32, v144 (ix2 p d) * v144 (ix2 p d)) + v152 (ix2 (0 : Fin 1) j) := by
  unfold k0_pay11
  simp only [addf_apply, broadcastTo_a1_ab_apply, broadcastTo_1b_ab_apply, shapeCast_self, shapeCast_a_a1_apply]
  refine congrArg (· + _) ((featSum_apply _ _ _ _ p).trans ?_)
  rfl

/-- The product of the block of rows with all the points contracts the feature axis of both. -/
abbrev pointsDot : DotDims S256x32 S2048x32 S256x2048 := dot_S256x32_S2048x32_S256x2048_1_1_0_0_n_n

theorem pointsDot_lhs0 (i : S256x2048.Idx) (q : pointsDot.contr.Idx) : (pointsDot.lhsIdx i q 0).val = (i 0).val := by
  unfold DotDims.lhsIdx
  rw [dif_neg (show ¬(0 : Fin S256x32.rank) ∈ pointsDot.lhsBatch by decide), dif_pos (show (0 : Fin S256x32.rank) ∈ pointsDot.lhsNonContracting by decide)]
  rfl
theorem pointsDot_lhs1 (i : S256x2048.Idx) (q : pointsDot.contr.Idx) : (pointsDot.lhsIdx i q 1).val = (q ⟨0, by decide⟩).val :=
  pointsDot.lhsIdx_val_of_single rfl i q
theorem pointsDot_rhs0 (i : S256x2048.Idx) (q : pointsDot.contr.Idx) : (pointsDot.rhsIdx i q 0).val = (i 1).val := by
  unfold DotDims.rhsIdx
  rw [dif_neg (show ¬(0 : Fin S2048x32.rank) ∈ pointsDot.rhsBatch by decide), dif_pos (show (0 : Fin S2048x32.rank) ∈ pointsDot.rhsNonContracting by decide)]
  rfl
theorem pointsDot_rhs1 (i : S256x2048.Idx) (q : pointsDot.contr.Idx) : (pointsDot.rhsIdx i q 1).val = (q ⟨0, by decide⟩).val :=
  pointsDot.rhsIdx_val_of_single rfl i q

/-- The matrix product at `(p, j)`: the inner product of row `p`'s point with point `j`. -/
theorem matmul_rows_apply (lhs : FVec Ideal S256x32 .bf16) (rhs : FVec Ideal S2048x32 .bf16) (p : Fin 256) (j : Fin 2048) :
    matmul pointsDot none lhs rhs (constant (F := Ideal) S256x2048 .f32 0x00000000#32) (ix2 p j)
      = ∑ d : Fin 32, lhs (ix2 p d) * rhs (ix2 j d) := by
  simp only [matmul]
  rw [Ideal.matmul_constant_zero_apply, ← Equiv.sum_comp (contrEquiv1 pointsDot 32 rfl rfl).symm]
  refine Finset.sum_congr rfl fun k _ => ?_
  have hk := contrEquiv1_symm_val pointsDot 32 rfl rfl k
  have el : pointsDot.lhsIdx (ix2 p j) ((contrEquiv1 pointsDot 32 rfl rfl).symm k) = ix2 p k := funext fun a => Fin.ext (by
    match a with
    | ⟨0, _⟩ => exact pointsDot_lhs0 _ _
    | ⟨1, _⟩ => exact (pointsDot_lhs1 _ _).trans hk)
  have er : pointsDot.rhsIdx (ix2 p j) ((contrEquiv1 pointsDot 32 rfl rfl).symm k) = ix2 j k := funext fun a => Fin.ext (by
    match a with
    | ⟨0, _⟩ => exact pointsDot_rhs0 _ _
    | ⟨1, _⟩ => exact (pointsDot_rhs1 _ _).trans hk)
  rw [el, er]

/-- Twice the inner product, at `(p, j)`. -/
theorem twiceDot_apply (v144 : FVec Ideal S256x32 .f32) (v145 : FVec Ideal S2048x32 .f32) (p : Fin 256) (j : Fin 2048) :
    k0_pay12 (F := Ideal) v144 v145 (ix2 p j)
      = Ideal.ofBits .f32 0x40000000#32 * ∑ d : Fin 32, v144 (ix2 p d) * v145 (ix2 j d) := by
  unfold k0_pay12
  simp only [mulf_apply, broadcast_apply]
  refine congrArg (_ * ·) ((matmul_rows_apply _ _ p j).trans ?_)
  rfl

/-! ## The loss column, one named value at a time

The body's stored value, over any flags and distance terms: the same operations as the body's, each intermediate
vector given a name, so that each can be read at an index on its own. -/

section Loss
variable (v5 : IVec S256x2048 1) (v136 : FVec Ideal S256x2048 .f32) (v143 : IVec S256x1 1) (v156 v158 : FVec Ideal S256x2048 .f32)

/-- The squared distances, cut off below at zero. -/
def d2V : FVec Ideal S256x2048 .f32 :=
  maximumf (subf v156 v158) (broadcast S256x2048 (Scalar.ofBits .f32 0x00000000#32))

/-- The similarities: minus infinity on the diagonal, else zero minus the root of the squared distance (of one on the
    diagonal), over one. -/
def simV : FVec Ideal S256x2048 .f32 :=
  select v5 (broadcast S256x2048 (Scalar.ofBits .f32 0xFF800000#32))
    (divf
      (subf (broadcast S256x2048 (Scalar.ofBits .f32 0x00000000#32))
        (sqrt (select v5 (broadcast S256x2048 (Scalar.ofBits .f32 0x3F800000#32)) (d2V v156 v158))))
      (broadcast S256x2048 (Scalar.ofBits .f32 0x3F800000#32)))

/-- Each row's largest similarity. -/
def mxV : FVec Ideal S256 .f32 :=
  multiReduction .maximumf [1] S256 (simV v5 v156 v158) 0xFF800000#32 reduces_S256x2048_S256 (.inl rfl) rfl

/-- The softmax weights, not yet normalised. -/
def pV : FVec Ideal S256x2048 .f32 :=
  exp (subf (simV v5 v156 v158)
    (broadcastTo S256x2048 (shapeCast S256x1 (mxV v5 v156 v158) shapeCasts_S256_S256x1) broadcasts_S256x1_S256x2048))

/-- Each row's sum of weights. -/
def denV : FVec Ideal S256 .f32 :=
  multiReduction .add [1] S256 (pV v5 v156 v158) 0x00000000#32 reduces_S256x2048_S256 (.inl rfl) rfl

/-- Each row's sum of weights over its neighbours. -/
def numV : FVec Ideal S256 .f32 :=
  multiReduction .add [1] S256 (mulf (pV v5 v156 v158) v136) 0x00000000#32 reduces_S256x2048_S256 (.inl rfl) rfl

/-- The loss column. -/
def lossV : FVec Ideal S256x1 .f32 :=
  select v143
    (subf (broadcast S256x1 (Scalar.ofBits .f32 0x00000000#32))
      (log (addf
        (divf (shapeCast S256x1 (numV v5 v136 v156 v158) shapeCasts_S256_S256x1)
          (shapeCast S256x1 (denV v5 v156 v158) shapeCasts_S256_S256x1))
        (broadcast S256x1 (Scalar.ofBits .f32 0x322BCC77#32)))))
    (broadcast S256x1 (Scalar.ofBits .f32 0x00000000#32))

/-- The body's stored loss value is that column. -/
theorem pay1_eq : k0_pay1 (F := Ideal) v5 v136 v143 v156 v158 = lossV v5 v136 v143 v156 v158 := rfl

theorem d2V_apply (p : Fin 256) (j : Fin 2048) :
    d2V v156 v158 (ix2 p j) = max (v156 (ix2 p j) - v158 (ix2 p j)) (Ideal.ofBits .f32 0x00000000#32) := by
  unfold d2V
  simp only [maximumf_apply, subf_apply, broadcast_apply, Ideal.ofBits_def]

theorem simV_apply (p : Fin 256) (j : Fin 2048) :
    simV v5 v156 v158 (ix2 p j)
      = Scalar.select (v5 (ix2 p j)) (Ideal.ofBits .f32 0xFF800000#32)
          (Ideal.div
            (Ideal.ofBits .f32 0x00000000#32
              - Ideal.sqrt (Scalar.select (v5 (ix2 p j)) (Ideal.ofBits .f32 0x3F800000#32) (d2V v156 v158 (ix2 p j))))
            (Ideal.ofBits .f32 0x3F800000#32)) := by
  unfold simV
  simp only [select_apply, divf_apply, subf_apply, sqrt_apply, broadcast_apply, Ideal.ofBits_def]

theorem mxV_apply (p : Fin 256) :
    mxV v5 v156 v158 (ix1 p)
      = (Finset.univ : Finset (Fin 2048)).fold max (Ideal.ofBits .f32 0xFF800000#32) (fun j => simV v5 v156 v158 (ix2 p j)) :=
  rowMax_apply _ _ _ _ p

theorem pV_apply (p : Fin 256) (j : Fin 2048) :
    pV v5 v156 v158 (ix2 p j) = Ideal.exp (simV v5 v156 v158 (ix2 p j) - mxV v5 v156 v158 (ix1 p)) := by
  unfold pV
  rw [exp_apply, subf_apply, broadcastTo_a1_ab_apply, shapeCast_a_a1_apply]

theorem denV_apply (p : Fin 256) : denV v5 v156 v158 (ix1 p) = ∑ j : Fin 2048, pV v5 v156 v158 (ix2 p j) :=
  rowSum_apply _ _ _ _ p

theorem numV_apply (p : Fin 256) :
    numV v5 v136 v156 v158 (ix1 p) = ∑ j : Fin 2048, pV v5 v156 v158 (ix2 p j) * v136 (ix2 p j) :=
  (rowSum_apply _ _ _ _ p).trans (Finset.sum_congr rfl fun j _ => mulf_apply _ _ _)

theorem lossV_apply (p : Fin 256) (u : Fin 1) :
    lossV v5 v136 v143 v156 v158 (ix2 p u)
      = Scalar.select (v143 (ix2 p u))
          (Ideal.ofBits .f32 0x00000000#32
            - Ideal.log (Ideal.div (numV v5 v136 v156 v158 (ix1 p)) (denV v5 v156 v158 (ix1 p)) + Ideal.ofBits .f32 0x322BCC77#32))
          (Ideal.ofBits .f32 0x00000000#32) := by
  unfold lossV
  simp only [select_apply, subf_apply, log_apply, addf_apply, divf_apply, shapeCast_a_a1_apply, broadcast_apply, Ideal.ofBits_def]

end Loss

/-! ## The loss column of the blocks -/

/-- The similarity at `(p, j)`, of the blocks of points and the row of norms. -/
theorem sim_apply (i : grid0.Coords) (t : Fin 8) (ht : (i 0).val = t.val)
    (x0 : Vec Ideal S256x32 .f32) (x1 : Vec Ideal S2048x32 .f32) (x2 : Vec Ideal S1x2048 .f32) (p : Fin 256) (j : Fin 2048) :
    simV (k0_pay3 i) (k0_pay11 (F := Ideal) (View.ld x0 rZi) (View.ld x2 rRow)) (k0_pay12 (F := Ideal) (View.ld x0 rZi) (View.ld x1 rZ)) (ix2 p j)
      = Cert.SpecK.sim t x0 x1 x2 p j := by
  unfold Cert.SpecK.sim Cert.SpecK.d2 Cert.SpecK.sq Cert.SpecK.dot
  rw [simV_apply, d2V_apply, eye_apply i t ht, norms_apply, twiceDot_apply, ld_rows, ld_norms, ld_points]

/-- Row `p`'s largest similarity. -/
theorem mx_apply (i : grid0.Coords) (t : Fin 8) (ht : (i 0).val = t.val)
    (x0 : Vec Ideal S256x32 .f32) (x1 : Vec Ideal S2048x32 .f32) (x2 : Vec Ideal S1x2048 .f32) (p : Fin 256) :
    mxV (k0_pay3 i) (k0_pay11 (F := Ideal) (View.ld x0 rZi) (View.ld x2 rRow)) (k0_pay12 (F := Ideal) (View.ld x0 rZi) (View.ld x1 rZ)) (ix1 p)
      = Cert.SpecK.mx t x0 x1 x2 p := by
  unfold Cert.SpecK.mx
  rw [mxV_apply]
  simp only [sim_apply i t ht]

/-- The softmax weight at `(p, j)`. -/
theorem pexp_apply (i : grid0.Coords) (t : Fin 8) (ht : (i 0).val = t.val)
    (x0 : Vec Ideal S256x32 .f32) (x1 : Vec Ideal S2048x32 .f32) (x2 : Vec Ideal S1x2048 .f32) (p : Fin 256) (j : Fin 2048) :
    pV (k0_pay3 i) (k0_pay11 (F := Ideal) (View.ld x0 rZi) (View.ld x2 rRow)) (k0_pay12 (F := Ideal) (View.ld x0 rZi) (View.ld x1 rZ)) (ix2 p j)
      = Cert.SpecK.pexp t x0 x1 x2 p j := by
  unfold Cert.SpecK.pexp
  rw [pV_apply, sim_apply i t ht, mx_apply i t ht]

/-- THE LOSS COLUMN at row `p`. -/
theorem outLoss_apply (i : grid0.Coords) (t : Fin 8) (ht : (i 0).val = t.val)
    (x0 : Vec Ideal S256x32 .f32) (x1 : Vec Ideal S2048x32 .f32) (x2 : Vec Ideal S1x2048 .f32)
    (x3 : Vec Ideal S256x30 .i32) (x4 : Vec Ideal S1x2048 .i32) (p : Fin 256) :
    outLoss (F := Ideal) i x0 x1 x2 x3 x4 (ix2 p (0 : Fin 1)) = Cert.SpecK.loss t x0 x1 x2 x3 x4 p := by
  unfold outLoss Cert.SpecK.loss Cert.SpecK.s Cert.SpecK.num Cert.SpecK.den
  rw [View.canon_unit_zero zero_offsets, pay1_eq, lossV_apply, numV_apply, denV_apply, validB_apply i t ht]
  simp only [pexp_apply i t ht, maskF_apply i t ht]

end Cert.KernelIdeal.RowValue

end
-- ==== Proof.SpecR.lean ====
/-
  The reference's result as plain functions of its three arrays, written index by index over the extended reals.

  The arrays: `z` the 2048 points (32 features each), `knn` the 2048 neighbour lists (30 sample ids each; row `r`
  is the list of point `r`), `sidx` the 2048 sample ids. Column `j` is a neighbour of row `r` when some entry of
  `r`'s list equals the sample id of `j`, and `j` is not the row itself. The similarity of row `r` to column `j`
  is minus the distance between the two points (minus infinity on the diagonal); a row's share is the sum over
  its neighbours of the softmax of its similarities, each weight divided by the row's sum before it is added; a
  row's loss is minus the logarithm of its share, and zero for a row with no neighbour; the result is the mean loss
  over the rows that have a neighbour, and zero when there is none.
-/
import Idealize.ShloMosaic.PureOps.Ideal
import Idealize.ShloMosaic.PureOps.Ideal.Laws
import Idealize.ShloMosaic.Lib.ValueIdx
import Idealize.ShloMosaic.Lib.Pipeline.Value

noncomputable section

namespace Cert.SpecR

open Idealize.ShloMosaic Idealize.ShloMosaic.ValueIdx
open scoped BigOperators

variable
  (z : (⟨2, ![2048, 32]⟩ : Shape).Idx → EReal)
  (knn : (⟨2, ![2048, 30]⟩ : Shape).Idx → BitVec 32)
  (sidx : (⟨1, ![2048]⟩ : Shape).Idx → BitVec 32)

/-- The diagonal flag: the row number `r` (plus the zero word), as a 32-bit word, is the column number `j`. -/
def eye (r j : Fin 2048) : BitVec 1 :=
  IntOp.cmpi .eq (IntOp.addi (BitVec.ofNat 32 r.val) 0#32) (BitVec.ofNat 32 j.val)

/-- Entry `k` of row `r`'s neighbour list is the sample id of column `j`. -/
def hit (r j : Fin 2048) (k : Fin 30) : BitVec 1 :=
  IntOp.cmpi .eq (knn (ix2 r k)) (sidx (ix1 j))

/-- Column `j`'s sample id is in row `r`'s neighbour list: the disjunction of the thirty entry tests, from the
    false bit. -/
def inSet (r j : Fin 2048) : BitVec 1 :=
  (Finset.univ : Finset (Fin 30)).fold IntOp.ori 0#1 (fun k => hit knn sidx r j k)

/-- Column `j` is a neighbour of row `r`: in the list and off the diagonal. -/
def mask (r j : Fin 2048) : BitVec 1 :=
  IntOp.andi (inSet knn sidx r j) (~~~(eye r j))

/-- The neighbour flag as a number, 0 or 1: the bit read as an unsigned integer. -/
def maskF (r j : Fin 2048) : EReal :=
  (((mask knn sidx r j).toNat : ℝ) : EReal)

/-- Row `r` has a neighbour: the disjunction over the columns of the neighbour flag, from the false bit. -/
def valid (r : Fin 2048) : BitVec 1 :=
  (Finset.univ : Finset (Fin 2048)).fold IntOp.ori 0#1 (fun j => mask knn sidx r j)

/-- The squared norm of point `r`: the sum of the squares of its features, added to zero. -/
def sq (r : Fin 2048) : EReal :=
  Ideal.ofBits .f32 0x00000000#32 + ∑ d : Fin 32, z (ix2 r d) * z (ix2 r d)

/-- The inner product of point `r` with point `j`. -/
def dot (r j : Fin 2048) : EReal := ∑ d : Fin 32, z (ix2 r d) * z (ix2 j d)

/-- The squared distance from point `r` to point `j`, cut off below at zero: the two squared norms minus twice the
    inner product. -/
def d2 (r j : Fin 2048) : EReal :=
  max (sq z r + sq z j - Ideal.ofBits .f32 0x40000000#32 * dot z r j) (Ideal.ofBits .f32 0x00000000#32)

/-- The similarity of row `r` to column `j`: minus infinity on the diagonal, else minus the distance (the square
    root taken of one on the diagonal), over one. -/
def sim (r j : Fin 2048) : EReal :=
  Scalar.select (eye r j) (Ideal.ofBits .f32 0xFF800000#32)
    (Ideal.div
      (-(Ideal.sqrt (Scalar.select (eye r j) (Ideal.ofBits .f32 0x3F800000#32) (d2 z r j))))
      (Ideal.ofBits .f32 0x3F800000#32))

/-- The largest similarity in row `r`, from minus infinity. -/
def mxFold (r : Fin 2048) : EReal :=
  (Finset.univ : Finset (Fin 2048)).fold max (Ideal.ofBits .f32 0xFF800000#32) (fun j => sim z r j)

/-- The largest similarity in row `r`, taken once more against minus infinity. -/
def mx (r : Fin 2048) : EReal :=
  max (Ideal.ofBits .f32 0xFF800000#32) (mxFold z r)

/-- The softmax weight of column `j` in row `r`, not yet normalised. -/
def pexp (r j : Fin 2048) : EReal := Ideal.exp (sim z r j - mx z r)

/-- The sum of row `r`'s weights, added to zero. -/
def den (r : Fin 2048) : EReal :=
  Ideal.ofBits .f32 0x00000000#32 + ∑ j : Fin 2048, pexp z r j

/-- The normalised softmax weight of column `j` in row `r`, kept where `j` is a neighbour of `r`. -/
def term (r j : Fin 2048) : EReal :=
  Ideal.div (pexp z r j) (den z r) * maskF knn sidx r j

/-- The share of row `r`'s neighbours: the sum of their normalised weights (one division per column), added to
    zero. -/
def s (r : Fin 2048) : EReal :=
  Ideal.ofBits .f32 0x00000000#32 + ∑ j : Fin 2048, term z knn sidx r j

/-- Row `r`'s loss: minus the logarithm of the share plus a small constant where the row has a neighbour, zero
    where it has none. -/
def loss (r : Fin 2048) : EReal :=
  Scalar.select (valid knn sidx r)
    (-(Ideal.log (s z knn sidx r + Ideal.ofBits .f32 0x322BCC77#32)))
    (Ideal.ofBits .f32 0x00000000#32)

/-- The sum of the rows' losses, added to zero. -/
def total : EReal :=
  Ideal.ofBits .f32 0x00000000#32 + ∑ r : Fin 2048, loss z knn sidx r

/-- The number of rows that have a neighbour, as a 32-bit word: the validity bits widened to words and added, from
    the zero word. -/
def count : BitVec 32 :=
  (Finset.univ : Finset (Fin 2048)).fold IntOp.addi 0#32 (fun r => (valid knn sidx r).setWidth 32)

/-- The count as a number: the word read as a signed integer. -/
def countF : EReal := (((count knn sidx).toInt : ℝ) : EReal)

/-- The result: the sum of the losses over the count where the count, as a signed word, is above zero; zero
    otherwise. -/
def result : EReal :=
  Scalar.select (IntOp.cmpi .sgt (count knn sidx) 0#32)
    (Ideal.div (total z knn sidx) (countF knn sidx))
    (Ideal.ofBits .f32 0x00000000#32)

end Cert.SpecR

end
-- ==== Proof.GlueI.lean ====
/-
  What the region's five input blocks hold, read off the arrays the region finds: at grid point `t` the block of
  points is rows `256 t … 256 t + 255` of the array of points, the second window is that array whole, the row of
  squared norms holds each point's squared norm, the block of neighbour lists is rows `256 t … 256 t + 255` of the
  gathered lists, and the row of sample ids is the array of sample ids.
-/
import proofs.«172015_j17892833755270_2_alg».proof.Proof.ArrI
import proofs.«172015_j17892833755270_2_alg».proof.Proof.SpecR
import proofs.«172015_j17892833755270_2_alg».proof.Proof.RefReadP
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Idealize.ShloMosaic.StableHlo
open scoped BigOperators

variable (m : (ℓ : Loc nD τ sig) → Buf (Elt Ideal) ℓ) (ρ : Dev nD → PrngReg)

/-- The printed index maps of the five input windows, decided over the grid: the blocks of points and of neighbour
    lists move down the rows with the point, the other three windows are their arrays whole. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- The global row that is row `p` of grid point `t`'s block. -/
def rowOf (t : Fin cfg0.N) (p : Fin 256) : Fin 2048 :=
  ⟨t.val * 256 + p.val, by have ht : t.val < 8 := t.isLt; have hp := p.isLt; omega⟩

/-- The block of points at grid point `t`: rows `256 t + p` of the array of points. -/
theorem blk0 (c : Dev nD) (t : Fin cfg0.N) (p : Fin 256) (d : Fin 32) :
    iblk (F := Ideal) m ρ c 0 t (ix2 p d) = m ((c : Thread nD τ).loc main_arg0) (ix2 (rowOf t p) d) := by
  obtain ⟨e0, e1, -⟩ := idx_in t
  show V m ρ c main_arg0 (((cfg0.win 0).blk t).view.emb (ix2 p d)) = _
  rw [V_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 32 + 1 * d.val = d.val; omega

/-- The second window: the array of points whole. -/
theorem blk1 (c : Dev nD) (t : Fin cfg0.N) (j : Fin 2048) (d : Fin 32) :
    iblk (F := Ideal) m ρ c 1 t (ix2 j d) = m ((c : Thread nD τ).loc main_arg0) (ix2 j d) := by
  obtain ⟨-, -, e0, e1, -⟩ := idx_in t
  show V m ρ c main_arg0 (((cfg0.win 1).blk t).view.emb (ix2 j d)) = _
  rw [V_arg0]
  refine congrArg _ (funext fun a => Fin.ext ?_)
  match a with
  | ⟨0, _⟩ => show win0_1.index t (0 : Fin 2) * 2048 + 1 * j.val = j.val; omega
  | ⟨1, _⟩ => show win0_1.index t (1 : Fin 2) * 32 + 1 * d.val = d.val; omega

/-! ## The arrays the host operations before the region write -/

/-- The row of squared norms as the region finds it: the host's row sums of the squared features, as a column,
    recast as a row. -/
theorem V_v11 (c : Dev nD) :
    (V m ρ c main_v11 : S1x2048.Idx → EReal)
      = shapeCast S1x2048 (broadcastInDim S2048x1 ![0] bcast_S2048_S2048x1_0
          (Cert.ReferenceIdeal.ReadP.val_main_v6 (F := Ideal) (m ((c : Thread nD τ).loc main_arg0)))) shapeCasts_S2048x1_S1x2048 := by
  show StableHlo.after hostOps0 (V₀ m ρ c) (Proc.devRef .tc main_v11) = _
  after_results
  rfl

/-- The gathered neighbour lists as the region finds them: the same gather the reference makes. -/
theorem V_v6 (c : Dev nD) :
    (V m ρ c main_v6 : S2048x30.Idx → BitVec 32)
      = Cert.ReferenceIdeal.ReadP.val_main_v42 (F := Ideal) (m ((c : Thread nD τ).loc main_arg1)) (m ((c : Thread nD τ).loc main_arg2)) := by
  show StableHlo.after hostOps0 (V₀ m ρ c) (Proc.devRef .tc main_v6) = _
  after_results
  rfl

/-- The row of sample ids as the region finds it: the array of sample ids recast as a row. -/
theorem V_v7 (c : Dev nD) :
    (V m ρ c main_v7 : S1x2048.Idx → BitVec 32)
      = shapeCast S1x2048 (m ((c : Thread nD τ).loc main_arg2)) shapeCasts_S2048_S1x2048 := by
  show StableHlo.after hostOps0 (V₀ m ρ c) (Proc.devRef .tc main_v7) = _
  after_results
  rfl

/-! ## The three blocks read off them -/

/-- The host's row sum of the squared features of point `j` is the specification's squared norm: zero plus the sum
    of the squares. -/
theorem sqHost_eq (z : S2048x32.Idx → EReal) (j : Fin 2048) :
    Cert.ReferenceIdeal.ReadP.val_main_v6 (F := Ideal) z (ix1 j) = Cert.SpecR.sq z j := by
  rw [Cert.ReferenceIdeal.ReadP.val_main_v6_apply, Cert.ReferenceIdeal.ReadP.val_main_cst_apply]
  have e : ∀ k : Fin 32, Cert.ReferenceIdeal.ReadP.idx_main_v6 (ix1 j) k = ix2 j k := fun k =>
    funext fun a => Fin.ext (by match a with | ⟨0, _⟩ => rfl | ⟨1, _⟩ => rfl)
  simp only [Cert.ReferenceIdeal.ReadP.val_main_v5_apply, e, Ideal.mulf_def, Ideal.ofBits_def]
  rfl

/-- The row of squared norms: entry `j` is the squared norm of point `j`. -/
theorem blk2 (c : Dev nD) (t : Fin cfg0.N) (j : Fin 2048) :
    iblk (F := Ideal) m ρ c 2 t (ix2 (0 : Fin 1) j) = Cert.SpecR.sq (m ((c : Thread nD τ).loc main_arg0)) j := by
  obtain ⟨-, -, -, -, e0, e1, -⟩ := idx_in t
  show (V m ρ c main_v11 : S1x2048.Idx → EReal) (((cfg0.win 2).blk t).view.emb (ix2 (0 : Fin 1) j)) = _
  have hi : ((cfg0.win 2).blk t).view.emb (ix2 (0 : Fin 1) j) = (ix2 (0 : Fin 1) j : S1x2048.Idx) := by
    funext a; apply Fin.ext
    match a with
    | ⟨0, _⟩ => show win0_2.index t (0 : Fin 2) * 1 + 1 * 0 = 0; omega
    | ⟨1, _⟩ => show win0_2.index t (1 : Fin 2) * 2048 + 1 * j.val = j.val; omega
  rw [hi, V_v11]
  rw [shapeCast_apply _ shapeCasts_S2048x1_S1x2048 (ix2 (0 : Fin 1) j) (ix2 j (0 : Fin 1))
    (by rw [Shape.rowMajor_val_two, Shape.rowMajor_val_two]; show j.val * 1 + 0 = 0 * 2048 + j.val; omega)]
  rw [broadcastInDim_apply _ bcast_S2048_S2048x1_0 _ (ix2 j (0 : Fin 1)) (ix1 j) (fun a => match a with
    | ⟨0, _⟩ => by show j.val = if (2048 : Nat) = 1 then 0 else j.val; rw [if_neg (by decide)])]
  exact sqHost_eq _ j

/-- The block of neighbour lists at grid point `t`: rows `256 t + p` of the gathered lists. -/
theorem blk3 (c : Dev nD) (t : Fin cfg0.N) (p : Fin 256) (k : Fin 30) :
    iblk (F := Ideal) m ρ c 3 t (ix2 p k)
      = Cert.ReferenceIdeal.ReadP.val_main_v42 (F := Ideal) (m ((c : Thread nD τ).loc main_arg1)) (m ((c : Thread nD τ).loc main_arg2)) (ix2 (rowOf t p) k) := by
  obtain ⟨-, -, -, -, -, -, e0, e1, -⟩ := idx_in t
  show (V m ρ c main_v6 : S2048x30.Idx → BitVec 32) (((cfg0.win 3).blk t).view.emb (ix2 p k)) = _
  rw [V_v6]
  refine congrArg _ (funext fun a => Fin.ext ?_)
  match a with
  | ⟨0, _⟩ => show win0_3.index t (0 : Fin 2) * 256 + 1 * p.val = t.val * 256 + p.val; omega
  | ⟨1, _⟩ => show win0_3.index t (1 : Fin 2) * 30 + 1 * k.val = k.val; omega

/-- The row of sample ids: entry `j` is sample id `j`. -/
theorem blk4 (c : Dev nD) (t : Fin cfg0.N) (j : Fin 2048) :
    iblk (F := Ideal) m ρ c 4 t (ix2 (0 : Fin 1) j) = m ((c : Thread nD τ).loc main_arg2) (ix1 j) := by
  obtain ⟨-, -, -, -, -, -, -, -, e0, e1⟩ := idx_in t
  show (V m ρ c main_v7 : S1x2048.Idx → BitVec 32) (((cfg0.win 4).blk t).view.emb (ix2 (0 : Fin 1) j)) = _
  have hi : ((cfg0.win 4).blk t).view.emb (ix2 (0 : Fin 1) j) = (ix2 (0 : Fin 1) j : S1x2048.Idx) := by
    funext a; apply Fin.ext
    match a with
    | ⟨0, _⟩ => show win0_4.index t (0 : Fin 2) * 1 + 1 * 0 = 0; omega
    | ⟨1, _⟩ => show win0_4.index t (1 : Fin 2) * 2048 + 1 * j.val = j.val; omega
  rw [hi, V_v7]
  exact shapeCast_apply _ shapeCasts_S2048_S1x2048 (ix2 (0 : Fin 1) j) (ix1 j)
    (by rw [Shape.rowMajor_val_one, Shape.rowMajor_val_two]; show j.val = 0 * 2048 + j.val; omega)

end Cert.KernelIdeal.Hand

end
-- ==== Proof.TailI.lean ====
/-
  The host operations after the region, read at the ideal values: the result is the sum of the loss column over
  the sum of the validity column where that sum is positive, and zero otherwise — each sum taken over every entry
  of its column, from the zero it starts at.
-/
import proofs.«172015_j17892833755270_2_alg».proof.Proof.ValI
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx
open scoped BigOperators

/-- The host's quotient at an index is the quotient of the entries. -/
theorem hostDivf_apply {s : Shape} {φ : FTy} (a b : FVec Ideal s φ) (i : s.Idx) :
    Host.divf a b i = Ideal.div (a i) (b i) := rfl

/-- The host's sum of a whole column into a scalar, from the zero constant: zero plus the sum over every entry. -/
theorem colSum_apply (x : FVec Ideal S2048x1 .f32) (h : S2048x1.ReducesTo [0, 1] S_) (hu : 0 < S_.numel) (i : S_.Idx) :
    Host.reduceAdd x (constant (F := Ideal) S_ .f32 0x00000000#32) h hu i
      = Ideal.ofBits .f32 0x00000000#32 + ∑ y : S2048x1.Idx, x y := by
  unfold Host.reduceAdd
  rw [Ideal.hostReduceAdd_def, constant_apply]
  exact Ideal.hostReduceAdd_total h (fun b => b.elim0) x _ i

/-- THE RESULT of the two columns: the losses' sum over the flags' sum where the flags' sum is positive, else zero. -/
theorem tail_apply (l v : FVec Ideal S2048x1 .f32) (i : S_.Idx) :
    tail (F := Ideal) l v i
      = Scalar.select (Ideal.cmp .ogt (Ideal.ofBits .f32 0x00000000#32 + ∑ y : S2048x1.Idx, v y) (Ideal.ofBits .f32 0x00000000#32))
          (Ideal.div (Ideal.ofBits .f32 0x00000000#32 + ∑ y : S2048x1.Idx, l y) (Ideal.ofBits .f32 0x00000000#32 + ∑ y : S2048x1.Idx, v y))
          (Ideal.ofBits .f32 0x00000000#32) := by
  unfold tail
  simp only [select_apply, cmpf_apply, hostDivf_apply, colSum_apply, constant_apply, Ideal.cmpf_def]

end Cert.KernelIdeal.Hand

end
-- ==== Proof.LibBitCount.lean ====
/-
  GENERAL. Facts about single bits and about counting them: a one-bit disjunction over a finite family is the bit of an
  existential; a sum of 2048 bits, taken in 32-bit words, is their count (no wrap-around is possible).
-/
import Idealize.ShloMosaic.PureOps.Ideal
import Idealize.ShloMosaic.PureOps.Ideal.Laws
import Idealize.ShloMosaic.PureOps.Reduce

namespace Cert.Law

open Idealize.ShloMosaic

/-! ## One bit -/

theorem bit_cases (b : BitVec 1) : b = 0#1 ∨ b = 1#1 := BitVec.eq_zero_or_eq_one b

/-- Two bits are equal when one is set exactly if the other is. -/
theorem bit_ext {a b : BitVec 1} (h : a = 1#1 ↔ b = 1#1) : a = b := by
  rcases bit_cases a with rfl | rfl <;> rcases bit_cases b with rfl | rfl
  · rfl
  · exact absurd (h.2 rfl) (by decide)
  · exact absurd (h.1 rfl) (by decide)
  · rfl

theorem ori_eq_one (a b : BitVec 1) : IntOp.ori a b = 1#1 ↔ a = 1#1 ∨ b = 1#1 := by
  rcases bit_cases a with rfl | rfl <;> rcases bit_cases b with rfl | rfl <;> decide
theorem andi_eq_one (a b : BitVec 1) : IntOp.andi a b = 1#1 ↔ a = 1#1 ∧ b = 1#1 := by
  rcases bit_cases a with rfl | rfl <;> rcases bit_cases b with rfl | rfl <;> decide
theorem not_eq_one (a : BitVec 1) : ~~~a = 1#1 ↔ ¬ a = 1#1 := by
  rcases bit_cases a with rfl | rfl <;> decide
theorem xori_one (a : BitVec 1) : IntOp.xori a 1#1 = ~~~a := by
  rcases bit_cases a with rfl | rfl <;> decide
theorem ofBool_eq_one (p : Bool) : BitVec.ofBool p = 1#1 ↔ p = true := by cases p <;> decide
theorem zero_ne_one : ¬ (0#1 : BitVec 1) = 1#1 := by decide

/-- A bit read as an integer through a 32-bit word, signed, is the bit read as a natural number. -/
theorem bit_toInt (b : BitVec 1) : ((b.setWidth 32).toInt : ℤ) = (b.toNat : ℤ) := by
  rcases bit_cases b with rfl | rfl <;> decide
theorem bit_toNat_le (b : BitVec 1) : b.toNat ≤ 1 := by
  rcases bit_cases b with rfl | rfl <;> decide
theorem bit_toNat_eq_one (b : BitVec 1) : b.toNat = 1 ↔ b = 1#1 := by
  rcases bit_cases b with rfl | rfl <;> decide
theorem bit_setWidth_toNat (b : BitVec 1) : (b.setWidth 32).toNat = b.toNat := by
  rcases bit_cases b with rfl | rfl <;> decide

/-! ## A disjunction over a finite family -/

/-- The bitwise or of a family of bits, from zero, is set iff some member is. -/
theorem fold_ori_eq_one {ι : Type} [DecidableEq ι] (s : Finset ι) (f : ι → BitVec 1) :
    s.fold IntOp.ori 0#1 f = 1#1 ↔ ∃ k ∈ s, f k = 1#1 := by
  induction s using Finset.induction_on with
  | empty => simp [zero_ne_one]
  | insert a s ha ih =>
    rw [Finset.fold_insert ha, ori_eq_one, ih]
    constructor
    · rintro (h | ⟨k, hk, h⟩)
      · exact ⟨a, Finset.mem_insert_self _ _, h⟩
      · exact ⟨k, Finset.mem_insert_of_mem hk, h⟩
    · rintro ⟨k, hk, h⟩
      rcases Finset.mem_insert.mp hk with rfl | hk
      · exact Or.inl h
      · exact Or.inr ⟨k, hk, h⟩

theorem fold_ori_univ_eq_one {ι : Type} [Fintype ι] [DecidableEq ι] (f : ι → BitVec 1) :
    (Finset.univ : Finset ι).fold IntOp.ori 0#1 f = 1#1 ↔ ∃ k, f k = 1#1 := by
  rw [fold_ori_eq_one]; simp

/-! ## Counting bits in 32-bit words -/

/-- The 32-bit sum of a family of words is the sum of their values modulo 2³². -/
theorem fold_addi_toNat {ι : Type} [DecidableEq ι] (s : Finset ι) (f : ι → BitVec 32) :
    (s.fold IntOp.addi 0#32 f).toNat = (∑ k ∈ s, (f k).toNat) % 2 ^ 32 := by
  induction s using Finset.induction_on with
  | empty => simp
  | insert a s ha ih =>
    rw [Finset.fold_insert ha, Finset.sum_insert ha]
    show (f a + s.fold IntOp.addi 0#32 f).toNat = _
    rw [BitVec.toNat_add, ih]
    omega

/-- So the 32-bit sum of 2048 bits is their count, as a natural number and as a signed integer. -/
theorem count_toNat (v : Fin 2048 → BitVec 1) :
    ((Finset.univ : Finset (Fin 2048)).fold IntOp.addi 0#32 (fun r => (v r).setWidth 32)).toNat = ∑ r : Fin 2048, (v r).toNat := by
  rw [fold_addi_toNat]
  have hle : ∑ r : Fin 2048, ((v r).setWidth 32).toNat ≤ 2048 := by
    calc ∑ r : Fin 2048, ((v r).setWidth 32).toNat ≤ ∑ _r : Fin 2048, 1 := Finset.sum_le_sum fun r _ => by rw [bit_setWidth_toNat]; exact bit_toNat_le _
      _ = 2048 := by simp
  rw [Nat.mod_eq_of_lt (by omega)]
  exact Finset.sum_congr rfl fun r _ => bit_setWidth_toNat _

theorem count_le (v : Fin 2048 → BitVec 1) : ∑ r : Fin 2048, (v r).toNat ≤ 2048 := by
  calc ∑ r : Fin 2048, (v r).toNat ≤ ∑ _r : Fin 2048, 1 := Finset.sum_le_sum fun r _ => bit_toNat_le _
    _ = 2048 := by simp

theorem count_toInt (v : Fin 2048 → BitVec 1) :
    (((Finset.univ : Finset (Fin 2048)).fold IntOp.addi 0#32 (fun r => (v r).setWidth 32)).toInt : ℤ) = ((∑ r : Fin 2048, (v r).toNat : ℕ) : ℤ) := by
  have h := count_toNat v
  have hle := count_le v
  rw [BitVec.toInt_eq_toNat_of_lt (by rw [h]; omega), h]

end Cert.Law
-- ==== Proof.LibRealSums.lean ====
/-
  GENERAL. Facts about sums and quotients of extended reals that are in fact real: a finite sum of reals is the real sum; a
  quotient by a nonzero real is a product; and the law the two programs differ by — dividing a weighted sum by a
  nonzero real is weighting the quotients.  Also the values of the five float literals the programs name.
-/
import Idealize.ShloMosaic.PureOps.Ideal
import Idealize.ShloMosaic.PureOps.Ideal.Laws

namespace Cert.Law

open Idealize.ShloMosaic

/-! ## The literals -/

theorem lit_zero : Ideal.ofBits .f32 0x00000000#32 = 0 := Ideal.ofBits_zero_f32
theorem lit_one : Ideal.ofBits .f32 0x3F800000#32 = ((1 : ℝ) : EReal) := by
  simp [Ideal.ofBits, Ideal.ieee]
  first
    | (norm_cast; norm_num)
    | (rw [← EReal.coe_mul]; norm_num)
    | (show ((8388608 : ℝ) : EReal) * (((2 : ℝ) ^ 23)⁻¹ : ℝ) = _; rw [← EReal.coe_mul]; norm_num)
theorem lit_two : Ideal.ofBits .f32 0x40000000#32 = ((2 : ℝ) : EReal) := by
  simp [Ideal.ofBits, Ideal.ieee]
  first
    | (norm_cast; norm_num)
    | (rw [← EReal.coe_mul]; norm_num)
    | (show ((8388608 : ℝ) : EReal) * (((2 : ℝ) ^ 22)⁻¹ : ℝ) = _; rw [← EReal.coe_mul]; norm_num)
theorem lit_neg_inf : Ideal.ofBits .f32 0xFF800000#32 = ⊥ := by simp [Ideal.ofBits, Ideal.ieee]

/-! ## Sums of reals -/

/-- A finite sum of reals, taken among the extended reals, is the real sum. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A quotient by the literal one is the dividend. -/
theorem div_one (x : EReal) : Ideal.div x (Ideal.ofBits .f32 0x3F800000#32) = x := by
  rw [lit_one, Ideal.div_coe one_ne_zero]; simp

/-- THE LAW: for real weights `p`, real factors `m` and a nonzero total, the weighted sum over the total is the sum
    of the quotients, each weighted. -/
theorem div_sum_mul {n : Nat} (p m : Fin n → EReal) (p' m' : Fin n → ℝ) (hp : ∀ j, p j = (p' j : EReal)) (hm : ∀ j, m j = (m' j : EReal))
    (hd : (∑ j, p' j) ≠ 0) :
    Ideal.div (∑ j, p j * m j) (∑ j, p j) = ∑ j, Ideal.div (p j) (∑ j, p j) * m j := by
  have hD : (∑ j, p j) = ((∑ j, p' j : ℝ) : EReal) := by rw [coe_sum]; exact Finset.sum_congr rfl fun j _ => hp j
  rw [hD, Ideal.div_coe hd]
  simp only [Ideal.div_coe hd, hp, hm, ← EReal.coe_mul]
  rw [← coe_sum, ← coe_sum, ← EReal.coe_mul]
  congr 1
  rw [Finset.sum_mul]
  exact Finset.sum_congr rfl fun j _ => by ring

end Cert.Law
-- ==== Proof.Bridge.lean ====
/-
  The two readings joined, row by row. Grid point `t`, local row `p` of the kernel is global row `r = 256 t + p`
  of the reference; the kernel's blocks are the reference's arrays read at that row (`h0 … h4`). The integer
  quantities agree outright: the diagonal flag (no wrap-around below 2³²), the thirty membership tests joined one
  after the other or all at once, the mask, and the validity flag — the kernel asks whether the largest of the
  flags (as 0/1 floats, from minus infinity) is positive, the reference whether some flag is set.
-/
import proofs.«172015_j17892833755270_2_alg».proof.Proof.SpecK
import proofs.«172015_j17892833755270_2_alg».proof.Proof.SpecR
import proofs.«172015_j17892833755270_2_alg».proof.Proof.LibBitCount
import proofs.«172015_j17892833755270_2_alg».proof.Proof.LibRealSums

noncomputable section

namespace Cert.Bridge

open Idealize.ShloMosaic Idealize.ShloMosaic.ValueIdx Cert.Law
open scoped BigOperators

variable (z : (⟨2, ![2048, 32]⟩ : Shape).Idx → EReal) (knn : (⟨2, ![2048, 30]⟩ : Shape).Idx → BitVec 32)
  (sidx : (⟨1, ![2048]⟩ : Shape).Idx → BitVec 32)
variable (t : Fin 8) (p : Fin 256) (r : Fin 2048) (hr : r.val = t.val * 256 + p.val)
variable (x0 : (⟨2, ![256, 32]⟩ : Shape).Idx → EReal) (x1 : (⟨2, ![2048, 32]⟩ : Shape).Idx → EReal)
  (x2 : (⟨2, ![1, 2048]⟩ : Shape).Idx → EReal) (x3 : (⟨2, ![256, 30]⟩ : Shape).Idx → BitVec 32)
  (x4 : (⟨2, ![1, 2048]⟩ : Shape).Idx → BitVec 32)

/-! ## The integer side -/

include hr in
/-- The diagonal flag: `256 t + p` computed in 32-bit words is the word of `r`. -/
theorem eye_eq (j : Fin 2048) : SpecK.eye t p j = SpecR.eye r j := by
  unfold SpecK.eye SpecR.eye
  have ht : t.val < 8 := t.isLt
  have hp : p.val < 256 := p.isLt
  have e : IntOp.addi (IntOp.muli (BitVec.ofNat 32 t.val) 256#32) (BitVec.ofNat 32 p.val) = IntOp.addi (BitVec.ofNat 32 r.val) 0#32 := by
    show BitVec.ofNat 32 t.val * BitVec.ofNat 32 256 + BitVec.ofNat 32 p.val = BitVec.ofNat 32 r.val + 0#32
    rw [← BitVec.ofNat_mul, ← BitVec.ofNat_add, BitVec.add_zero, hr]
  rw [e]

/-- The flag is set exactly on the diagonal. -/
theorem eye_one_iff (j : Fin 2048) : SpecR.eye r j = 1#1 ↔ r = j := by
  unfold SpecR.eye
  have hr' : r.val < 2048 := r.isLt
  have hj : j.val < 2048 := j.isLt
  show BitVec.ofBool (BitVec.ofNat 32 r.val + 0#32 == BitVec.ofNat 32 j.val) = 1#1 ↔ _
  rw [ofBool_eq_one, beq_iff_eq, BitVec.add_zero]
  constructor
  · intro h
    have := congrArg BitVec.toNat h
    rw [BitVec.toNat_ofNat, BitVec.toNat_ofNat] at this
    exact Fin.ext (by omega)
  · rintro rfl; rfl

variable (h3 : ∀ k, x3 (ix2 p k) = knn (ix2 r k)) (h4 : ∀ j, x4 (ix2 (0 : Fin 1) j) = sidx (ix1 j))

include h3 h4 in
theorem hit_eq (j : Fin 2048) (k : Fin 30) : SpecK.hit x3 x4 p j k = SpecR.hit knn sidx r j k := by
  unfold SpecK.hit SpecR.hit; rw [h3, h4]

/-- A disjunction of bits taken one after the other from the false bit is set iff some member is. -/
theorem foldl_ori_eq_one : ∀ (l : List (BitVec 1)) (b : BitVec 1), l.foldl IntOp.ori b = 1#1 ↔ b = 1#1 ∨ ∃ c ∈ l, c = 1#1
  | [], b => by simp
  | c :: l, b => by
    rw [List.foldl_cons, foldl_ori_eq_one l, ori_eq_one]
    constructor
    · rintro ((h | h) | ⟨d, hd, h⟩)
      · exact Or.inl h
      · exact Or.inr ⟨c, List.mem_cons_self .., h⟩
      · exact Or.inr ⟨d, List.mem_cons_of_mem _ hd, h⟩
    · rintro (h | ⟨d, hd, h⟩)
      · exact Or.inl (Or.inl h)
      · rcases List.mem_cons.mp hd with rfl | hd
        · exact Or.inl (Or.inr h)
        · exact Or.inr ⟨d, hd, h⟩

/-- The kernel's thirty tests joined in order are the list of them folded. -/
theorem inSetK_eq_foldl (j : Fin 2048) :
    SpecK.inSet x3 x4 p j = (List.ofFn fun k : Fin 30 => SpecK.hit x3 x4 p j k).foldl IntOp.ori 0#1 := rfl

include h3 h4 in
theorem inSet_eq (j : Fin 2048) : SpecK.inSet x3 x4 p j = SpecR.inSet knn sidx r j := by
  apply bit_ext
  rw [inSetK_eq_foldl, foldl_ori_eq_one]
  unfold SpecR.inSet
  rw [fold_ori_univ_eq_one]
  simp only [zero_ne_one, false_or, List.mem_ofFn]
  constructor
  · rintro ⟨c, ⟨k, rfl⟩, h⟩; exact ⟨k, by rw [← hit_eq knn sidx p r x3 x4 h3 h4]; exact h⟩
  · rintro ⟨k, h⟩; exact ⟨_, ⟨k, rfl⟩, by rw [hit_eq knn sidx p r x3 x4 h3 h4]; exact h⟩

include hr h3 h4 in
theorem mask_eq (j : Fin 2048) : SpecK.mask t x3 x4 p j = SpecR.mask knn sidx r j := by
  unfold SpecK.mask SpecR.mask
  rw [inSet_eq knn sidx p r x3 x4 h3 h4, eye_eq t p r hr, xori_one]

include hr h3 h4 in
theorem maskF_eq (j : Fin 2048) : SpecK.maskF t x3 x4 p j = SpecR.maskF knn sidx r j := by
  unfold SpecK.maskF SpecR.maskF
  rw [mask_eq knn sidx t p r hr x3 x4 h3 h4]
  have h := bit_toInt (SpecR.mask knn sidx r j)
  exact congrArg (fun q : ℝ => (q : EReal)) (by exact_mod_cast h)

/-! ## The validity flag -/

include hr h3 h4 in
/-- The largest of the 0/1 flags, from minus infinity, is positive iff some flag is set. -/
theorem valid_eq : SpecK.valid t x3 x4 p = SpecR.valid knn sidx r := by
  apply bit_ext
  unfold SpecK.valid SpecR.valid
  rw [fold_ori_univ_eq_one]
  show BitVec.ofBool (decide (Ideal.ofBits .f32 0x00000000#32 < _)) = 1#1 ↔ _
  rw [ofBool_eq_one, decide_eq_true_iff, Finset.lt_fold_max, lit_zero, lit_neg_inf, lit_one]
  simp only [not_lt_bot, false_or, Finset.mem_univ, true_and]
  refine exists_congr fun j => ?_
  rw [mask_eq knn sidx t p r hr x3 x4 h3 h4]
  unfold Scalar.select
  split
  · rename_i h; simp [h]
  · rename_i h; simp [h]; exact h

include hr h3 h4 in
theorem validF_eq : SpecK.validF t x3 x4 p = (((SpecR.valid knn sidx r).toNat : ℝ) : EReal) := by
  unfold SpecK.validF
  rw [valid_eq knn sidx t p r hr x3 x4 h3 h4]
  have h := bit_toInt (SpecR.valid knn sidx r)
  exact congrArg (fun q : ℝ => (q : EReal)) (by exact_mod_cast h)

/-! ## The float side, as far as it agrees outright -/

variable (h0 : ∀ d, x0 (ix2 p d) = z (ix2 r d)) (h1 : ∀ j d, x1 (ix2 j d) = z (ix2 j d))
  (h2 : ∀ j, x2 (ix2 (0 : Fin 1) j) = SpecR.sq z j)

include h0 in
theorem sq_eq : SpecK.sq x0 p = SpecR.sq z r := by
  unfold SpecK.sq SpecR.sq
  simp only [h0]
  rw [lit_zero, zero_add]

include h0 h1 in
theorem dot_eq (j : Fin 2048) : SpecK.dot x0 x1 p j = SpecR.dot z r j := by
  unfold SpecK.dot SpecR.dot
  simp only [h0, h1]

include h0 h1 h2 in
theorem d2_eq (j : Fin 2048) : SpecK.d2 x0 x1 x2 p j = SpecR.d2 z r j := by
  unfold SpecK.d2 SpecR.d2
  rw [sq_eq z p r x0 h0, h2, dot_eq z p r x0 x1 h0 h1]

include hr h0 h1 h2 in
/-- Zero minus the distance is the distance negated. -/
theorem sim_eq (j : Fin 2048) : SpecK.sim t x0 x1 x2 p j = SpecR.sim z r j := by
  unfold SpecK.sim SpecR.sim
  rw [eye_eq t p r hr, d2_eq z p r x0 x1 x2 h0 h1 h2, lit_zero, sub_eq_add_neg, zero_add]

include hr h0 h1 h2 in
/-- The maximum from minus infinity needs no second comparison with minus infinity. -/
theorem mx_eq : SpecK.mx t x0 x1 x2 p = SpecR.mx z r := by
  unfold SpecK.mx SpecR.mx SpecR.mxFold
  simp only [sim_eq z t p r hr x0 x1 x2 h0 h1 h2]
  rw [lit_neg_inf, max_eq_right bot_le]

include hr h0 h1 h2 in
theorem pexp_eq (j : Fin 2048) : SpecK.pexp t x0 x1 x2 p j = SpecR.pexp z r j := by
  unfold SpecK.pexp SpecR.pexp
  rw [sim_eq z t p r hr x0 x1 x2 h0 h1 h2, mx_eq z t p r hr x0 x1 x2 h0 h1 h2]

include hr h0 h1 h2 in
theorem den_eq : SpecK.den t x0 x1 x2 p = SpecR.den z r := by
  unfold SpecK.den SpecR.den
  simp only [pexp_eq z t p r hr x0 x1 x2 h0 h1 h2]
  rw [lit_zero, zero_add]

/-! ## Finite inputs: every quantity of a row is a real number

From here on every entry of `z` is real. Then the squared norms, the inner products and the squared distances are
real, the similarities are real off the diagonal and minus infinity on it, the row's maximum is real (there is a
column off the diagonal), the weights are real, nonnegative, and positive off the diagonal, and their sum is a
positive real: the one division by it distributes over the masked sum. -/

section Real

variable (z' : (⟨2, ![2048, 32]⟩ : Shape).Idx → ℝ) (hz : ∀ i, z i = (z' i : EReal))

/-- The real squared norm, inner product and squared distance. -/
def sqR (r : Fin 2048) : ℝ := ∑ d : Fin 32, z' (ix2 r d) * z' (ix2 r d)
def dotR (r j : Fin 2048) : ℝ := ∑ d : Fin 32, z' (ix2 r d) * z' (ix2 j d)
def d2R (r j : Fin 2048) : ℝ := max (sqR z' r + sqR z' j - 2 * dotR z' r j) 0

include hz in
theorem sq_real (r : Fin 2048) : SpecR.sq z r = (sqR z' r : EReal) := by
  unfold SpecR.sq sqR
  rw [lit_zero, zero_add, coe_sum]
  exact Finset.sum_congr rfl fun d _ => by rw [hz, EReal.coe_mul]

include hz in
theorem dot_real (r j : Fin 2048) : SpecR.dot z r j = (dotR z' r j : EReal) := by
  unfold SpecR.dot dotR
  rw [coe_sum]
  exact Finset.sum_congr rfl fun d _ => by rw [hz, hz, EReal.coe_mul]

include hz in
theorem d2_real (r j : Fin 2048) : SpecR.d2 z r j = (d2R z' r j : EReal) := by
  unfold SpecR.d2 d2R
  rw [sq_real z z' hz, sq_real z z' hz, dot_real z z' hz, lit_two, lit_zero, ← EReal.coe_mul, ← EReal.coe_add, ← EReal.coe_sub,
    ← EReal.coe_zero, EReal.coe_strictMono.monotone.map_max]

theorem d2R_nonneg (r j : Fin 2048) : 0 ≤ d2R z' r j := le_max_right _ _

include hz in
/-- Off the diagonal the similarity is minus the distance, a real; -/
theorem sim_off (r j : Fin 2048) (h : r ≠ j) : SpecR.sim z r j = ((-(Real.sqrt (d2R z' r j)) : ℝ) : EReal) := by
  have he : ¬ SpecR.eye r j = (1 : BitVec 1) := fun h' => h ((eye_one_iff r j).mp h')
  unfold SpecR.sim Scalar.select
  rw [if_neg he, if_neg he, d2_real z z' hz, div_one, Ideal.sqrt_coe, if_neg (not_lt.mpr (d2R_nonneg z' r j)), ← EReal.coe_neg]

/-- on it minus infinity. -/
theorem sim_diag (r : Fin 2048) : SpecR.sim z r r = ⊥ := by
  have he : SpecR.eye r r = (1 : BitVec 1) := (eye_one_iff r r).mpr rfl
  unfold SpecR.sim Scalar.select
  rw [if_pos he, lit_neg_inf]

/-- A column off the diagonal of row `r`. -/
def other (r : Fin 2048) : Fin 2048 := if r.val = 0 then 1 else 0
theorem other_ne (r : Fin 2048) : r ≠ other r := by
  unfold other
  split
  · rename_i h; intro e; have := congrArg Fin.val e; rw [h] at this; exact absurd this (by decide)
  · rename_i h; intro e; exact h (congrArg Fin.val e)

include hz in
theorem sim_lt_top (r j : Fin 2048) : SpecR.sim z r j < ⊤ := by
  by_cases h : r = j
  · subst h; rw [sim_diag]; exact bot_lt_top
  · rw [sim_off z z' hz r j h]; exact EReal.coe_lt_top _

include hz in
/-- The row's maximum is a real number. -/
theorem mx_real (r : Fin 2048) : ∃ μ : ℝ, SpecR.mx z r = (μ : EReal) := by
  have hfold : SpecR.mx z r = SpecR.mxFold z r := by
    unfold SpecR.mx; rw [lit_neg_inf, max_eq_right bot_le]
  have htop : SpecR.mxFold z r ≠ ⊤ := by
    apply ne_of_lt
    unfold SpecR.mxFold
    rw [Finset.fold_max_lt, lit_neg_inf]
    exact ⟨bot_lt_top, fun j _ => sim_lt_top z z' hz r j⟩
  have hbot : SpecR.mxFold z r ≠ ⊥ := by
    have hle : SpecR.sim z r (other r) ≤ SpecR.mxFold z r := by
      unfold SpecR.mxFold
      rw [Finset.le_fold_max]
      exact Or.inr ⟨other r, Finset.mem_univ _, le_rfl⟩
    rw [sim_off z z' hz r _ (other_ne r)] at hle
    exact ne_of_gt (lt_of_lt_of_le (EReal.bot_lt_coe _) hle)
  exact ⟨(SpecR.mxFold z r).toReal, by rw [hfold, EReal.coe_toReal htop hbot]⟩

/-- The real weight of column `j` in row `r`, given the row's maximum. -/
def pR (μ : ℝ) (r j : Fin 2048) : ℝ := if r = j then 0 else Real.exp (-(Real.sqrt (d2R z' r j)) - μ)

include hz in
theorem pexp_real (r : Fin 2048) (μ : ℝ) (hμ : SpecR.mx z r = (μ : EReal)) (j : Fin 2048) :
    SpecR.pexp z r j = (pR z' μ r j : EReal) := by
  unfold SpecR.pexp pR
  rw [hμ]
  by_cases h : r = j
  · subst h
    rw [sim_diag, if_pos rfl, sub_eq_add_neg, EReal.bot_add, Ideal.exp_bot, EReal.coe_zero]
  · rw [sim_off z z' hz r j h, if_neg h, ← EReal.coe_sub, Ideal.exp_coe]

theorem pR_nonneg (μ : ℝ) (r j : Fin 2048) : 0 ≤ pR z' μ r j := by
  unfold pR; split
  · exact le_rfl
  · exact (Real.exp_pos _).le

theorem sum_pR_pos (μ : ℝ) (r : Fin 2048) : 0 < ∑ j, pR z' μ r j := by
  have h1 : 0 < pR z' μ r (other r) := by
    unfold pR; rw [if_neg (other_ne r)]; exact Real.exp_pos _
  exact lt_of_lt_of_le h1 (Finset.single_le_sum (fun j _ => pR_nonneg z' μ r j) (Finset.mem_univ _))

include hz in
/-- THE ROW'S SHARE: the reference's sum of quotients is the kernel's one quotient of sums. -/
theorem s_law (r : Fin 2048) :
    Ideal.div (∑ j : Fin 2048, SpecR.pexp z r j * SpecR.maskF knn sidx r j) (SpecR.den z r) = SpecR.s z knn sidx r := by
  obtain ⟨μ, hμ⟩ := mx_real z z' hz r
  unfold SpecR.s SpecR.term SpecR.den
  rw [lit_zero, zero_add, zero_add]
  exact div_sum_mul (fun j => SpecR.pexp z r j) (fun j => SpecR.maskF knn sidx r j) (fun j => pR z' μ r j)
    (fun j => ((SpecR.mask knn sidx r j).toNat : ℝ)) (fun j => pexp_real z z' hz r μ hμ j) (fun j => rfl) (ne_of_gt (sum_pR_pos z' μ r))

end Real

/-! ## The row's loss -/

section Loss

variable (z' : (⟨2, ![2048, 32]⟩ : Shape).Idx → ℝ) (hz : ∀ i, z i = (z' i : EReal))

include hr h0 h1 h2 h3 h4 hz in
theorem s_eq : SpecK.s t x0 x1 x2 x3 x4 p = SpecR.s z knn sidx r := by
  unfold SpecK.s SpecK.num
  simp only [pexp_eq z t p r hr x0 x1 x2 h0 h1 h2, maskF_eq knn sidx t p r hr x3 x4 h3 h4]
  rw [den_eq z t p r hr x0 x1 x2 h0 h1 h2]
  exact s_law z knn sidx z' hz r

include hr h0 h1 h2 h3 h4 hz in
theorem loss_eq : SpecK.loss t x0 x1 x2 x3 x4 p = SpecR.loss z knn sidx r := by
  unfold SpecK.loss SpecR.loss
  rw [valid_eq knn sidx t p r hr x3 x4 h3 h4, s_eq z knn sidx t p r hr x0 x1 x2 x3 x4 h3 h4 h0 h1 h2 z' hz, lit_zero, sub_eq_add_neg, zero_add]

end Loss

end Cert.Bridge

end
-- ==== Proof.Join.lean ====
/-
  The whole result joined: the mean of the losses over the valid rows. The kernel's host sums the two columns as
  floats — the losses, and the 0/1 validity flags — and divides where the count is positive as a float; the
  reference counts the valid rows in 32-bit integers, compares the integer with zero and converts it. The count
  of 2048 bits fits a signed 32-bit integer, so the two counts are one number and the two tests one test.
-/
import proofs.«172015_j17892833755270_2_alg».proof.Proof.Bridge

noncomputable section

namespace Cert.Join

open Idealize.ShloMosaic Idealize.ShloMosaic.ValueIdx Cert.Law
open scoped BigOperators

/-- A column of 2048 entries is indexed by its row. -/
def colEquiv : Fin 2048 ≃ (⟨2, ![2048, 1]⟩ : Shape).Idx where
  toFun r := ix2 r (0 : Fin 1)
  invFun y := y 0
  left_inv r := rfl
  right_inv y := by
    funext a
    match a with
    | ⟨0, _⟩ => rfl
    | ⟨1, _⟩ => exact Subsingleton.elim (α := Fin 1) _ _

theorem sum_col (f : (⟨2, ![2048, 1]⟩ : Shape).Idx → EReal) : ∑ y, f y = ∑ r : Fin 2048, f (ix2 r (0 : Fin 1)) :=
  (Equiv.sum_comp colEquiv f).symm

variable (z : (⟨2, ![2048, 32]⟩ : Shape).Idx → EReal) (knn : (⟨2, ![2048, 30]⟩ : Shape).Idx → BitVec 32)
  (sidx : (⟨1, ![2048]⟩ : Shape).Idx → BitVec 32)

/-- The number of valid rows. -/
def nValid : ℕ := ∑ r : Fin 2048, (SpecR.valid knn sidx r).toNat

/-- The reference's converted integer count is that number, -/
theorem countF_eq : SpecR.countF knn sidx = ((nValid knn sidx : ℝ) : EReal) := by
  unfold SpecR.countF SpecR.count nValid
  rw [count_toInt]
  norm_cast

/-- its integer test asks whether that number is positive, -/
theorem count_pos_iff : IntOp.cmpi .sgt (SpecR.count knn sidx) 0#32 = 1#1 ↔ 0 < nValid knn sidx := by
  show BitVec.ofBool ((0#32).slt (SpecR.count knn sidx)) = 1#1 ↔ _
  rw [ofBool_eq_one, BitVec.slt, decide_eq_true_iff]
  unfold SpecR.count nValid
  rw [count_toInt, show (0#32 : BitVec 32).toInt = 0 from by decide]
  exact Int.natCast_pos

/-- and the kernel's float sum of the flags is that number too. -/
theorem sum_flags (v : (⟨2, ![2048, 1]⟩ : Shape).Idx → EReal)
    (hv : ∀ r : Fin 2048, v (ix2 r (0 : Fin 1)) = (((SpecR.valid knn sidx r).toNat : ℝ) : EReal)) :
    Ideal.ofBits .f32 0x00000000#32 + ∑ y, v y = ((nValid knn sidx : ℝ) : EReal) := by
  rw [lit_zero, zero_add, sum_col]
  simp only [hv]
  rw [← coe_sum]
  unfold nValid
  norm_cast

/-- THE RESULT: from the two columns the kernel's tail computes the reference's result. -/
theorem result_eq (l v : (⟨2, ![2048, 1]⟩ : Shape).Idx → EReal)
    (hl : ∀ r : Fin 2048, l (ix2 r (0 : Fin 1)) = SpecR.loss z knn sidx r)
    (hv : ∀ r : Fin 2048, v (ix2 r (0 : Fin 1)) = (((SpecR.valid knn sidx r).toNat : ℝ) : EReal)) :
    Scalar.select (Ideal.cmp .ogt (Ideal.ofBits .f32 0x00000000#32 + ∑ y, v y) (Ideal.ofBits .f32 0x00000000#32))
        (Ideal.div (Ideal.ofBits .f32 0x00000000#32 + ∑ y, l y) (Ideal.ofBits .f32 0x00000000#32 + ∑ y, v y))
        (Ideal.ofBits .f32 0x00000000#32)
      = SpecR.result z knn sidx := by
  unfold SpecR.result
  rw [sum_flags knn sidx v hv, countF_eq]
  have htot : Ideal.ofBits .f32 0x00000000#32 + ∑ y, l y = SpecR.total z knn sidx := by
    unfold SpecR.total
    rw [sum_col]
    simp only [hl]
  rw [htot]
  have hc : Ideal.cmp .ogt ((nValid knn sidx : ℝ) : EReal) (Ideal.ofBits .f32 0x00000000#32) = IntOp.cmpi .sgt (SpecR.count knn sidx) 0#32 := by
    apply bit_ext
    rw [count_pos_iff]
    show BitVec.ofBool (decide (Ideal.ofBits .f32 0x00000000#32 < _)) = 1#1 ↔ _
    rw [ofBool_eq_one, decide_eq_true_iff, lit_zero]
    exact_mod_cast Iff.rfl
  rw [hc]

end Cert.Join

end
-- ==== Proof.FinalI.lean ====
/-
  The idealized kernel's result is the reference's, on finite points.

  Row `r` of the two columns the region writes is read through the chain: the column is the body's column at grid
  point `r / 256`, local row `r % 256`; the body's column there is the per-row reading of the five blocks; the
  blocks are the arrays read at that row; and the per-row readings of the two programs agree (the one law: the
  division by the softmax total moves across the masked sum, all terms being real). The host's tail over the two
  columns is then the reference's mean over the valid rows.
-/
import proofs.«172015_j17892833755270_2_alg».proof.Proof.ArrI
import proofs.«172015_j17892833755270_2_alg».proof.Proof.RowK
import proofs.«172015_j17892833755270_2_alg».proof.Proof.GlueI
import proofs.«172015_j17892833755270_2_alg».proof.Proof.TailI
import proofs.«172015_j17892833755270_2_alg».proof.Proof.Join

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The three arrays the row readings are over: the points, the gathered neighbour lists, the sample ids. -/
abbrev zOf (c : Dev nD) : (⟨2, ![2048, 32]⟩ : Shape).Idx → EReal := m ((c : Thread nD τ).loc main_arg0)
abbrev knnOf (c : Dev nD) : (⟨2, ![2048, 30]⟩ : Shape).Idx → BitVec 32 :=
  Cert.ReferenceIdeal.ReadP.val_main_v42 (F := Ideal) (m ((c : Thread nD τ).loc main_arg1)) (m ((c : Thread nD τ).loc main_arg2))
abbrev sidxOf (c : Dev nD) : (⟨1, ![2048]⟩ : Shape).Idx → BitVec 32 := m ((c : Thread nD τ).loc main_arg2)

/-- On the one-axis grid a point's coordinate is its number. -/
theorem coords_val : ∀ t : Fin cfg0.N, ((grid0.coords t) 0).val = t.val :=
  (by decide +kernel : ∀ t : Fin grid0.N, ((grid0.coords t) 0).val = t.val)

/-- Row `r` sits at grid point `r / 256`, local row `r % 256`. -/
def ptR (r : Fin 2048) : Fin cfg0.N := ptOf (ix2 r (0 : Fin 1))
def inR (r : Fin 2048) : Fin 256 := ⟨r.val % 256, Nat.mod_lt _ (by decide)⟩
theorem ptR_val (r : Fin 2048) : (ptR r).val = r.val / 256 := rfl
theorem rowOf_ptR (r : Fin 2048) : rowOf (ptR r) (inR r) = r := Fin.ext (by
  show (ptR r).val * 256 + (inR r).val = r.val
  rw [ptR_val]; show r.val / 256 * 256 + r.val % 256 = r.val; omega)

variable (z' : (⟨2, ![2048, 32]⟩ : Shape).Idx → ℝ)

/-- ROW `r` OF THE LOSS COLUMN is the reference's loss of row `r`. -/
theorem lossAll_row (c : Dev nD) (hz : ∀ i, zOf m c i = (z' i : EReal)) (r : Fin 2048) :
    lossAll m ρ c (ix2 r (0 : Fin 1)) = Cert.SpecR.loss (zOf m c) (knnOf m c) (sidxOf m c) r := by
  have hr : r.val = (ptR r).val * 256 + (inR r).val := by rw [ptR_val]; show r.val = r.val / 256 * 256 + r.val % 256; omega
  show outLoss (grid0.coords (ptR r)) (iblk m ρ c 0 (ptR r)) (iblk m ρ c 1 (ptR r)) (iblk m ρ c 2 (ptR r)) (iblk m ρ c 3 (ptR r)) (iblk m ρ c 4 (ptR r)) (ix2 (inR r) (0 : Fin 1)) = _
  rw [Cert.KernelIdeal.RowValue.outLoss_apply (grid0.coords (ptR r)) (ptR r) (coords_val (ptR r))]
  exact Cert.Bridge.loss_eq (zOf m c) (knnOf m c) (sidxOf m c) (ptR r) (inR r) r hr _ _ _ _ _
    (fun k => by rw [blk3, rowOf_ptR]) (fun j => blk4 m ρ c (ptR r) j)
    (fun d => by rw [blk0, rowOf_ptR]) (fun j d => blk1 m ρ c (ptR r) j d) (fun j => blk2 m ρ c (ptR r) j) z' hz

/-- ROW `r` OF THE VALIDITY COLUMN is the reference's validity bit of row `r`, as a number. -/
theorem validAll_row (c : Dev nD) (r : Fin 2048) :
    validAll m ρ c (ix2 r (0 : Fin 1)) = (((Cert.SpecR.valid (knnOf m c) (sidxOf m c) r).toNat : ℝ) : EReal) := by
  have hr : r.val = (ptR r).val * 256 + (inR r).val := by rw [ptR_val]; show r.val = r.val / 256 * 256 + r.val % 256; omega
  show outValid (grid0.coords (ptR r)) (iblk m ρ c 3 (ptR r)) (iblk m ρ c 4 (ptR r)) (ix2 (inR r) (0 : Fin 1)) = _
  rw [Cert.KernelIdeal.RowValue.outValid_apply (grid0.coords (ptR r)) (ptR r) (coords_val (ptR r))]
  exact Cert.Bridge.validF_eq (knnOf m c) (sidxOf m c) (ptR r) (inR r) r hr _ _
    (fun k => by rw [blk3, rowOf_ptR]) (fun j => blk4 m ρ c (ptR r) j)

/-- THE RESULT of the idealized kernel on finite points is the reference's closed form. -/
theorem result_eq (c : Dev nD) (hz : ∀ i, zOf m c i = (z' i : EReal)) (i : S_.Idx) :
    tail (F := Ideal) (lossArr m ρ c) (validArr m ρ c) i = Cert.SpecR.result (zOf m c) (knnOf m c) (sidxOf m c) := by
  rw [lossArr_eq, validArr_eq, tail_apply]
  exact Cert.Join.result_eq (zOf m c) (knnOf m c) (sidxOf m c) (lossAll m ρ c) (validAll m ρ c)
    (fun r => lossAll_row m ρ z' c hz r) (fun r => validAll_row m ρ c r)

end Cert.KernelIdeal.Hand

end
-- ==== Proof.Finite.lean ====
/-
  From the precondition to the finiteness of the points: the precondition says that every feature's absolute value
  is below plus infinity; an extended real whose absolute value is below plus infinity is a real number.
-/
import proofs.«172015_j17892833755270_2_alg».proof.Pre_finite_inputs
import proofs.«172015_j17892833755270_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic

/-- The scalar shape has one index. -/
instance : Subsingleton Cert.Pre_finite_inputs.S_.Idx := ⟨fun a b => funext fun d => d.elim0⟩

/-- The bit pattern of plus infinity denotes plus infinity. -/
theorem posInf_eq : Ideal.ofBits .f32 0x7F800000#32 = (⊤ : EReal) := by
  simp [Ideal.ofBits, Ideal.ieee]

/-- An extended real whose absolute value — the larger of it and its negation — is below plus infinity is a real. -/
theorem real_of_abs_lt_top (x : EReal) (hx : max x (-x) < ⊤) : ∃ a : ℝ, x = (a : EReal) := by
  induction x using EReal.rec with
  | bot => simp at hx
  | coe a => exact ⟨a, rfl⟩
  | top => simp at hx

/-- A comparison "less than" that came out true compared a smaller with a larger. -/
theorem lt_of_cmp_olt (x y : EReal) (h : Ideal.cmp .olt x y = 1#1) : x < y := by
  by_contra hn
  have h0 : Ideal.cmp .olt x y = 0#1 := by simp [Ideal.cmp, hn]
  rw [h0] at h
  exact absurd h (by decide)

/-- Under the precondition every feature of every point is a real number. -/
theorem real_of_pre (x0 : FVec Ideal Cert.Pre_finite_inputs.S2048x32 .f32) (x1 : IVec Cert.Pre_finite_inputs.S8192x30 32)
    (x2 : IVec Cert.Pre_finite_inputs.S2048 32)
    (h : Cert.Pre_finite_inputs.fn (F := Ideal) x0 x1 x2 = fun _ => 1#1) : ∀ i, ∃ a : ℝ, x0 i = (a : EReal) := by
  intro i
  have h0 : Cert.Pre_finite_inputs.fn (F := Ideal) x0 x1 x2 ValueIdx.ix0 = 1#1 := congrFun h ValueIdx.ix0
  dsimp only [Cert.Pre_finite_inputs.fn] at h0
  have hi := Host.reduce_andi_all _ _ _ _ _ h0 i
  have hc : Ideal.cmp .olt (max (x0 i) (-(x0 i))) (Ideal.ofBits .f32 0x7F800000#32) = 1#1 := hi
  have hlt := lt_of_cmp_olt _ _ hc
  rw [posInf_eq] at hlt
  exact real_of_abs_lt_top (x0 i) hlt

end Cert.Finite

end
-- ==== Proof.RefRun.lean ====
/-
  The reference program's run: @main is a line of 94 host operations; every weakly fair execution of it terminates,
  nothing faulting, with the result at the last operation's value as a function of the three arguments, and the
  arguments unchanged. The value is read in five stretches — the similarities up to the masked `sim`, the row
  softmax, the neighbour mask, the masked row sums, and the loss and its mean —, each stretch's results stated from
  the results of the stretches before it.
-/
import proofs.«172015_j17892833755270_2_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The operations up to the masked similarities: the diagonal, the squared norms, the products, the distances. -/
abbrev opsA : List (HloOp τ sig (Elt F)) :=
  [ nullary main_v0 (iotaInDim S2048x2048 32 0),
    nullary main_v1 (iotaInDim S2048x2048 32 1),
    nullary main_c (constantI S_ 32 0#32),
    unary main_c main_v2 (broadcastInDim S2048x2048 ![] bcast_S_S2048x2048 : (⟨S_, .i32⟩ : BufTy).Contents (Elt F) → (⟨S2048x2048, .i32⟩ : BufTy).Contents (Elt F)),
    binary main_v0 main_v2 main_v3 (addi : (⟨S2048x2048, .i32⟩ : BufTy).Contents (Elt F) → (⟨S2048x2048, .i32⟩ : BufTy).Contents (Elt F) → (⟨S2048x2048, .i32⟩ : BufTy).Contents (Elt F)),
    binary main_v3 main_v1 main_v4 (cmpi .eq : (⟨S2048x2048, .i32⟩ : BufTy).Contents (Elt F) → (⟨S2048x2048, .i32⟩ : BufTy).Contents (Elt F) → (⟨S2048x2048, .i1⟩ : BufTy).Contents (Elt F)),
    binary main_arg0 main_arg0 main_v5 (mulf : (⟨S2048x32, .f32⟩ : BufTy).Contents (Elt F) → (⟨S2048x32, .f32⟩ : BufTy).Contents (Elt F) → (⟨S2048x32, .f32⟩ : BufTy).Contents (Elt F)),
    nullary main_cst (constant S_ .f32 0x00000000#32),
    binary main_v5 main_cst main_v6 ((fun x v => Host.reduceAdd x v reducesTo_S2048x32_S2048_d1 h_S_) : (⟨S2048x32, .f32⟩ : BufTy).Contents (Elt F) → (⟨S_, .f32⟩ : BufTy).Contents (Elt F) → (⟨S2048, .f32⟩ : BufTy).Contents (Elt F)),
    unary main_v6 main_v7 (broadcastInDim S2048x1 ![0] bcast_S2048_S2048x1_0 : (⟨S2048, .f32⟩ : BufTy).Contents (Elt F) → (⟨S2048x1, .f32⟩ : BufTy).Contents (Elt F)),
    unary main_v6 main_v8 (broadcastInDim S1x2048 ![1] bcast_S2048_S1x2048_1 : (⟨S2048, .f32⟩ : BufTy).Contents (Elt F) → (⟨S1x2048, .f32⟩ : BufTy).Contents (Elt F)),
    unary main_v7 main_v9 (broadcastInDim S2048x2048 ![0, 1] bcast_S2048x1_S2048x2048_0_1 : (⟨S2048x1, .f32⟩ : BufTy).Contents (Elt F) → (⟨S2048x2048, .f32⟩ : BufTy).Contents (Elt F)),
    unary main_v8 main_v10 (broadcastInDim S2048x2048 ![0, 1] bcast_S1x2048_S2048x2048_0_1 : (⟨S1x2048, .f32⟩ : BufTy).Contents (Elt F) → (⟨S2048x2048, .f32⟩ : BufTy).Contents (Elt F)),
    binary main_v9 main_v10 main_v11 (addf : (⟨S2048x2048, .f32⟩ : BufTy).Contents (Elt F) → (⟨S2048x2048, .f32⟩ : BufTy).Contents (Elt F) → (⟨S2048x2048, .f32⟩ : BufTy).Contents (Elt F)),
    unary main_arg0 main_v12 ((transpose S32x2048 [1, 0] · transposes_S2048x32_S32x2048_1_0) : (⟨S2048x32, .f32⟩ : BufTy).Contents (Elt F) → (⟨S32x2048, .f32⟩ : BufTy).Contents (Elt F)),
    binary main_arg0 main_v12 main_v13 ((fun l r => Host.dotGeneral dot_S2048x32_S32x2048_S2048x2048_1_0_0_1_n_n none l r) : (⟨S2048x32, .f32⟩ : BufTy).Contents (Elt F) → (⟨S32x2048, .f32⟩ : BufTy).Contents (Elt F) → (⟨S2048x2048, .f32⟩ : BufTy).Contents (Elt F)),
    nullary main_cst_0 (constant S_ .f32 0x40000000#32),
    unary main_cst_0 main_v14 (broadcastInDim S2048x2048 ![] bcast_S_S2048x2048 : (⟨S_, .f32⟩ : BufTy).Contents (Elt F) → (⟨S2048x2048, .f32⟩ : BufTy).Contents (Elt F)),
    binary main_v14 main_v13 main_v15 (mulf : (⟨S2048x2048, .f32⟩ : BufTy).Contents (Elt F) → (⟨S2048x2048, .f32⟩ : BufTy).Contents (Elt F) → (⟨S2048x2048, .f32⟩ : BufTy).Contents (Elt F)),
    binary main_v11 main_v15 main_v16 (subf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x00000000#32),
    unary main_cst_1 main_v17 (broadcastInDim S2048x2048 ![] bcast_S_S2048x2048 : (⟨S_, .f32⟩ : BufTy).Contents (Elt F) → (⟨S2048x2048, .f32⟩ : BufTy).Contents (Elt F)),
    binary main_v16 main_v17 main_v18 (maximumf : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S2048x2048, .f32⟩) main_call0_v1) (broadcastInDim S2048x2048 ![] bcast_S_S2048x2048),
    TRef.ternary (TRef.of (T := ⟨S2048x2048, .i1⟩) main_v4) (TRef.of (T := ⟨S2048x2048, .f32⟩) main_call0_v1) (TRef.of (T := ⟨S2048x2048, .f32⟩) main_v18) (TRef.of (T := ⟨S2048x2048, .f32⟩) main_v19) select,
    unary main_v19 main_v20 (Host.sqrt : (⟨S2048x2048, .f32⟩ : BufTy).Contents (Elt F) → (⟨S2048x2048, .f32⟩ : BufTy).Contents (Elt F)),
    unary main_v20 main_v21 (Host.negf : (⟨S2048x2048, .f32⟩ : BufTy).Contents (Elt F) → (⟨S2048x2048, .f32⟩ : BufTy).Contents (Elt F)),
    nullary main_cst_3 (constant S_ .f32 0x3F800000#32),
    unary main_cst_3 main_v22 (broadcastInDim S2048x2048 ![] bcast_S_S2048x2048 : (⟨S_, .f32⟩ : BufTy).Contents (Elt F) → (⟨S2048x2048, .f32⟩ : BufTy).Contents (Elt F)),
    binary main_v21 main_v22 main_v23 (Host.divf : (⟨S2048x2048, .f32⟩ : BufTy).Contents (Elt F) → (⟨S2048x2048, .f32⟩ : BufTy).Contents (Elt F) → (⟨S2048x2048, .f32⟩ : BufTy).Contents (Elt F)),
    nullary main_cst_4 (constant S_ .f32 0xFF800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S2048x2048, .f32⟩) main_call1_v1) (broadcastInDim S2048x2048 ![] bcast_S_S2048x2048),
    TRef.ternary (TRef.of (T := ⟨S2048x2048, .i1⟩) main_v4) (TRef.of (T := ⟨S2048x2048, .f32⟩) main_call1_v1) (TRef.of (T := ⟨S2048x2048, .f32⟩) main_v23) (TRef.of (T := ⟨S2048x2048, .f32⟩) main_v24) select ]

set_option maxRecDepth 16384 in
set_option maxHeartbeats 4000000 in
/-- After them: the similarities and the diagonal at their stages, the integer arguments untouched. -/
theorem stageA (W : Valuation τ sig (Elt F)) :
    StableHlo.after opsA W (Proc.devRef .tc main_v24) = val_main_v24 (F := F) (W (Proc.devRef .tc main_arg0))
    ∧ StableHlo.after opsA W (Proc.devRef .tc main_v4) = val_main_v4 (F := F)
    ∧ StableHlo.after opsA W (Proc.devRef .tc main_arg0) = W (Proc.devRef .tc main_arg0)
    ∧ StableHlo.after opsA W (Proc.devRef .tc main_arg1) = W (Proc.devRef .tc main_arg1)
    ∧ StableHlo.after opsA W (Proc.devRef .tc main_arg2) = W (Proc.devRef .tc main_arg2) := by
  refine ⟨?_, ?_, ?_, ?_, ?_⟩
  · after_results_simp; rfl
  · after_results_simp; rfl
  · after_results_simp
  · after_results_simp
  · after_results_simp

/-- The row softmax: the row maxima, the exponentials, their sums, the quotients. -/
abbrev opsB : List (HloOp τ sig (Elt F)) :=
  [ nullary main_cst_5 (constant S_ .f32 0xFF800000#32),
    binary main_v24 main_cst_5 main_v25 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_6 (constant S_ .f32 0xFF800000#32),
    unary main_cst_6 main_v26 (broadcastInDim S2048 ![] bcast_S_S2048 : (⟨S_, .f32⟩ : BufTy).Contents (Elt F) → (⟨S2048, .f32⟩ : BufTy).Contents (Elt F)),
    binary main_v26 main_v25 main_v27 (maximumf : (⟨S2048, .f32⟩ : BufTy).Contents (Elt F) → (⟨S2048, .f32⟩ : BufTy).Contents (Elt F) → (⟨S2048, .f32⟩ : BufTy).Contents (Elt F)),
    unary main_v27 main_v28 (broadcastInDim S2048x1 ![0] bcast_S2048_S2048x1_0 : (⟨S2048, .f32⟩ : BufTy).Contents (Elt F) → (⟨S2048x1, .f32⟩ : BufTy).Contents (Elt F)),
    unary main_v28 main_v29 (broadcastInDim S2048x2048 ![0, 1] bcast_S2048x1_S2048x2048_0_1 : (⟨S2048x1, .f32⟩ : BufTy).Contents (Elt F) → (⟨S2048x2048, .f32⟩ : BufTy).Contents (Elt F)),
    binary main_v24 main_v29 main_v30 (subf : (⟨S2048x2048, .f32⟩ : BufTy).Contents (Elt F) → (⟨S2048x2048, .f32⟩ : BufTy).Contents (Elt F) → (⟨S2048x2048, .f32⟩ : BufTy).Contents (Elt F)),
    unary main_v30 main_v31 (Host.exp : (⟨S2048x2048, .f32⟩ : BufTy).Contents (Elt F) → (⟨S2048x2048, .f32⟩ : BufTy).Contents (Elt F)),
    nullary main_cst_7 (constant S_ .f32 0x00000000#32),
    binary main_v31 main_cst_7 main_v32 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v32 main_v33 (broadcastInDim S2048x1 ![0] bcast_S2048_S2048x1_0 : (⟨S2048, .f32⟩ : BufTy).Contents (Elt F) → (⟨S2048x1, .f32⟩ : BufTy).Contents (Elt F)),
    unary main_v33 main_v34 (broadcastInDim S2048x2048 ![0, 1] bcast_S2048x1_S2048x2048_0_1 : (⟨S2048x1, .f32⟩ : BufTy).Contents (Elt F) → (⟨S2048x2048, .f32⟩ : BufTy).Contents (Elt F)),
    binary main_v31 main_v34 main_v35 (Host.divf : (⟨S2048x2048, .f32⟩ : BufTy).Contents (Elt F) → (⟨S2048x2048, .f32⟩ : BufTy).Contents (Elt F) → (⟨S2048x2048, .f32⟩ : BufTy).Contents (Elt F)) ]

set_option maxRecDepth 16384 in
set_option maxHeartbeats 4000000 in
theorem stageB (W : Valuation τ sig (Elt F)) (x0 : (⟨S2048x32, .f32⟩ : BufTy).Contents (Elt F))
    (h24 : W (Proc.devRef .tc main_v24) = val_main_v24 (F := F) x0) :
    StableHlo.after opsB W (Proc.devRef .tc main_v35) = val_main_v35 (F := F) x0
    ∧ StableHlo.after opsB W (Proc.devRef .tc main_v4) = W (Proc.devRef .tc main_v4)
    ∧ StableHlo.after opsB W (Proc.devRef .tc main_arg0) = W (Proc.devRef .tc main_arg0)
    ∧ StableHlo.after opsB W (Proc.devRef .tc main_arg1) = W (Proc.devRef .tc main_arg1)
    ∧ StableHlo.after opsB W (Proc.devRef .tc main_arg2) = W (Proc.devRef .tc main_arg2) := by
  refine ⟨?_, ?_, ?_, ?_, ?_⟩
  · after_results_simp; rw [h24]; rfl
  · after_results_simp
  · after_results_simp
  · after_results_simp
  · after_results_simp

/-- The neighbour mask: the gathered lists against the sample ids, off the diagonal. -/
abbrev opsC : List (HloOp τ sig (Elt F)) :=
  [ nullary main_c_8 (constantI S_ 32 0#32),
    unary main_c_8 main_v36 (broadcastInDim S2048 ![] bcast_S_S2048 : (⟨S_, .i32⟩ : BufTy).Contents (Elt F) → (⟨S2048, .i32⟩ : BufTy).Contents (Elt F)),
    binary main_arg2 main_v36 main_v37 (cmpi .slt : (⟨S2048, .i32⟩ : BufTy).Contents (Elt F) → (⟨S2048, .i32⟩ : BufTy).Contents (Elt F) → (⟨S2048, .i1⟩ : BufTy).Contents (Elt F)),
    nullary main_c_9 (constantI S_ 32 8192#32),
    unary main_c_9 main_v38 (broadcastInDim S2048 ![] bcast_S_S2048 : (⟨S_, .i32⟩ : BufTy).Contents (Elt F) → (⟨S2048, .i32⟩ : BufTy).Contents (Elt F)),
    binary main_arg2 main_v38 main_v39 (addi : (⟨S2048, .i32⟩ : BufTy).Contents (Elt F) → (⟨S2048, .i32⟩ : BufTy).Contents (Elt F) → (⟨S2048, .i32⟩ : BufTy).Contents (Elt F)),
    ternary main_v37 main_v39 main_arg2 main_v40 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v40 main_v41 (broadcastInDim S2048x1 ![0] bcast_S2048_S2048x1_0 : (⟨S2048, .i32⟩ : BufTy).Contents (Elt F) → (⟨S2048x1, .i32⟩ : BufTy).Contents (Elt F)),
    binary main_arg1 main_v41 main_v42 ((fun x i => Host.gather gather_S8192x30_S2048x1_S2048x30_1_0_n_n_0_1_130 x i) : (⟨S8192x30, .i32⟩ : BufTy).Contents (Elt F) → (⟨S2048x1, .i32⟩ : BufTy).Contents (Elt F) → (⟨S2048x30, .i32⟩ : BufTy).Contents (Elt F)),
    unary main_v42 main_v43 (broadcastInDim S2048x30x1 ![0, 1] bcast_S2048x30_S2048x30x1_0_1 : (⟨S2048x30, .i32⟩ : BufTy).Contents (Elt F) → (⟨S2048x30x1, .i32⟩ : BufTy).Contents (Elt F)),
    unary main_arg2 main_v44 (broadcastInDim S1x1x2048 ![2] bcast_S2048_S1x1x2048_2 : (⟨S2048, .i32⟩ : BufTy).Contents (Elt F) → (⟨S1x1x2048, .i32⟩ : BufTy).Contents (Elt F)),
    unary main_v43 main_v45 (broadcastInDim S2048x30x2048 ![0, 1, 2] bcast_S2048x30x1_S2048x30x2048_0_1_2 : (⟨S2048x30x1, .i32⟩ : BufTy).Contents (Elt F) → (⟨S2048x30x2048, .i32⟩ : BufTy).Contents (Elt F)),
    unary main_v44 main_v46 (broadcastInDim S2048x30x2048 ![0, 1, 2] bcast_S1x1x2048_S2048x30x2048_0_1_2 : (⟨S1x1x2048, .i32⟩ : BufTy).Contents (Elt F) → (⟨S2048x30x2048, .i32⟩ : BufTy).Contents (Elt F)),
    binary main_v45 main_v46 main_v47 (cmpi .eq : (⟨S2048x30x2048, .i32⟩ : BufTy).Contents (Elt F) → (⟨S2048x30x2048, .i32⟩ : BufTy).Contents (Elt F) → (⟨S2048x30x2048, .i1⟩ : BufTy).Contents (Elt F)),
    nullary main_c_10 (constantI S_ 1 0#1),
    binary main_v47 main_c_10 main_v48 ((fun x v => Host.reduce IntOp.ori x v reducesTo_S2048x30x2048_S2048x2048_d1 h_S_) : (⟨S2048x30x2048, .i1⟩ : BufTy).Contents (Elt F) → (⟨S_, .i1⟩ : BufTy).Contents (Elt F) → (⟨S2048x2048, .i1⟩ : BufTy).Contents (Elt F)),
    unary main_v4 main_v49 (noti : (⟨S2048x2048, .i1⟩ : BufTy).Contents (Elt F) → (⟨S2048x2048, .i1⟩ : BufTy).Contents (Elt F)),
    binary main_v48 main_v49 main_v50 (andi : (⟨S2048x2048, .i1⟩ : BufTy).Contents (Elt F) → (⟨S2048x2048, .i1⟩ : BufTy).Contents (Elt F) → (⟨S2048x2048, .i1⟩ : BufTy).Contents (Elt F)) ]

set_option maxRecDepth 16384 in
set_option maxHeartbeats 4000000 in
theorem stageC (W : Valuation τ sig (Elt F)) (h4 : W (Proc.devRef .tc main_v4) = val_main_v4 (F := F)) :
    StableHlo.after opsC W (Proc.devRef .tc main_v50) = val_main_v50 (F := F) (W (Proc.devRef .tc main_arg1)) (W (Proc.devRef .tc main_arg2))
    ∧ StableHlo.after opsC W (Proc.devRef .tc main_v35) = W (Proc.devRef .tc main_v35)
    ∧ StableHlo.after opsC W (Proc.devRef .tc main_arg0) = W (Proc.devRef .tc main_arg0)
    ∧ StableHlo.after opsC W (Proc.devRef .tc main_arg1) = W (Proc.devRef .tc main_arg1)
    ∧ StableHlo.after opsC W (Proc.devRef .tc main_arg2) = W (Proc.devRef .tc main_arg2) := by
  refine ⟨?_, ?_, ?_, ?_, ?_⟩
  · after_results_simp; rw [h4]; rfl
  · after_results_simp
  · after_results_simp
  · after_results_simp
  · after_results_simp

/-- The masked row sums. -/
abbrev opsD : List (HloOp τ sig (Elt F)) :=
  [ unary main_v50 main_v51 (uitofp .f32 : (⟨S2048x2048, .i1⟩ : BufTy).Contents (Elt F) → (⟨S2048x2048, .f32⟩ : BufTy).Contents (Elt F)),
    binary main_v35 main_v51 main_v52 (mulf : (⟨S2048x2048, .f32⟩ : BufTy).Contents (Elt F) → (⟨S2048x2048, .f32⟩ : BufTy).Contents (Elt F) → (⟨S2048x2048, .f32⟩ : BufTy).Contents (Elt F)),
    nullary main_cst_11 (constant S_ .f32 0x00000000#32),
    binary main_v52 main_cst_11 main_v53 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) ]

set_option maxRecDepth 16384 in
set_option maxHeartbeats 4000000 in
theorem stageD (W : Valuation τ sig (Elt F)) (x0 : (⟨S2048x32, .f32⟩ : BufTy).Contents (Elt F))
    (x1 : (⟨S8192x30, .i32⟩ : BufTy).Contents (Elt F)) (x2 : (⟨S2048, .i32⟩ : BufTy).Contents (Elt F))
    (h35 : W (Proc.devRef .tc main_v35) = val_main_v35 (F := F) x0) (h50 : W (Proc.devRef .tc main_v50) = val_main_v50 (F := F) x1 x2) :
    StableHlo.after opsD W (Proc.devRef .tc main_v53) = val_main_v53 (F := F) x0 x1 x2
    ∧ StableHlo.after opsD W (Proc.devRef .tc main_v50) = W (Proc.devRef .tc main_v50)
    ∧ StableHlo.after opsD W (Proc.devRef .tc main_arg0) = W (Proc.devRef .tc main_arg0)
    ∧ StableHlo.after opsD W (Proc.devRef .tc main_arg1) = W (Proc.devRef .tc main_arg1)
    ∧ StableHlo.after opsD W (Proc.devRef .tc main_arg2) = W (Proc.devRef .tc main_arg2) := by
  refine ⟨?_, ?_, ?_, ?_, ?_⟩
  · after_results_simp; rw [h35, h50]; rfl
  · after_results_simp
  · after_results_simp
  · after_results_simp
  · after_results_simp

/-- The rows' validity and their count. -/
abbrev opsE : List (HloOp τ sig (Elt F)) :=
  [ nullary main_c_12 (constantI S_ 1 0#1),
    binary main_v50 main_c_12 main_v54 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    unary main_v54 main_v55 ((extui 32 · natLt_1_32) : (⟨S2048, .i1⟩ : BufTy).Contents (Elt F) → (⟨S2048, .i32⟩ : BufTy).Contents (Elt F)),
    nullary main_c_13 (constantI S_ 32 0#32),
    binary main_v55 main_c_13 main_v56 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)) ]

set_option maxRecDepth 16384 in
set_option maxHeartbeats 4000000 in
theorem stageE (W : Valuation τ sig (Elt F)) (x1 : (⟨S8192x30, .i32⟩ : BufTy).Contents (Elt F)) (x2 : (⟨S2048, .i32⟩ : BufTy).Contents (Elt F))
    (h50 : W (Proc.devRef .tc main_v50) = val_main_v50 (F := F) x1 x2) :
    StableHlo.after opsE W (Proc.devRef .tc main_v54) = val_main_v54 (F := F) x1 x2
    ∧ StableHlo.after opsE W (Proc.devRef .tc main_v56) = val_main_v56 (F := F) x1 x2
    ∧ StableHlo.after opsE W (Proc.devRef .tc main_v53) = W (Proc.devRef .tc main_v53)
    ∧ StableHlo.after opsE W (Proc.devRef .tc main_arg0) = W (Proc.devRef .tc main_arg0)
    ∧ StableHlo.after opsE W (Proc.devRef .tc main_arg1) = W (Proc.devRef .tc main_arg1)
    ∧ StableHlo.after opsE W (Proc.devRef .tc main_arg2) = W (Proc.devRef .tc main_arg2) := by
  refine ⟨?_, ?_, ?_, ?_, ?_, ?_⟩
  · after_results_simp; rw [h50]; rfl
  · after_results_simp; rw [h50]; rfl
  · after_results_simp
  · after_results_simp
  · after_results_simp
  · after_results_simp

/-- The losses, zero at the rows that are not valid. -/
abbrev opsG : List (HloOp τ sig (Elt F)) :=
  [ nullary main_cst_14 (constant S_ .f32 0x322BCC77#32),
    unary main_cst_14 main_v57 (broadcastInDim S2048 ![] bcast_S_S2048 : (⟨S_, .f32⟩ : BufTy).Contents (Elt F) → (⟨S2048, .f32⟩ : BufTy).Contents (Elt F)),
    binary main_v53 main_v57 main_v58 (addf : (⟨S2048, .f32⟩ : BufTy).Contents (Elt F) → (⟨S2048, .f32⟩ : BufTy).Contents (Elt F) → (⟨S2048, .f32⟩ : BufTy).Contents (Elt F)),
    unary main_v58 main_v59 (Host.log : (⟨S2048, .f32⟩ : BufTy).Contents (Elt F) → (⟨S2048, .f32⟩ : BufTy).Contents (Elt F)),
    unary main_v59 main_v60 (Host.negf : (⟨S2048, .f32⟩ : BufTy).Contents (Elt F) → (⟨S2048, .f32⟩ : BufTy).Contents (Elt F)),
    nullary main_cst_15 (constant S_ .f32 0x00000000#32),
    TRef.unary (TRef.of (T := ⟨S_, .f32⟩) main_cst_15) (TRef.of (T := ⟨S_, .f32⟩) main_call2_v0) id,
    TRef.unary (TRef.of (T := ⟨S_, .f32⟩) main_call2_v0) (TRef.of (T := ⟨S2048, .f32⟩) main_call2_v1) (broadcastInDim S2048 ![] bcast_S_S2048),
    TRef.ternary (TRef.of (T := ⟨S2048, .i1⟩) main_v54) (TRef.of (T := ⟨S2048, .f32⟩) main_v60) (TRef.of (T := ⟨S2048, .f32⟩) main_call2_v1) (TRef.of (T := ⟨S2048, .f32⟩) main_v61) select ]

set_option maxRecDepth 16384 in
set_option maxHeartbeats 4000000 in
theorem stageG (W : Valuation τ sig (Elt F)) (x0 : (⟨S2048x32, .f32⟩ : BufTy).Contents (Elt F))
    (x1 : (⟨S8192x30, .i32⟩ : BufTy).Contents (Elt F)) (x2 : (⟨S2048, .i32⟩ : BufTy).Contents (Elt F))
    (h53 : W (Proc.devRef .tc main_v53) = val_main_v53 (F := F) x0 x1 x2) (h54 : W (Proc.devRef .tc main_v54) = val_main_v54 (F := F) x1 x2) :
    StableHlo.after opsG W (Proc.devRef .tc main_v61) = val_main_v61 (F := F) x0 x1 x2
    ∧ StableHlo.after opsG W (Proc.devRef .tc main_v56) = W (Proc.devRef .tc main_v56)
    ∧ StableHlo.after opsG W (Proc.devRef .tc main_arg0) = W (Proc.devRef .tc main_arg0)
    ∧ StableHlo.after opsG W (Proc.devRef .tc main_arg1) = W (Proc.devRef .tc main_arg1)
    ∧ StableHlo.after opsG W (Proc.devRef .tc main_arg2) = W (Proc.devRef .tc main_arg2) := by
  refine ⟨?_, ?_, ?_, ?_, ?_⟩
  · -- the stage is opened down to the two results of the earlier stretches, and those are turned back into the
    -- buffers' contents, so that both sides are stated over the same opaque contents
    after_results_simp
    simp only [val_main_v61, val_main_call2_v1, val_main_call2_v0, val_main_cst_15, val_main_v60, val_main_v59, val_main_v58, val_main_v57, val_main_cst_14]
    rw [← h53, ← h54]
    rfl
  · after_results_simp
  · after_results_simp
  · after_results_simp
  · after_results_simp

/-- Their sum over the count, where the count is positive. -/
abbrev opsH : List (HloOp τ sig (Elt F)) :=
  [ nullary main_cst_16 (constant S_ .f32 0x00000000#32),
    binary main_v61 main_cst_16 main_v62 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_c_17 (constantI S_ 32 0#32),
    binary main_v56 main_c_17 main_v63 (cmpi .sgt : (⟨S_, .i32⟩ : BufTy).Contents (Elt F) → (⟨S_, .i32⟩ : BufTy).Contents (Elt F) → (⟨S_, .i1⟩ : BufTy).Contents (Elt F)),
    unary main_v56 main_v64 (sitofp .f32 : (⟨S_, .i32⟩ : BufTy).Contents (Elt F) → (⟨S_, .f32⟩ : BufTy).Contents (Elt F)),
    binary main_v62 main_v64 main_v65 (Host.divf : (⟨S_, .f32⟩ : BufTy).Contents (Elt F) → (⟨S_, .f32⟩ : BufTy).Contents (Elt F) → (⟨S_, .f32⟩ : BufTy).Contents (Elt F)),
    nullary main_cst_18 (constant S_ .f32 0x00000000#32),
    TRef.ternary (TRef.of (T := ⟨S_, .i1⟩) main_v63) (TRef.of (T := ⟨S_, .f32⟩) main_v65) (TRef.of (T := ⟨S_, .f32⟩) main_cst_18) (TRef.of (T := ⟨S_, .f32⟩) main_v66) select ]

set_option maxRecDepth 16384 in
set_option maxHeartbeats 4000000 in
theorem stageH (W : Valuation τ sig (Elt F)) (x0 : (⟨S2048x32, .f32⟩ : BufTy).Contents (Elt F))
    (x1 : (⟨S8192x30, .i32⟩ : BufTy).Contents (Elt F)) (x2 : (⟨S2048, .i32⟩ : BufTy).Contents (Elt F))
    (h61 : W (Proc.devRef .tc main_v61) = val_main_v61 (F := F) x0 x1 x2) (h56 : W (Proc.devRef .tc main_v56) = val_main_v56 (F := F) x1 x2) :
    StableHlo.after opsH W (Proc.devRef .tc main_v66) = val_main_v66 (F := F) x0 x1 x2
    ∧ StableHlo.after opsH W (Proc.devRef .tc main_arg0) = W (Proc.devRef .tc main_arg0)
    ∧ StableHlo.after opsH W (Proc.devRef .tc main_arg1) = W (Proc.devRef .tc main_arg1)
    ∧ StableHlo.after opsH W (Proc.devRef .tc main_arg2) = W (Proc.devRef .tc main_arg2) := by
  refine ⟨?_, ?_, ?_, ?_⟩
  · -- as in the stretch before: opened down to the losses and the count, those turned back into the buffers' contents
    after_results_simp
    simp only [val_main_v66, val_main_v65, val_main_v64, val_main_v63, val_main_v62, val_main_cst_16, val_main_c_17, val_main_cst_18]
    rw [← h61, ← h56]
    rfl
  · after_results_simp
  · after_results_simp
  · after_results_simp

/-! ## The whole line -/

/-- @main's 94 operations, in order (a called function's operations stand in its call's place). -/
abbrev ops : List (HloOp τ sig (Elt F)) :=
  [ nullary main_v0 (iotaInDim S2048x2048 32 0),
    nullary main_v1 (iotaInDim S2048x2048 32 1),
    nullary main_c (constantI S_ 32 0#32),
    unary main_c main_v2 (broadcastInDim S2048x2048 ![] bcast_S_S2048x2048 : (⟨S_, .i32⟩ : BufTy).Contents (Elt F) → (⟨S2048x2048, .i32⟩ : BufTy).Contents (Elt F)),
    binary main_v0 main_v2 main_v3 (addi : (⟨S2048x2048, .i32⟩ : BufTy).Contents (Elt F) → (⟨S2048x2048, .i32⟩ : BufTy).Contents (Elt F) → (⟨S2048x2048, .i32⟩ : BufTy).Contents (Elt F)),
    binary main_v3 main_v1 main_v4 (cmpi .eq : (⟨S2048x2048, .i32⟩ : BufTy).Contents (Elt F) → (⟨S2048x2048, .i32⟩ : BufTy).Contents (Elt F) → (⟨S2048x2048, .i1⟩ : BufTy).Contents (Elt F)),
    binary main_arg0 main_arg0 main_v5 (mulf : (⟨S2048x32, .f32⟩ : BufTy).Contents (Elt F) → (⟨S2048x32, .f32⟩ : BufTy).Contents (Elt F) → (⟨S2048x32, .f32⟩ : BufTy).Contents (Elt F)),
    nullary main_cst (constant S_ .f32 0x00000000#32),
    binary main_v5 main_cst main_v6 ((fun x v => Host.reduceAdd x v reducesTo_S2048x32_S2048_d1 h_S_) : (⟨S2048x32, .f32⟩ : BufTy).Contents (Elt F) → (⟨S_, .f32⟩ : BufTy).Contents (Elt F) → (⟨S2048, .f32⟩ : BufTy).Contents (Elt F)),
    unary main_v6 main_v7 (broadcastInDim S2048x1 ![0] bcast_S2048_S2048x1_0 : (⟨S2048, .f32⟩ : BufTy).Contents (Elt F) → (⟨S2048x1, .f32⟩ : BufTy).Contents (Elt F)),
    unary main_v6 main_v8 (broadcastInDim S1x2048 ![1] bcast_S2048_S1x2048_1 : (⟨S2048, .f32⟩ : BufTy).Contents (Elt F) → (⟨S1x2048, .f32⟩ : BufTy).Contents (Elt F)),
    unary main_v7 main_v9 (broadcastInDim S2048x2048 ![0, 1] bcast_S2048x1_S2048x2048_0_1 : (⟨S2048x1, .f32⟩ : BufTy).Contents (Elt F) → (⟨S2048x2048, .f32⟩ : BufTy).Contents (Elt F)),
    unary main_v8 main_v10 (broadcastInDim S2048x2048 ![0, 1] bcast_S1x2048_S2048x2048_0_1 : (⟨S1x2048, .f32⟩ : BufTy).Contents (Elt F) → (⟨S2048x2048, .f32⟩ : BufTy).Contents (Elt F)),
    binary main_v9 main_v10 main_v11 (addf : (⟨S2048x2048, .f32⟩ : BufTy).Contents (Elt F) → (⟨S2048x2048, .f32⟩ : BufTy).Contents (Elt F) → (⟨S2048x2048, .f32⟩ : BufTy).Contents (Elt F)),
    unary main_arg0 main_v12 ((transpose S32x2048 [1, 0] · transposes_S2048x32_S32x2048_1_0) : (⟨S2048x32, .f32⟩ : BufTy).Contents (Elt F) → (⟨S32x2048, .f32⟩ : BufTy).Contents (Elt F)),
    binary main_arg0 main_v12 main_v13 ((fun l r => Host.dotGeneral dot_S2048x32_S32x2048_S2048x2048_1_0_0_1_n_n none l r) : (⟨S2048x32, .f32⟩ : BufTy).Contents (Elt F) → (⟨S32x2048, .f32⟩ : BufTy).Contents (Elt F) → (⟨S2048x2048, .f32⟩ : BufTy).Contents (Elt F)),
    nullary main_cst_0 (constant S_ .f32 0x40000000#32),
    unary main_cst_0 main_v14 (broadcastInDim S2048x2048 ![] bcast_S_S2048x2048 : (⟨S_, .f32⟩ : BufTy).Contents (Elt F) → (⟨S2048x2048, .f32⟩ : BufTy).Contents (Elt F)),
    binary main_v14 main_v13 main_v15 (mulf : (⟨S2048x2048, .f32⟩ : BufTy).Contents (Elt F) → (⟨S2048x2048, .f32⟩ : BufTy).Contents (Elt F) → (⟨S2048x2048, .f32⟩ : BufTy).Contents (Elt F)),
    binary main_v11 main_v15 main_v16 (subf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x00000000#32),
    unary main_cst_1 main_v17 (broadcastInDim S2048x2048 ![] bcast_S_S2048x2048 : (⟨S_, .f32⟩ : BufTy).Contents (Elt F) → (⟨S2048x2048, .f32⟩ : BufTy).Contents (Elt F)),
    binary main_v16 main_v17 main_v18 (maximumf : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S2048x2048, .f32⟩) main_call0_v1) (broadcastInDim S2048x2048 ![] bcast_S_S2048x2048),
    TRef.ternary (TRef.of (T := ⟨S2048x2048, .i1⟩) main_v4) (TRef.of (T := ⟨S2048x2048, .f32⟩) main_call0_v1) (TRef.of (T := ⟨S2048x2048, .f32⟩) main_v18) (TRef.of (T := ⟨S2048x2048, .f32⟩) main_v19) select,
    unary main_v19 main_v20 (Host.sqrt : (⟨S2048x2048, .f32⟩ : BufTy).Contents (Elt F) → (⟨S2048x2048, .f32⟩ : BufTy).Contents (Elt F)),
    unary main_v20 main_v21 (Host.negf : (⟨S2048x2048, .f32⟩ : BufTy).Contents (Elt F) → (⟨S2048x2048, .f32⟩ : BufTy).Contents (Elt F)),
    nullary main_cst_3 (constant S_ .f32 0x3F800000#32),
    unary main_cst_3 main_v22 (broadcastInDim S2048x2048 ![] bcast_S_S2048x2048 : (⟨S_, .f32⟩ : BufTy).Contents (Elt F) → (⟨S2048x2048, .f32⟩ : BufTy).Contents (Elt F)),
    binary main_v21 main_v22 main_v23 (Host.divf : (⟨S2048x2048, .f32⟩ : BufTy).Contents (Elt F) → (⟨S2048x2048, .f32⟩ : BufTy).Contents (Elt F) → (⟨S2048x2048, .f32⟩ : BufTy).Contents (Elt F)),
    nullary main_cst_4 (constant S_ .f32 0xFF800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S2048x2048, .f32⟩) main_call1_v1) (broadcastInDim S2048x2048 ![] bcast_S_S2048x2048),
    TRef.ternary (TRef.of (T := ⟨S2048x2048, .i1⟩) main_v4) (TRef.of (T := ⟨S2048x2048, .f32⟩) main_call1_v1) (TRef.of (T := ⟨S2048x2048, .f32⟩) main_v23) (TRef.of (T := ⟨S2048x2048, .f32⟩) main_v24) select,
    nullary main_cst_5 (constant S_ .f32 0xFF800000#32),
    binary main_v24 main_cst_5 main_v25 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_6 (constant S_ .f32 0xFF800000#32),
    unary main_cst_6 main_v26 (broadcastInDim S2048 ![] bcast_S_S2048 : (⟨S_, .f32⟩ : BufTy).Contents (Elt F) → (⟨S2048, .f32⟩ : BufTy).Contents (Elt F)),
    binary main_v26 main_v25 main_v27 (maximumf : (⟨S2048, .f32⟩ : BufTy).Contents (Elt F) → (⟨S2048, .f32⟩ : BufTy).Contents (Elt F) → (⟨S2048, .f32⟩ : BufTy).Contents (Elt F)),
    unary main_v27 main_v28 (broadcastInDim S2048x1 ![0] bcast_S2048_S2048x1_0 : (⟨S2048, .f32⟩ : BufTy).Contents (Elt F) → (⟨S2048x1, .f32⟩ : BufTy).Contents (Elt F)),
    unary main_v28 main_v29 (broadcastInDim S2048x2048 ![0, 1] bcast_S2048x1_S2048x2048_0_1 : (⟨S2048x1, .f32⟩ : BufTy).Contents (Elt F) → (⟨S2048x2048, .f32⟩ : BufTy).Contents (Elt F)),
    binary main_v24 main_v29 main_v30 (subf : (⟨S2048x2048, .f32⟩ : BufTy).Contents (Elt F) → (⟨S2048x2048, .f32⟩ : BufTy).Contents (Elt F) → (⟨S2048x2048, .f32⟩ : BufTy).Contents (Elt F)),
    unary main_v30 main_v31 (Host.exp : (⟨S2048x2048, .f32⟩ : BufTy).Contents (Elt F) → (⟨S2048x2048, .f32⟩ : BufTy).Contents (Elt F)),
    nullary main_cst_7 (constant S_ .f32 0x00000000#32),
    binary main_v31 main_cst_7 main_v32 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v32 main_v33 (broadcastInDim S2048x1 ![0] bcast_S2048_S2048x1_0 : (⟨S2048, .f32⟩ : BufTy).Contents (Elt F) → (⟨S2048x1, .f32⟩ : BufTy).Contents (Elt F)),
    unary main_v33 main_v34 (broadcastInDim S2048x2048 ![0, 1] bcast_S2048x1_S2048x2048_0_1 : (⟨S2048x1, .f32⟩ : BufTy).Contents (Elt F) → (⟨S2048x2048, .f32⟩ : BufTy).Contents (Elt F)),
    binary main_v31 main_v34 main_v35 (Host.divf : (⟨S2048x2048, .f32⟩ : BufTy).Contents (Elt F) → (⟨S2048x2048, .f32⟩ : BufTy).Contents (Elt F) → (⟨S2048x2048, .f32⟩ : BufTy).Contents (Elt F)),
    nullary main_c_8 (constantI S_ 32 0#32),
    unary main_c_8 main_v36 (broadcastInDim S2048 ![] bcast_S_S2048 : (⟨S_, .i32⟩ : BufTy).Contents (Elt F) → (⟨S2048, .i32⟩ : BufTy).Contents (Elt F)),
    binary main_arg2 main_v36 main_v37 (cmpi .slt : (⟨S2048, .i32⟩ : BufTy).Contents (Elt F) → (⟨S2048, .i32⟩ : BufTy).Contents (Elt F) → (⟨S2048, .i1⟩ : BufTy).Contents (Elt F)),
    nullary main_c_9 (constantI S_ 32 8192#32),
    unary main_c_9 main_v38 (broadcastInDim S2048 ![] bcast_S_S2048 : (⟨S_, .i32⟩ : BufTy).Contents (Elt F) → (⟨S2048, .i32⟩ : BufTy).Contents (Elt F)),
    binary main_arg2 main_v38 main_v39 (addi : (⟨S2048, .i32⟩ : BufTy).Contents (Elt F) → (⟨S2048, .i32⟩ : BufTy).Contents (Elt F) → (⟨S2048, .i32⟩ : BufTy).Contents (Elt F)),
    ternary main_v37 main_v39 main_arg2 main_v40 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v40 main_v41 (broadcastInDim S2048x1 ![0] bcast_S2048_S2048x1_0 : (⟨S2048, .i32⟩ : BufTy).Contents (Elt F) → (⟨S2048x1, .i32⟩ : BufTy).Contents (Elt F)),
    binary main_arg1 main_v41 main_v42 ((fun x i => Host.gather gather_S8192x30_S2048x1_S2048x30_1_0_n_n_0_1_130 x i) : (⟨S8192x30, .i32⟩ : BufTy).Contents (Elt F) → (⟨S2048x1, .i32⟩ : BufTy).Contents (Elt F) → (⟨S2048x30, .i32⟩ : BufTy).Contents (Elt F)),
    unary main_v42 main_v43 (broadcastInDim S2048x30x1 ![0, 1] bcast_S2048x30_S2048x30x1_0_1 : (⟨S2048x30, .i32⟩ : BufTy).Contents (Elt F) → (⟨S2048x30x1, .i32⟩ : BufTy).Contents (Elt F)),
    unary main_arg2 main_v44 (broadcastInDim S1x1x2048 ![2] bcast_S2048_S1x1x2048_2 : (⟨S2048, .i32⟩ : BufTy).Contents (Elt F) → (⟨S1x1x2048, .i32⟩ : BufTy).Contents (Elt F)),
    unary main_v43 main_v45 (broadcastInDim S2048x30x2048 ![0, 1, 2] bcast_S2048x30x1_S2048x30x2048_0_1_2 : (⟨S2048x30x1, .i32⟩ : BufTy).Contents (Elt F) → (⟨S2048x30x2048, .i32⟩ : BufTy).Contents (Elt F)),
    unary main_v44 main_v46 (broadcastInDim S2048x30x2048 ![0, 1, 2] bcast_S1x1x2048_S2048x30x2048_0_1_2 : (⟨S1x1x2048, .i32⟩ : BufTy).Contents (Elt F) → (⟨S2048x30x2048, .i32⟩ : BufTy).Contents (Elt F)),
    binary main_v45 main_v46 main_v47 (cmpi .eq : (⟨S2048x30x2048, .i32⟩ : BufTy).Contents (Elt F) → (⟨S2048x30x2048, .i32⟩ : BufTy).Contents (Elt F) → (⟨S2048x30x2048, .i1⟩ : BufTy).Contents (Elt F)),
    nullary main_c_10 (constantI S_ 1 0#1),
    binary main_v47 main_c_10 main_v48 ((fun x v => Host.reduce IntOp.ori x v reducesTo_S2048x30x2048_S2048x2048_d1 h_S_) : (⟨S2048x30x2048, .i1⟩ : BufTy).Contents (Elt F) → (⟨S_, .i1⟩ : BufTy).Contents (Elt F) → (⟨S2048x2048, .i1⟩ : BufTy).Contents (Elt F)),
    unary main_v4 main_v49 (noti : (⟨S2048x2048, .i1⟩ : BufTy).Contents (Elt F) → (⟨S2048x2048, .i1⟩ : BufTy).Contents (Elt F)),
    binary main_v48 main_v49 main_v50 (andi : (⟨S2048x2048, .i1⟩ : BufTy).Contents (Elt F) → (⟨S2048x2048, .i1⟩ : BufTy).Contents (Elt F) → (⟨S2048x2048, .i1⟩ : BufTy).Contents (Elt F)),
    unary main_v50 main_v51 (uitofp .f32 : (⟨S2048x2048, .i1⟩ : BufTy).Contents (Elt F) → (⟨S2048x2048, .f32⟩ : BufTy).Contents (Elt F)),
    binary main_v35 main_v51 main_v52 (mulf : (⟨S2048x2048, .f32⟩ : BufTy).Contents (Elt F) → (⟨S2048x2048, .f32⟩ : BufTy).Contents (Elt F) → (⟨S2048x2048, .f32⟩ : BufTy).Contents (Elt F)),
    nullary main_cst_11 (constant S_ .f32 0x00000000#32),
    binary main_v52 main_cst_11 main_v53 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_c_12 (constantI S_ 1 0#1),
    binary main_v50 main_c_12 main_v54 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    unary main_v54 main_v55 ((extui 32 · natLt_1_32) : (⟨S2048, .i1⟩ : BufTy).Contents (Elt F) → (⟨S2048, .i32⟩ : BufTy).Contents (Elt F)),
    nullary main_c_13 (constantI S_ 32 0#32),
    binary main_v55 main_c_13 main_v56 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_cst_14 (constant S_ .f32 0x322BCC77#32),
    unary main_cst_14 main_v57 (broadcastInDim S2048 ![] bcast_S_S2048 : (⟨S_, .f32⟩ : BufTy).Contents (Elt F) → (⟨S2048, .f32⟩ : BufTy).Contents (Elt F)),
    binary main_v53 main_v57 main_v58 (addf : (⟨S2048, .f32⟩ : BufTy).Contents (Elt F) → (⟨S2048, .f32⟩ : BufTy).Contents (Elt F) → (⟨S2048, .f32⟩ : BufTy).Contents (Elt F)),
    unary main_v58 main_v59 (Host.log : (⟨S2048, .f32⟩ : BufTy).Contents (Elt F) → (⟨S2048, .f32⟩ : BufTy).Contents (Elt F)),
    unary main_v59 main_v60 (Host.negf : (⟨S2048, .f32⟩ : BufTy).Contents (Elt F) → (⟨S2048, .f32⟩ : BufTy).Contents (Elt F)),
    nullary main_cst_15 (constant S_ .f32 0x00000000#32),
    TRef.unary (TRef.of (T := ⟨S_, .f32⟩) main_cst_15) (TRef.of (T := ⟨S_, .f32⟩) main_call2_v0) id,
    TRef.unary (TRef.of (T := ⟨S_, .f32⟩) main_call2_v0) (TRef.of (T := ⟨S2048, .f32⟩) main_call2_v1) (broadcastInDim S2048 ![] bcast_S_S2048),
    TRef.ternary (TRef.of (T := ⟨S2048, .i1⟩) main_v54) (TRef.of (T := ⟨S2048, .f32⟩) main_v60) (TRef.of (T := ⟨S2048, .f32⟩) main_call2_v1) (TRef.of (T := ⟨S2048, .f32⟩) main_v61) select,
    nullary main_cst_16 (constant S_ .f32 0x00000000#32),
    binary main_v61 main_cst_16 main_v62 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_c_17 (constantI S_ 32 0#32),
    binary main_v56 main_c_17 main_v63 (cmpi .sgt : (⟨S_, .i32⟩ : BufTy).Contents (Elt F) → (⟨S_, .i32⟩ : BufTy).Contents (Elt F) → (⟨S_, .i1⟩ : BufTy).Contents (Elt F)),
    unary main_v56 main_v64 (sitofp .f32 : (⟨S_, .i32⟩ : BufTy).Contents (Elt F) → (⟨S_, .f32⟩ : BufTy).Contents (Elt F)),
    binary main_v62 main_v64 main_v65 (Host.divf : (⟨S_, .f32⟩ : BufTy).Contents (Elt F) → (⟨S_, .f32⟩ : BufTy).Contents (Elt F) → (⟨S_, .f32⟩ : BufTy).Contents (Elt F)),
    nullary main_cst_18 (constant S_ .f32 0x00000000#32),
    TRef.ternary (TRef.of (T := ⟨S_, .i1⟩) main_v63) (TRef.of (T := ⟨S_, .f32⟩) main_v65) (TRef.of (T := ⟨S_, .f32⟩) main_cst_18) (TRef.of (T := ⟨S_, .f32⟩) main_v66) select ]

/-- The line is the seven stretches in order. -/
theorem ops_eq : (ops : List (HloOp τ sig (Elt F))) = opsA ++ (opsB ++ (opsC ++ (opsD ++ (opsE ++ (opsG ++ opsH))))) := rfl

/-- Running two lines one after the other is running their concatenation. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l, l₂, V => by rw [List.cons_append, StableHlo.after_cons, StableHlo.after_cons, after_app l l₂]

/-- THE VALUE of the whole line at the result and at the arguments. -/
theorem after_ops (V : Valuation τ sig (Elt F)) :
    StableHlo.after ops V (Proc.devRef .tc main_v66)
      = val_main_v66 (F := F) (V (Proc.devRef .tc main_arg0)) (V (Proc.devRef .tc main_arg1)) (V (Proc.devRef .tc main_arg2))
    ∧ StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2) := by
  rw [ops_eq, after_app, after_app, after_app, after_app, after_app, after_app]
  obtain ⟨a24, a4, a0, a1, a2⟩ := stageA V
  obtain ⟨b35, b4, b0, b1, b2⟩ := stageB (StableHlo.after opsA V) _ a24
  obtain ⟨c50, c35, c0, c1, c2⟩ := stageC (StableHlo.after opsB (StableHlo.after opsA V)) (b4.trans a4)
  rw [b1, b2, a1, a2] at c50
  obtain ⟨d53, d50, d0, d1, d2⟩ := stageD (StableHlo.after opsC (StableHlo.after opsB (StableHlo.after opsA V))) _ _ _ (c35.trans b35) c50
  obtain ⟨e54, e56, e53, e0, e1, e2⟩ := stageE (StableHlo.after opsD (StableHlo.after opsC (StableHlo.after opsB (StableHlo.after opsA V)))) _ _ (d50.trans c50)
  obtain ⟨g61, g56, g0, g1, g2⟩ := stageG (StableHlo.after opsE (StableHlo.after opsD (StableHlo.after opsC (StableHlo.after opsB (StableHlo.after opsA V))))) _ _ _ (e53.trans d53) e54
  obtain ⟨h66, h0, h1, h2⟩ := stageH (StableHlo.after opsG (StableHlo.after opsE (StableHlo.after opsD (StableHlo.after opsC (StableHlo.after opsB (StableHlo.after opsA V)))))) _ _ _ g61 (g56.trans e56)
  exact ⟨h66, h0.trans (g0.trans (e0.trans (d0.trans (c0.trans (b0.trans a0))))), h1.trans (g1.trans (e1.trans (d1.trans (c1.trans (b1.trans a1))))),
    h2.trans (g2.trans (e2.trans (d2.trans (c2.trans (b2.trans a2)))))⟩

/-! ## The run -/

set_option maxRecDepth 16384 in
set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., unary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., nullary_bufs_sub .., binary_bufs_sub .., unary_bufs_sub .., binary_bufs_sub .., unary_bufs_sub .., binary_bufs_sub .., nullary_bufs_sub .., binary_bufs_sub .., nullary_bufs_sub .., binary_bufs_sub .., unary_bufs_sub .., nullary_bufs_sub .., binary_bufs_sub .., nullary_bufs_sub .., unary_bufs_sub .., binary_bufs_sub .., unary_bufs_sub .., unary_bufs_sub .., nullary_bufs_sub .., unary_bufs_sub .., unary_bufs_sub .., ternary_bufs_sub .., nullary_bufs_sub .., binary_bufs_sub .., nullary_bufs_sub .., binary_bufs_sub .., unary_bufs_sub .., binary_bufs_sub .., nullary_bufs_sub .., ternary_bufs_sub ..⟩

/-- On every device, for any float values, from any memory with zero counters: every weakly fair execution of @main
    terminates with the result at the last stage's value of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = val_main_v66 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨e66, e0, e1, e2⟩ := after_ops (F := F) (fun b => m (c, b))
      exact ⟨(h c main_v66).trans e66, (h c main_arg0).trans e0, (h c main_arg1).trans e1, (h c main_arg2).trans e2⟩)
    (run_seq scopedRefs_eq scopedSems_eq defs main (fun _ => ops) main_eq (fun _ => ops_sub) m ρ)

end Cert.ReferenceIdeal.RefRun

end
-- ==== Proof.RefRead.lean ====
/-
  The reference's value, read index by index.

  Each named quantity of the specification is met where the reference computes it: the diagonal flag, the squared
  norms and inner products, the squared distance, the similarity, the row maximum, the softmax weights and their
  sum, the neighbour flag, the row's share, validity, loss, the count and the result.
-/
import proofs.«172015_j17892833755270_2_alg».proof.Proof.RefReadP
import proofs.«172015_j17892833755270_2_alg».proof.Proof.SpecR
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx
open scoped BigOperators

variable (x0 : (⟨S2048x32, .f32⟩ : BufTy).Contents (Elt Ideal))
  (x1 : (⟨S8192x30, .i32⟩ : BufTy).Contents (Elt Ideal))
  (x2 : (⟨S2048, .i32⟩ : BufTy).Contents (Elt Ideal))

/-! ## The diagonal flag -/

/-- At (r, j) the comparison of the row counter (plus the zero word) with the column counter is the diagonal flag. -/
theorem eye_eq (r j : Fin 2048) : val_main_v4 (F := Ideal) (ix2 r j) = Cert.SpecR.eye r j := by
  rw [val_main_v4_apply, val_main_v3_apply, val_main_v0_apply, val_main_v2_apply, val_main_c_apply, val_main_v1_apply]
  rfl

/-! ## Squared norms, inner products, the squared distance -/

theorem idx6_eq (r : Fin 2048) (k : Fin 32) : idx_main_v6 (ix1 r) k = ix2 r k :=
  funext fun a => Fin.ext (by match a with | ⟨0, _⟩ => rfl | ⟨1, _⟩ => rfl)

/-- The host's sum of the squared features of point `r`. -/
theorem sq_eq (r : Fin 2048) : val_main_v6 (F := Ideal) x0 (ix1 r) = Cert.SpecR.sq x0 r := by
  rw [val_main_v6_apply, val_main_cst_apply]
  simp only [val_main_v5_apply, idx6_eq, Ideal.mulf_def, Ideal.ofBits_def]
  rfl

theorem idx9_eq (r j : Fin 2048) : idx_main_v7 (idx_main_v9 (ix2 r j)) = ix1 r :=
  funext fun a => Fin.ext (by match a with | ⟨0, _⟩ => rfl)

theorem idx10_eq (r j : Fin 2048) : idx_main_v8 (idx_main_v10 (ix2 r j)) = ix1 j :=
  funext fun a => Fin.ext (by match a with | ⟨0, _⟩ => rfl)

theorem lidx13_eq (r j : Fin 2048) (k : Fin 32) : lidx_main_v13 (ix2 r j) k = ix2 r k :=
  funext fun a => Fin.ext (by match a with | ⟨0, _⟩ => rfl | ⟨1, _⟩ => rfl)

theorem ridx13_eq (r j : Fin 2048) (k : Fin 32) : idx_main_v12 (ridx_main_v13 (ix2 r j) k) = ix2 j k :=
  funext fun a => Fin.ext (by match a with | ⟨0, _⟩ => rfl | ⟨1, _⟩ => rfl)

/-- The matrix product of the points with their transpose, at (r, j), is the inner product of points `r` and `j`. -/
theorem dot_eq (r j : Fin 2048) : val_main_v13 (F := Ideal) x0 (ix2 r j) = Cert.SpecR.dot x0 r j := by
  rw [val_main_v13_apply]
  simp only [val_main_v12_apply, lidx13_eq, ridx13_eq]
  rfl

/-- The squared distance at (r, j): the row's norm broadcast along the row, the column's along the column, minus
    twice the product, cut off at zero. -/
theorem d2_eq (r j : Fin 2048) : val_main_v18 (F := Ideal) x0 (ix2 r j) = Cert.SpecR.d2 x0 r j := by
  rw [val_main_v18_apply, val_main_v16_apply, val_main_v11_apply, val_main_v9_apply, val_main_v7_apply,
    val_main_v10_apply, val_main_v8_apply, val_main_v15_apply, val_main_v14_apply, val_main_cst_0_apply,
    val_main_v17_apply, val_main_cst_1_apply, idx9_eq, idx10_eq, sq_eq, sq_eq, dot_eq]
  rfl

/-! ## The similarity -/

/-- The similarity at (r, j): the two selections on the diagonal flag around the negated root, over one. -/
theorem sim_eq (r j : Fin 2048) : val_main_v24 (F := Ideal) x0 (ix2 r j) = Cert.SpecR.sim x0 r j := by
  rw [val_main_v24_apply, val_main_call1_v1_apply, val_main_call1_v0_apply, val_main_cst_4_apply,
    val_main_v23_apply, val_main_v21_apply, val_main_v20_apply, val_main_v19_apply,
    val_main_call0_v1_apply, val_main_call0_v0_apply, val_main_cst_2_apply,
    val_main_v22_apply, val_main_cst_3_apply, eye_eq, d2_eq]
  rfl

/-! ## The row maximum, the weights and their sum -/

theorem reduces_cols : S2048x2048.Reduces [1] S2048 := by decide

/-- The row index `r` with column `k` put back is (r, k). -/
theorem lift_cols (r : Fin 2048) (k : Fin (S2048x2048.size 1)) :
    reduces_cols.lift (ix1 r) k = ix2 r (⟨k.val, k.isLt⟩ : Fin 2048) := by
  funext c; apply Fin.ext
  fin_cases c <;> rfl

/-- The host's maximum over the columns of row `r`'s similarities, from minus infinity. -/
theorem mxFold_eq (r : Fin 2048) : val_main_v25 (F := Ideal) x0 (ix1 r) = Cert.SpecR.mxFold x0 r := by
  unfold val_main_v25
  rw [Host.reduce_eq_fold_single FloatOps.maximumf _ _ reducesTo_S2048x2048_S2048_d1 reduces_cols h_S_]
  have hf : (val_main_v24 (F := Ideal) x0 ∘ reduces_cols.lift (ix1 r)) = fun j : Fin 2048 => Cert.SpecR.sim x0 r j :=
    funext fun k => (congrArg (val_main_v24 (F := Ideal) x0) (lift_cols r k)).trans (sim_eq x0 r _)
  rw [val_main_cst_5_apply]
  exact congrArg (fun f => Finset.fold max (Ideal.ofBits .f32 0xFF800000#32) f (Finset.univ : Finset (Fin 2048))) hf

/-- The row maximum taken once more against minus infinity. -/
theorem mx_eq (r : Fin 2048) : val_main_v27 (F := Ideal) x0 (ix1 r) = Cert.SpecR.mx x0 r := by
  rw [val_main_v27_apply, val_main_v26_apply, val_main_cst_6_apply, mxFold_eq]
  rfl

theorem idx29_eq (r j : Fin 2048) : idx_main_v28 (idx_main_v29 (ix2 r j)) = ix1 r :=
  funext fun a => Fin.ext (by match a with | ⟨0, _⟩ => rfl)

/-- The softmax weight at (r, j). -/
theorem pexp_eq (r j : Fin 2048) : val_main_v31 (F := Ideal) x0 (ix2 r j) = Cert.SpecR.pexp x0 r j := by
  rw [val_main_v31_apply, val_main_v30_apply, val_main_v29_apply, val_main_v28_apply, idx29_eq, sim_eq, mx_eq]
  rfl

theorem idx32_eq (r : Fin 2048) (k : Fin 2048) : idx_main_v32 (ix1 r) k = ix2 r k :=
  funext fun a => Fin.ext (by match a with | ⟨0, _⟩ => rfl | ⟨1, _⟩ => rfl)

/-- The host's sum of row `r`'s weights. -/
theorem den_eq (r : Fin 2048) : val_main_v32 (F := Ideal) x0 (ix1 r) = Cert.SpecR.den x0 r := by
  rw [val_main_v32_apply, val_main_cst_7_apply]
  simp only [idx32_eq, pexp_eq]
  rfl

/-! ## The neighbour flag -/

theorem idx45_eq (r j : Fin 2048) (k : Fin 30) : idx_main_v43 (idx_main_v45 (ix3 r k j)) = ix2 r k :=
  funext fun a => Fin.ext (by match a with | ⟨0, _⟩ => rfl | ⟨1, _⟩ => rfl)

theorem idx46_eq (r j : Fin 2048) (k : Fin 30) : idx_main_v44 (idx_main_v46 (ix3 r k j)) = ix1 j :=
  funext fun a => Fin.ext (by match a with | ⟨0, _⟩ => rfl)

/-- At (r, k, j): entry `k` of row `r`'s gathered list against the sample id of column `j`. -/
theorem hit_eq (r j : Fin 2048) (k : Fin 30) :
    val_main_v47 (F := Ideal) x1 x2 (ix3 r k j) = Cert.SpecR.hit (val_main_v42 (F := Ideal) x1 x2) x2 r j k := by
  rw [val_main_v47_apply, val_main_v45_apply, val_main_v43_apply, val_main_v46_apply, val_main_v44_apply,
    idx45_eq, idx46_eq]
  rfl

theorem reduces_list : S2048x30x2048.Reduces [1] S2048x2048 := by decide

/-- The index (r, j) with list position `k` put back is (r, k, j). -/
theorem lift_list (r j : Fin 2048) (k : Fin (S2048x30x2048.size 1)) :
    reduces_list.lift (ix2 r j) k = ix3 r (⟨k.val, k.isLt⟩ : Fin 30) j := by
  funext c; apply Fin.ext
  fin_cases c <;> rfl

/-- The host's disjunction over the thirty list positions. -/
theorem inSet_eq (r j : Fin 2048) :
    val_main_v48 (F := Ideal) x1 x2 (ix2 r j) = Cert.SpecR.inSet (val_main_v42 (F := Ideal) x1 x2) x2 r j := by
  unfold val_main_v48
  rw [Host.reduce_eq_fold_single IntOp.ori _ _ reducesTo_S2048x30x2048_S2048x2048_d1 reduces_list h_S_]
  have hf : (val_main_v47 (F := Ideal) x1 x2 ∘ reduces_list.lift (ix2 r j))
      = fun k : Fin 30 => Cert.SpecR.hit (val_main_v42 (F := Ideal) x1 x2) x2 r j k :=
    funext fun k => (congrArg (val_main_v47 (F := Ideal) x1 x2) (lift_list r j k)).trans (hit_eq x1 x2 r j _)
  rw [val_main_c_10_apply]
  exact congrArg (fun f => Finset.fold IntOp.ori 0#1 f (Finset.univ : Finset (Fin 30))) hf

/-- The neighbour flag at (r, j): in the list, and not on the diagonal. -/
theorem mask_eq (r j : Fin 2048) :
    val_main_v50 (F := Ideal) x1 x2 (ix2 r j) = Cert.SpecR.mask (val_main_v42 (F := Ideal) x1 x2) x2 r j := by
  rw [val_main_v50_apply, val_main_v49_apply, inSet_eq, eye_eq]
  rfl

/-- The neighbour flag as a number. -/
theorem maskF_eq (r j : Fin 2048) :
    val_main_v51 (F := Ideal) x1 x2 (ix2 r j) = Cert.SpecR.maskF (val_main_v42 (F := Ideal) x1 x2) x2 r j := by
  rw [val_main_v51_apply, mask_eq]
  rfl

/-- The host's disjunction over the columns of row `r`'s neighbour flags. -/
theorem valid_eq (r : Fin 2048) :
    val_main_v54 (F := Ideal) x1 x2 (ix1 r) = Cert.SpecR.valid (val_main_v42 (F := Ideal) x1 x2) x2 r := by
  unfold val_main_v54
  rw [Host.reduce_eq_fold_single IntOp.ori _ _ reducesTo_S2048x2048_S2048_d1 reduces_cols h_S_]
  have hf : (val_main_v50 (F := Ideal) x1 x2 ∘ reduces_cols.lift (ix1 r))
      = fun j : Fin 2048 => Cert.SpecR.mask (val_main_v42 (F := Ideal) x1 x2) x2 r j :=
    funext fun k => (congrArg (val_main_v50 (F := Ideal) x1 x2) (lift_cols r k)).trans (mask_eq x1 x2 r _)
  rw [val_main_c_12_apply]
  exact congrArg (fun f => Finset.fold IntOp.ori 0#1 f (Finset.univ : Finset (Fin 2048))) hf

/-! ## The row's share, its loss -/

theorem idx34_eq (r j : Fin 2048) : idx_main_v33 (idx_main_v34 (ix2 r j)) = ix1 r :=
  funext fun a => Fin.ext (by match a with | ⟨0, _⟩ => rfl)

/-- At (r, j): the weight over the row's sum, times the neighbour flag. -/
theorem term_eq (r j : Fin 2048) :
    val_main_v52 (F := Ideal) x0 x1 x2 (ix2 r j) = Cert.SpecR.term x0 (val_main_v42 (F := Ideal) x1 x2) x2 r j := by
  rw [val_main_v52_apply, val_main_v35_apply, val_main_v34_apply, val_main_v33_apply, idx34_eq,
    pexp_eq, den_eq, maskF_eq]
  rfl

theorem idx53_eq (r : Fin 2048) (k : Fin 2048) : idx_main_v53 (ix1 r) k = ix2 r k :=
  funext fun a => Fin.ext (by match a with | ⟨0, _⟩ => rfl | ⟨1, _⟩ => rfl)

/-- The host's sum of row `r`'s kept normalised weights. -/
theorem s_eq (r : Fin 2048) :
    val_main_v53 (F := Ideal) x0 x1 x2 (ix1 r) = Cert.SpecR.s x0 (val_main_v42 (F := Ideal) x1 x2) x2 r := by
  rw [val_main_v53_apply, val_main_cst_11_apply]
  simp only [idx53_eq, term_eq]
  rfl

/-- Row `r`'s loss: the selection on its validity bit. -/
theorem loss_eq (r : Fin 2048) :
    val_main_v61 (F := Ideal) x0 x1 x2 (ix1 r) = Cert.SpecR.loss x0 (val_main_v42 (F := Ideal) x1 x2) x2 r := by
  rw [val_main_v61_apply, val_main_v60_apply, val_main_v59_apply, val_main_v58_apply, val_main_v57_apply,
    val_main_cst_14_apply, val_main_call2_v1_apply, val_main_call2_v0_apply, val_main_cst_15_apply,
    valid_eq, s_eq]
  rfl

/-! ## The count, the sum of the losses, the result -/

/-- A rank-one index is its coordinate. -/
def idxEquiv1 : S2048.Idx ≃ Fin 2048 where
  toFun j := j 0
  invFun r := ix1 r
  left_inv j := (eq_ix1 j).symm
  right_inv _ := rfl

/-- The host's sum of the 2048 losses. -/
theorem total_eq (i : S_.Idx) :
    val_main_v62 (F := Ideal) x0 x1 x2 i = Cert.SpecR.total x0 (val_main_v42 (F := Ideal) x1 x2) x2 := by
  rw [val_main_v62_apply, val_main_cst_16_apply,
    ← Equiv.sum_comp idxEquiv1.symm (val_main_v61 (F := Ideal) x0 x1 x2)]
  refine congrArg (_ + ·) (Finset.sum_congr rfl fun r _ => ?_)
  exact loss_eq x0 x1 x2 r

/-- The host's integer sum of the widened validity bits: every row index drops to the one scalar index, so the
    fold runs over all 2048 rows. -/
theorem count_eq (i : S_.Idx) :
    val_main_v56 (F := Ideal) x1 x2 i = Cert.SpecR.count (val_main_v42 (F := Ideal) x1 x2) x2 := by
  unfold val_main_v56
  rw [Host.reduce_eq_fold IntOp.addi _ _ reducesTo_S2048_S_d0 h_S_]
  have hall : ∀ j : S2048.Idx, reducesTo_S2048_S_d0.drop j = i := fun j => funext fun a => a.elim0
  simp only [hall, Finset.filter_true]
  rw [← Finset.map_univ_equiv idxEquiv1.symm, Finset.fold_map, val_main_c_13_apply]
  refine congrArg (fun f => Finset.fold IntOp.addi 0#32 f (Finset.univ : Finset (Fin 2048))) (funext fun r => ?_)
  show val_main_v55 (F := Ideal) x1 x2 (ix1 r) = _
  rw [val_main_v55_apply, valid_eq]

/-- The reference's result is the specification's. -/
theorem result_eq (i : S_.Idx) :
    val_main_v66 (F := Ideal) x0 x1 x2 i = Cert.SpecR.result x0 (val_main_v42 (F := Ideal) x1 x2) x2 := by
  rw [val_main_v66_apply, val_main_v63_apply, val_main_c_17_apply, val_main_v65_apply, val_main_v64_apply,
    val_main_cst_18_apply, count_eq, total_eq]
  rfl

end Cert.ReferenceIdeal.RefValue

end
-- ==== Proof.lean ====
/-
  A neighbourhood-preservation loss over 2048 points of 32 features: for each point the softmax, over the other
  points, of minus the Euclidean distance; a point's loss is minus the logarithm of the share of that softmax its
  pre-computed neighbours take, and the result is the mean loss over the points that have a neighbour in the batch.

  The kernel computes it 256 rows at a time: per grid point the block of rows, all the points, the row of squared
  norms and the neighbour lists of the rows are brought in, the distances come from the Gram matrix, the neighbour
  mask from thirty membership tests, and the share from ONE division of the masked sum of weights by their total;
  the host sums the two result columns (losses, validity flags) and divides. The reference computes the whole
  2048 x 2048 softmax, normalises every weight, and sums the normalised weights over the mask; it counts the valid
  rows in integers.

  Proved here: each of the three programs runs to the end without fault and leaves its arguments unchanged; the
  idealized kernel is the printed kernel read over the extended reals (no rewrite was applied); and on finite
  points the idealized kernel and the idealized reference return the same extended real. The array of points is
  handed to the kernel region through two windows, so the region holds it in two halves and rejoins them at its
  exit. The two results agree by one law, which needs the points finite: a sum of real weights divided by their
  positive real total is the sum of the quotients.
-/
import proofs.«172015_j17892833755270_2_alg».proof.Defs
import proofs.«172015_j17892833755270_2_alg».proof.Proof.Gen.Kernel
import proofs.«172015_j17892833755270_2_alg».proof.Proof.Gen.KernelIdeal
import proofs.«172015_j17892833755270_2_alg».proof.Proof.Gen.ReferenceIdeal
import proofs.«172015_j17892833755270_2_alg».proof.Proof.Gen.Pre_finite_inputs
import proofs.«172015_j17892833755270_2_alg».proof.Proof.ValB
import proofs.«172015_j17892833755270_2_alg».proof.Proof.FinalI
import proofs.«172015_j17892833755270_2_alg».proof.Proof.Finite
import proofs.«172015_j17892833755270_2_alg».proof.Proof.RefRun
import proofs.«172015_j17892833755270_2_alg».proof.Proof.RefRead
import Idealize.ShloMosaic.Adequacy
import Idealize.ShloMosaic.Init

noncomputable section

namespace Cert.Proof

open Idealize.ShloMosaic Idealize.SL.Sem

/-- The printed kernel runs to the end, faults nowhere, and leaves its arguments unchanged. -/
theorem frame_kernel : Cert.frame_Kernel := fun m ρ _ => Cert.Kernel.Hand.frame m ρ

/-- So does the idealized kernel, -/
theorem frame_kernelIdeal : Cert.frame_KernelIdeal := fun m ρ _ => Cert.KernelIdeal.Hand.frame m ρ

/-- and the idealized reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealized kernel is the kernel's own text read over the extended reals: no operation was rewritten. -/
theorem preserves : Cert.preserves_Kernel_KernelIdeal := trivial

/-- On finite points, from memories agreeing on the arguments, the two idealized programs return the same number:
    the kernel's tail of its two columns is the reference's closed form (the rows' readings joined), and the
    reference's last stage is that closed form. -/
theorem algebraic : Cert.algebraic_KernelIdeal_ReferenceIdeal := by
  intro m ρ m' ρ' hpre hagree
  refine ⟨fun c => Cert.KernelIdeal.Hand.tail (F := Ideal) (Cert.KernelIdeal.Hand.lossArr m ρ c) (Cert.KernelIdeal.Hand.validArr m ρ c),
    Cert.KernelIdeal.Hand.run_val m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2⟩ := hagree c
  rw [a0, a1, a2]
  have hreal := Cert.Finite.real_of_pre _ _ _ (hpre c)
  choose z' hz' using hreal
  funext i
  rw [Cert.ReferenceIdeal.RefValue.result_eq]
  exact (Cert.KernelIdeal.Hand.result_eq m ρ z' c hz' i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
